-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 47
  | .vmem => 9
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096, .f32⟩
  | .hbm, ⟨6, _⟩ => ⟨S4096x1, .i32⟩
  | .hbm, ⟨7, _⟩ => ⟨S_, .i32⟩
  | .hbm, ⟨8, _⟩ => ⟨S4096x1, .i32⟩
  | .hbm, ⟨9, _⟩ => ⟨S4096x1, .i1⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1, .i32⟩
  | .hbm, ⟨14, _⟩ => ⟨S4096x1x1, .i32⟩
  | .hbm, ⟨15, _⟩ => ⟨S1, .i32⟩
  | .hbm, ⟨16, _⟩ => ⟨S_, .i32⟩
  | .hbm, ⟨17, _⟩ => ⟨S4096x1x1, .i32⟩
  | .hbm, ⟨18, _⟩ => ⟨S4096x1x1, .i1⟩
  | .hbm, ⟨19, _⟩ => ⟨S1x1x1, .i32⟩
  | .hbm, ⟨20, _⟩ => ⟨S4096x1x1, .i32⟩
  | .hbm, ⟨21, _⟩ => ⟨S4096x1x1, .i1⟩
  | .hbm, ⟨22, _⟩ => ⟨S4096x1x1, .i1⟩
  | .hbm, ⟨23, _⟩ => ⟨S_, .i1⟩
  | .hbm, ⟨24, _⟩ => ⟨S4096x1, .i1⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def k0_cond3 (i : grid0.Coords) : BitVec 1 :=
  let arg1 : BitVec 32 := BitVec.ofNat 32 (i 1).val
  let c24_i32 : BitVec 32 := 24#32
  let v0 : BitVec 1 := Scalar.cmpi .eq arg1 c24_i32
  let v8 : BitVec 32 := Scalar.extui v0
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  iota_S512x2048_d1_w32 : S512x2048.Iotas .tc 32 [1]
  shapeCasts_S4096x1_S4096 : S4096x1.ShapeCasts S4096
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S_S4096 : S_.BroadcastsInDim S4096 (![] : Fin 0 → Fin S4096.rank)
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x2048.size a < S4096x50257.size a
  hwx0_0 : ∀ i : grid0.Coords, EltTy.bits .f32 = 32 ∨ (Rect.unit (s := S4096x50257) (fun a => cc0_transform_0 i a * S512x2048.size a) (fun a => (Pipeline.Clip.of (cc0_transform_0 i a) (S512x2048.size a) (S4096x50257.size a)).extent (S512x2048.size a)) fun a => Pipeline.Clip.inb (Pipeline.Clip.ok_of (hstart0_0 i a))).WholeWords (EltTy.packing .f32)
  hwxs0_0 : ∀ i : grid0.Coords, EltTy.bits .f32 = 32 ∨ (Rect.unit (s := S512x2048) (fun _ => 0) (fun a => (Pipeline.Clip.of (cc0_transform_0 i a) (S512x2048.size a) (S4096x50257.size a)).extent (S512x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpecClip (Memref.whole main_arg0) S512x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond3 i == 1#1) | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_2 : Ref sig .tc := ⟨.hbm, 51, rfl⟩
abbrev main_v11 : Ref sig .tc := ⟨.hbm, 52, rfl⟩
abbrev main_cst_3 : Ref sig .tc := ⟨.hbm, 53, rfl⟩
abbrev main_v12 : Ref sig .tc := ⟨.hbm, 54, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.BRunA.lean ====
/-
  The body of the kernel at one grid point, case by case.

  The grid is 8 row blocks by 25 column blocks; a point's second coordinate k says which of three things the body does:
  at k = 0 it resets the three carried columns (running maximum to the bottom word, running normaliser and running total
  to zero) and then takes the plain step; at 0 < k < 24 it takes the plain step; at k = 24 it takes the masked step (only
  the columns inside the array count) and writes the two results.  Each case is run once, on whole staging buffers,
  and what each buffer ends with is found as the list of stores into it.
-/
import proofs.«150753_j16406775071064_2_alg».proof.Proof.Gen.Kernel.Frame
import proofs.«150753_j16406775071064_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three branch conditions, as the body computes them from the column-block coordinate -/

/-- `k = 0`: the reset. -/
abbrev cond0 (i : grid0.Coords) : Prop :=
  (Scalar.cmpi .ne (Scalar.extui (Scalar.cmpi .eq (BitVec.ofNat 32 (i 1).val) 0#32)) 0#32) = 1#1
/-- `k ≠ 24`: the plain step. -/
abbrev cond1 (i : grid0.Coords) : Prop :=
  (Scalar.cmpi .ne (Scalar.extui (Scalar.xori (Scalar.cmpi .eq (BitVec.ofNat 32 (i 1).val) 24#32) 1#1)) 0#32) = 1#1
/-- `k = 24`: the masked step and the results. -/
abbrev cond2 (i : grid0.Coords) : Prop := k0_cond3 i = 1#1

/-- Over the 200 points, in closed form: the column block of point `t` is `t mod 25`. -/
theorem hcond0 : ∀ t : Fin cfg0.N, cond0 (grid0.coords t) ↔ t.val % 25 = 0 :=
  (by decide +kernel : ∀ t : Fin grid0.N, cond0 (grid0.coords t) ↔ t.val % 25 = 0)
theorem hcond1 : ∀ t : Fin cfg0.N, cond1 (grid0.coords t) ↔ ¬ t.val % 25 = 24 :=
  (by decide +kernel : ∀ t : Fin grid0.N, cond1 (grid0.coords t) ↔ ¬ t.val % 25 = 24)
theorem hcond2 : ∀ t : Fin cfg0.N, cond2 (grid0.coords t) ↔ t.val % 25 = 24 :=
  (by decide +kernel : ∀ t : Fin grid0.N, cond2 (grid0.coords t) ↔ t.val % 25 = 24)

/-! ## Where the windows are idle and written back -/

theorem live0 : ∀ t : Fin cfg0.N, cfg0.idle 0 (grid0.coords t) = false := by decide +kernel
theorem idle1 : ∀ t : Fin cfg0.N, ¬ t.val % 25 = 24 → cfg0.idle 1 (grid0.coords t) = true := by decide +kernel
theorem idle2 : ∀ t : Fin cfg0.N, ¬ t.val % 25 = 24 → cfg0.idle 2 (grid0.coords t) = true := by decide +kernel
theorem live1 : ∀ t : Fin cfg0.N, t.val % 25 = 24 → cfg0.idle 1 (grid0.coords t) = false := by decide +kernel
theorem live2 : ∀ t : Fin cfg0.N, t.val % 25 = 24 → cfg0.idle 2 (grid0.coords t) = false := by decide +kernel
theorem loose0 : cfg0.loose 0 = true := by decide +kernel
theorem loose1 : cfg0.loose 1 = false := by decide +kernel
theorem loose2 : cfg0.loose 2 = false := by decide +kernel

/-! ## The scratch operands -/

abbrev scM5 : Memref sig .tc .vmem S512x1 .f32 := Memref.whole cc0_scratch0
abbrev scM6 : Memref sig .tc .vmem S512x1 .f32 := Memref.whole cc0_scratch1
abbrev scM7 : Memref sig .tc .vmem S512x1 .f32 := Memref.whole cc0_scratch2

/-- The class invariant with the three scratch buffers as memrefs owned at some contents. -/
theorem PhiA_eq (c : Dev nD) :
    (Pipeline.ΦA spec0 c : sProp 𝕄)
      = iprop(iprop((∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM5, scM6, scM7, owns_whole]; try rfl

set_option maxHeartbeats 4000000 in
/-- Column block 0: the reset, then the plain step.  The three carried columns are handed in at anything and come back
    with the stores of this point written. -/
noncomputable def runA (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) :
    Σ' (L5 : List (View.Piece (Elt F) S512x1 .f32)) (L6 : List (View.Piece (Elt F) S512x1 .f32)), { L7 : List (View.Piece (Elt F) S512x1 .f32) //
      ∀ (E : Set ℕ) (K : PUnit → sProp 𝕄),
        iprop(owns (c : Thread nD τ) arg2 fullShare x0 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__ls_kernel i arg2 harg2 arg3 harg3 arg4 harg4 arg5 harg5 arg6 harg6 arg7 harg7) K } := by
  refine ⟨?_, ?_, ?_, fun E K => ?run⟩
  case run =>
    simp only [cc0__ls_kernel_eq_skeleton]; unfold cc0__ls_kernel_skel
    unfold owns
    iintro ⟨⟨%f0, %hf0, H0⟩, ⟨%d5, %f5, -, H5⟩, ⟨%d6, %f6, -, H6⟩, ⟨%d7, %f7, -, H7⟩, Hk⟩
    obtain rfl := harg2.eq_unread hf0
    sl_exec (disch := first | exact hc0 | exact hc1 | exact hc2)
    sl_step
    iapply Hk
    isplitl [H0]
    · iexists _; isplitr; · ipureintro; exact harg2.read_unread _
      iexact H0
    isplitl [H5]; · iexists _; iexact H5
    isplitl [H6]; · iexists _; iexact H6
    iexists _; iexact H7

end Cert.Kernel.Body

end
-- ==== Proof.BRunB.lean ====
/-
  The body at a column block strictly between the first and the last: the plain step of the running maximum, the running
  normaliser and the running total, from what the point before left in the three carried columns.
-/
import proofs.«150753_j16406775071064_2_alg».proof.Proof.BRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Column blocks 1 … 23: the plain step.  The carried columns come in at `xs5`, `xs6`, `xs7` and come back with this
    point's stores written. -/
noncomputable def runB (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) :
    Σ' (L5 : List (View.Piece (Elt F) S512x1 .f32)) (L6 : List (View.Piece (Elt F) S512x1 .f32)), { L7 : List (View.Piece (Elt F) S512x1 .f32) //
      ∀ (E : Set ℕ) (K : PUnit → sProp 𝕄),
        iprop(owns (c : Thread nD τ) arg2 fullShare x0 ∗ owns (c : Thread nD τ) arg5 fullShare xs5 ∗ owns (c : Thread nD τ) arg6 fullShare xs6 ∗ owns (c : Thread nD τ) arg7 fullShare xs7
            ∗ (iprop(owns (c : Thread nD τ) arg2 fullShare x0 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__ls_kernel i arg2 harg2 arg3 harg3 arg4 harg4 arg5 harg5 arg6 harg6 arg7 harg7) K } := by
  refine ⟨?_, ?_, ?_, fun E K => ?run⟩
  case run =>
    simp only [cc0__ls_kernel_eq_skeleton]; unfold cc0__ls_kernel_skel
    unfold owns
    iintro ⟨⟨%f0, %hf0, H0⟩, ⟨%f5, %hf5, H5⟩, ⟨%f6, %hf6, H6⟩, ⟨%f7, %hf7, H7⟩, Hk⟩
    obtain rfl := harg2.eq_unread hf0; obtain rfl := harg5.eq_unread hf5; obtain rfl := harg6.eq_unread hf6; obtain rfl := harg7.eq_unread hf7
    sl_exec (disch := first | exact hc0 | exact hc1 | exact hc2)
    sl_step
    iapply Hk
    isplitl [H0]
    · iexists _; isplitr; · ipureintro; exact harg2.read_unread _
      iexact H0
    isplitl [H5]; · iexists _; iexact H5
    isplitl [H6]; · iexists _; iexact H6
    iexists _; iexact H7

end Cert.Kernel.Body

end
-- ==== Proof.BRunC.lean ====
/-
  The body at the last column block: the masked step (a lane counts only when its column lies inside the array: the
  maximum is taken against the bottom word there, the exponentials and the entries against zero), then the two results:
  the row's log-sum-exp (running maximum plus the logarithm of the running normaliser) and the row's total.
-/
import proofs.«150753_j16406775071064_2_alg».proof.Proof.BRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Column block 24: the masked step and the results.  The carried columns come in at `xs5`, `xs6`, `xs7`, the two result
    buffers at anything; all five come back with this point's stores written. -/
noncomputable def runC (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) :
    Σ' (L3 : List (View.Piece (Elt F) S512x1 .f32)) (L4 : List (View.Piece (Elt F) S512x1 .f32)) (L5 : List (View.Piece (Elt F) S512x1 .f32)) (L6 : List (View.Piece (Elt F) S512x1 .f32)), { L7 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6 ∗ owns (c : Thread nD τ) arg7 fullShare xs7
            ∗ (iprop(owns (c : Thread nD τ) arg2 fullShare x0 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__ls_kernel i arg2 harg2 arg3 harg3 arg4 harg4 arg5 harg5 arg6 harg6 arg7 harg7) K } := by
  refine ⟨?_, ?_, ?_, ?_, ?_, fun E K => ?run⟩
  case run =>
    simp only [cc0__ls_kernel_eq_skeleton]; unfold cc0__ls_kernel_skel
    unfold owns
    iintro ⟨⟨%f0, %hf0, H0⟩, ⟨%d3, %f3, -, H3⟩, ⟨%d4, %f4, -, H4⟩, ⟨%f5, %hf5, H5⟩, ⟨%f6, %hf6, H6⟩, ⟨%f7, %hf7, H7⟩, Hk⟩
    obtain rfl := harg2.eq_unread hf0; obtain rfl := harg5.eq_unread hf5; obtain rfl := harg6.eq_unread hf6; obtain rfl := harg7.eq_unread hf7
    sl_exec (disch := first | exact hc0 | exact hc1 | exact hc2)
    sl_step
    iapply Hk
    isplitl [H0]
    · iexists _; isplitr; · ipureintro; exact harg2.read_unread _
      iexact H0
    isplitl [H3]; · iexists _; iexact H3
    isplitl [H4]; · iexists _; iexact H4
    isplitl [H5]; · iexists _; iexact H5
    isplitl [H6]; · iexists _; iexact H6
    iexists _; iexact H7

end Cert.Kernel.Body

end
-- ==== Proof.BPieces.lean ====
/-
  What the body leaves in each buffer, case by case, as a function of what it found.

  Every store of the body covers its whole buffer, so a buffer ends with the payload of the last store into it, and a
  load that follows a store reads that store's payload.  With `x` the input block as the body found it and
  `(s5, s6, s7)` the three carried columns (running maximum, running normaliser, running total):
  the plain step leaves  (max s5 (row maxima of x),  s6 * exp (s5 - new maximum) + row sums of exp (x - new maximum),  s7 + row sums of x);
  the reset first puts (bottom word, zero, zero) there;  the masked step is the plain one with the lanes outside the array
  replaced by the bottom word (for the maximum) and by zero (for the two sums), and the results are
  new maximum + log (new normaliser) and the new total.
-/
import proofs.«150753_j16406775071064_2_alg».proof.Proof.BRunC
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel.Facts₀

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Three carried columns. -/
abbrev S3 (F : FTy → Type) : Type := Vec F S512x1 .f32 × Vec F S512x1 .f32 × Vec F S512x1 .f32

/-- What the reset stores: the bottom word, zero, zero. -/
def initS : S3 F := (k0_pay1, k0_pay2, k0_pay3)
/-- The plain step on an input block `x`. -/
def stepP (x : Vec F S512x2048 .f32) (s : S3 F) : S3 F := (k0_pay7 x s.1, k0_pay5 x s.1 s.1 s.2.1, k0_pay6 x s.2.2)
/-- The masked step at column block `a`. -/
def stepM (a : BitVec 32) (x : Vec F S512x2048 .f32) (s : S3 F) : S3 F :=
  (k0_pay8 (k0_pay11 a x s.1), k0_pay12 a x s.1 s.1 s.2.1, k0_pay13 a x s.2.2)
/-- The first result: the new maximum plus the logarithm of the new normaliser. -/
def outL (a : BitVec 32) (x : Vec F S512x2048 .f32) (s : S3 F) : Vec F S512x1 .f32 :=
  k0_pay9 (k0_pay8 (k0_pay11 a x s.1)) (k0_pay12 a x s.1 s.1 s.2.1)
/-- The second result: the new total. -/
def outS (a : BitVec 32) (x : Vec F S512x2048 .f32) (s : S3 F) : Vec F S512x1 .f32 := k0_pay13 a x s.2.2

/-! ### The plain step -/

theorem contB5 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) (v : View sig .tc .vmem S512x1 .f32) (f : v.ty.Contents (Elt F)) : v.read (Elt F) (v.writes (Elt F) f (runB c i arg2 harg2 arg3 harg3 arg4 harg4 arg5 harg5 arg6 harg6 arg7 harg7 hc0 hc1 hc2 x0 xs5 xs6 xs7).1) = (stepP x0 (xs5, xs6, xs7)).1 := by
  unfold runB; dsimp only
  rw [View.read_writes_eq_canon _ _ _ (fun y => ⟨_, List.mem_singleton_self _, View.mem_set_unit_zero hz Cert.Kernel.Facts₀.inb_S512x1_S512x1_0_0 y⟩), View.canon_unit_zero hz]
  simp only [View.readAt_eq_ld, harg2.read_unread, harg5.read_unread, harg6.read_unread, harg7.read_unread, View.ld_unit_zero (S := S512x2048) hz, View.ld_unit_zero (S := S512x1) hz]
  rfl
theorem contB6 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) (v : View sig .tc .vmem S512x1 .f32) (f : v.ty.Contents (Elt F)) : v.read (Elt F) (v.writes (Elt F) f (runB c i arg2 harg2 arg3 harg3 arg4 harg4 arg5 harg5 arg6 harg6 arg7 harg7 hc0 hc1 hc2 x0 xs5 xs6 xs7).2.1) = (stepP x0 (xs5, xs6, xs7)).2.1 := by
  unfold runB; dsimp only
  rw [View.read_writes_eq_canon _ _ _ (fun y => ⟨_, List.mem_singleton_self _, View.mem_set_unit_zero hz Cert.Kernel.Facts₀.inb_S512x1_S512x1_0_0 y⟩), View.canon_unit_zero hz]
  simp only [View.readAt_eq_ld, harg2.read_unread, harg5.read_unread, harg6.read_unread, harg7.read_unread, View.ld_unit_zero (S := S512x2048) hz, View.ld_unit_zero (S := S512x1) hz]
  rfl
theorem contB7 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) (v : View sig .tc .vmem S512x1 .f32) (f : v.ty.Contents (Elt F)) : v.read (Elt F) (v.writes (Elt F) f (runB c i arg2 harg2 arg3 harg3 arg4 harg4 arg5 harg5 arg6 harg6 arg7 harg7 hc0 hc1 hc2 x0 xs5 xs6 xs7).2.2.1) = (stepP x0 (xs5, xs6, xs7)).2.2 := by
  unfold runB; dsimp only
  rw [View.read_writes_eq_canon _ _ _ (fun y => ⟨_, List.mem_singleton_self _, View.mem_set_unit_zero hz Cert.Kernel.Facts₀.inb_S512x1_S512x1_0_0 y⟩), View.canon_unit_zero hz]
  simp only [View.readAt_eq_ld, harg2.read_unread, harg5.read_unread, harg6.read_unread, harg7.read_unread, View.ld_unit_zero (S := S512x2048) hz, View.ld_unit_zero (S := S512x1) hz]
  rfl

/-! ### The reset followed by the plain step -/

theorem contA5 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) (v : View sig .tc .vmem S512x1 .f32) (f : v.ty.Contents (Elt F)) : v.read (Elt F) (v.writes (Elt F) f (runA c i arg2 harg2 arg3 harg3 arg4 harg4 arg5 harg5 arg6 harg6 arg7 harg7 hc0 hc1 hc2 x0).1) = (stepP x0 initS).1 := by
  unfold runA; dsimp only
  sl_unfold_words
  rw [View.read_writes_eq_canon _ _ _ (fun y => ⟨_, List.mem_cons_self, View.mem_set_unit_zero hz Cert.Kernel.Facts₀.inb_S512x1_S512x1_0_0 y⟩), View.canon_cons_unit_zero (S := S512x1) hz]
  simp only [View.readCov_unit_zero (S := S512x1) _ hz, View.readAt_eq_ld, harg2.read_unread, View.ld_unit_zero (S := S512x2048) hz]
  rfl
theorem contA6 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) (v : View sig .tc .vmem S512x1 .f32) (f : v.ty.Contents (Elt F)) : v.read (Elt F) (v.writes (Elt F) f (runA c i arg2 harg2 arg3 harg3 arg4 harg4 arg5 harg5 arg6 harg6 arg7 harg7 hc0 hc1 hc2 x0).2.1) = (stepP x0 initS).2.1 := by
  unfold runA; dsimp only
  sl_unfold_words
  rw [View.read_writes_eq_canon _ _ _ (fun y => ⟨_, List.mem_cons_self, View.mem_set_unit_zero hz Cert.Kernel.Facts₀.inb_S512x1_S512x1_0_0 y⟩), View.canon_cons_unit_zero (S := S512x1) hz]
  simp only [View.readCov_unit_zero (S := S512x1) _ hz, View.readAt_eq_ld, harg2.read_unread, View.ld_unit_zero (S := S512x2048) hz]
  rfl
theorem contA7 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) (v : View sig .tc .vmem S512x1 .f32) (f : v.ty.Contents (Elt F)) : v.read (Elt F) (v.writes (Elt F) f (runA c i arg2 harg2 arg3 harg3 arg4 harg4 arg5 harg5 arg6 harg6 arg7 harg7 hc0 hc1 hc2 x0).2.2.1) = (stepP x0 initS).2.2 := by
  unfold runA; dsimp only
  sl_unfold_words
  rw [View.read_writes_eq_canon _ _ _ (fun y => ⟨_, List.mem_cons_self, View.mem_set_unit_zero hz Cert.Kernel.Facts₀.inb_S512x1_S512x1_0_0 y⟩), View.canon_cons_unit_zero (S := S512x1) hz]
  simp only [View.readCov_unit_zero (S := S512x1) _ hz, View.readAt_eq_ld, harg2.read_unread, View.ld_unit_zero (S := S512x2048) hz]
  rfl

/-! ### The masked step and the results -/

theorem contC3 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).1) = outL (BitVec.ofNat 32 (i 1).val) x0 (xs5, xs6, xs7) := by
  unfold runC; dsimp only
  sl_unfold_words
  rw [View.read_writes_eq_canon _ _ _ (fun y => ⟨_, List.mem_singleton_self _, View.mem_set_unit_zero hz Cert.Kernel.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC4 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.1) = outS (BitVec.ofNat 32 (i 1).val) x0 (xs5, xs6, xs7) := by
  unfold runC; dsimp only
  sl_unfold_words
  rw [View.read_writes_eq_canon _ _ _ (fun y => ⟨_, List.mem_singleton_self _, View.mem_set_unit_zero hz Cert.Kernel.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC5 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.2.1) = (stepM (BitVec.ofNat 32 (i 1).val) x0 (xs5, xs6, xs7)).1 := by
  unfold runC; dsimp only
  sl_unfold_words
  rw [View.read_writes_eq_canon _ _ _ (fun y => ⟨_, List.mem_singleton_self _, View.mem_set_unit_zero hz Cert.Kernel.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC6 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.2.2.1) = (stepM (BitVec.ofNat 32 (i 1).val) x0 (xs5, xs6, xs7)).2.1 := by
  unfold runC; dsimp only
  sl_unfold_words
  rw [View.read_writes_eq_canon _ _ _ (fun y => ⟨_, List.mem_singleton_self _, View.mem_set_unit_zero hz Cert.Kernel.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC7 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.2.2.2.1) = (stepM (BitVec.ofNat 32 (i 1).val) x0 (xs5, xs6, xs7)).2.2 := by
  unfold runC; dsimp only
  sl_unfold_words
  rw [View.read_writes_eq_canon _ _ _ (fun y => ⟨_, List.mem_singleton_self _, View.mem_set_unit_zero hz Cert.Kernel.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl

end Cert.Kernel.Body

end
-- ==== Proof.BData.lean ====
/-
  The proof data of the pipeline: what every buffer holds, point by point.

  Point t = 25 i + k works on rows 512 i … 512 i + 511 and columns 2048 k … 2048 k + 2047.  The input window's block at
  k = 24 overhangs the array: only its first 1105 columns are fetched, and the lanes past them hold words nothing names.
  The block "as the body finds it" is therefore stated with one fixed word in those lanes; that the carried columns do
  not depend on the choice is shown where it is used (the masked step reads those lanes only through a select whose
  condition is false there; at every other point no lane is past the end).

  The three carried columns after point t are given by recursion on t: the reset and a plain step at k = 0, a plain
  step at 0 < k < 24, the masked step at k = 24; the two results are written at k = 24 only.
-/
import proofs.«150753_j16406775071064_2_alg».proof.Proof.BPieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word standing in the lanes of a clipped block that lie past the array's end. -/
def zfill : S512x2048.Idx → Elt F .f32 := fun _ => Scalar.ofBits .f32 0#32

/-- The input window's block at point `t`: its part inside the array. -/
def xblk (c : Dev nD) (t : Fin cfg0.N) : (win0_0.xblock (grid0.coords t)).Idx → Elt F .f32 := iblk m c 0 t

/-- The input block as the body is taken to find it: the part inside the array, filled out with `zfill`. -/
def xin (c : Dev nD) (t : Fin cfg0.N) : Vec F S512x2048 .f32 := win0_0.fill (grid0.coords t) zfill (xblk m c t)

/-- The column-block coordinate of point `t`, as the word the body computes with. -/
abbrev kw (t : Fin cfg0.N) : BitVec 32 := BitVec.ofNat 32 ((grid0.coords t) 1).val

/-- The three carried columns AFTER point `n`. -/
def scAt (c : Dev nD) : (n : ℕ) → n < cfg0.N → S3 F
  | 0, h => stepP (xin m c ⟨0, h⟩) initS
  | n + 1, h =>
    if (n + 1) % 25 = 0 then stepP (xin m c ⟨n + 1, h⟩) initS
    else if (n + 1) % 25 = 24 then stepM (kw ⟨n + 1, h⟩) (xin m c ⟨n + 1, h⟩) (scAt c n (Nat.lt_of_succ_lt h))
    else stepP (xin m c ⟨n + 1, h⟩) (scAt c n (Nat.lt_of_succ_lt h))

theorem scAt_A (c : Dev nD) (t : Fin cfg0.N) (h0 : t.val % 25 = 0) :
    scAt m c t.val t.isLt = stepP (xin m c t) initS := by
  obtain ⟨n, hn⟩ := t
  cases n with
  | zero => rfl
  | succ n => exact if_pos h0

theorem scAt_B (c : Dev nD) (t : Fin cfg0.N) (h0 : ¬t.val % 25 = 0) (h2 : ¬t.val % 25 = 24) :
    scAt m c t.val t.isLt = stepP (xin m c t) (scAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h2).trans rfl)

theorem scAt_C (c : Dev nD) (t : Fin cfg0.N) (h2 : t.val % 25 = 24) :
    scAt m c t.val t.isLt = stepM (kw t) (xin m c t) (scAt m c (t.val - 1) (Nat.lt_of_le_of_lt (Nat.sub_le _ _) t.isLt)) := by
  obtain ⟨n, hn⟩ := t
  cases n with
  | zero => exact absurd (show (0 : ℕ) % 25 = 24 from h2) (by decide)
  | succ n =>
    have h0 : ¬(n + 1) % 25 = 0 := by dsimp only at h2; omega
    exact (if_neg h0).trans ((if_pos h2).trans rfl)

/-- The two results as point `t` writes them (read only where `t` is a last column block). -/
def outAt1 (c : Dev nD) (t : Fin cfg0.N) : Vec F S512x1 .f32 :=
  outL (kw t) (xin m c t) (scAt m c (t.val - 1) (Nat.lt_of_le_of_lt (Nat.sub_le _ _) t.isLt))
def outAt2 (c : Dev nD) (t : Fin cfg0.N) : Vec F S512x1 .f32 :=
  outS (kw t) (xin m c t) (scAt m c (t.val - 1) (Nat.lt_of_le_of_lt (Nat.sub_le _ _) t.isLt))

/-- The region invariant before position `n`: before the first point the class's (every scratch buffer at anything);
    afterwards the three carried columns at what the point before left, and the generator register at some state. -/
def PhiS (c : Dev nD) : (n : ℕ) → n ≤ cfg0.N → sProp 𝕄
  | 0, _ => Pipeline.ΦA spec0 c
  | n + 1, hn => iprop(iprop(owns (c : Thread nD τ) scM5 fullShare (scAt m c n hn).1 ∗ owns (c : Thread nD τ) scM6 fullShare (scAt m c n hn).2.1 ∗ owns (c : Thread nD τ) scM7 fullShare (scAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM5 fullShare (scAt m c n hn).1 ∗ owns (c : Thread nD τ) scM6 fullShare (scAt m c n hn).2.1 ∗ owns (c : Thread nD τ) scM7 fullShare (scAt m c n hn).2.2) ∗ (∃ r, prngReg c r)) := rfl

theorem PhiS_pos (c : Dev nD) (n : ℕ) (h : n ≤ cfg0.N) (hz : n ≠ 0) :
    PhiS m c n h = iprop(iprop(owns (c : Thread nD τ) scM5 fullShare (scAt m c (n - 1) (by omega)).1 ∗ owns (c : Thread nD τ) scM6 fullShare (scAt m c (n - 1) (by omega)).2.1 ∗ owns (c : Thread nD τ) scM7 fullShare (scAt m c (n - 1) (by omega)).2.2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => outAt1 m c t
    | ⟨2, _⟩ => outAt2 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xin m c t := by dsimp only [dats]
theorem after1 (c : Dev nD) (t : Fin cfg0.N) : (dats m 0 c).after 1 t = outAt1 m c t := by dsimp only [dats]
theorem after2 (c : Dev nD) (t : Fin cfg0.N) : (dats m 0 c).after 2 t = outAt2 m c t := by dsimp only [dats]

/-- The input window is fetched at every point: the body finds its block, filled out with whatever the fetch left past
    the array's end. -/
theorem before0 (c : Dev nD) (t : Fin cfg0.N) (d) :
    (dats m 0 c).before 0 t d = win0_0.fill (grid0.coords t) d (xblk m c t) := by
  unfold Dat.before; rw [if_pos (fetch0_0 t)]
  unfold Dat.fetched Dat.blockOf xblk iblk
  rw [A_eq]

end Cert.Kernel.Body

end
-- ==== Proof.BFill.lean ====
/-
  The lanes past the array's end do not matter.

  At every point but a last column block the input block lies wholly inside the array, so filling it out changes
  nothing.  At a last column block (k = 24) the block's first 1105 columns are inside; the body's lane condition
  "column 2048 k + lane < 50257" is exactly "lane < 1105", and every use the masked step makes of the block passes
  through a select on that condition — so two fillings of the block give the same carried columns and the same results.
-/
import proofs.«150753_j16406775071064_2_alg».proof.Proof.BData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel.Facts₀

variable {F : FTy → Type} [FloatOps F]

local notation "𝕄" => MT nD τ sig Unit (Elt F) ℕ (UR sig nD τ) ℕ

/-- At every point but a last column block no lane of the input block lies past the array's end. -/
theorem unclipped : ∀ t : Fin cfg0.N, ¬t.val % 25 = 24 → win0_0.clipped (grid0.coords t) = false :=
  (by decide +kernel : ∀ t : Fin grid0.N, ¬t.val % 25 = 24 → win0_0.clipped (grid0.coords t) = false)

/-- There the filling is all block: the prior contents do not show. -/
theorem fill_total {α : Type} (t : Fin cfg0.N) (h : ¬t.val % 25 = 24) (d d' : S512x2048.Idx → α)
    (g : (win0_0.xblock (grid0.coords t)).Idx → α) :
    win0_0.fill (grid0.coords t) d g = win0_0.fill (grid0.coords t) d' g := by
  funext j
  have hm : win0_0.moved (grid0.coords t) j = true := (win0_0.moved_iff _ j).mpr fun a => by
    have := (j a).isLt; unfold Pipeline.Window.xsize; rw [(win0_0.clipped_eq_false_iff _).mp (unclipped t h) a]; exact this
  unfold Pipeline.Window.fill; rw [dif_pos hm, dif_pos hm]

/-- At a last column block the part inside the array is 512 rows by 1105 columns, and the block coordinate is 24. -/
theorem last_facts : ∀ t : Fin cfg0.N, t.val % 25 = 24 →
    win0_0.xsize (grid0.coords t) 0 = 512 ∧ win0_0.xsize (grid0.coords t) 1 = 1105 ∧ kw t = 24#32 :=
  (by decide +kernel : ∀ t : Fin grid0.N, t.val % 25 = 24 →
    win0_0.xsize (grid0.coords t) 0 = 512 ∧ win0_0.xsize (grid0.coords t) 1 = 1105 ∧ kw t = 24#32)

/-- The lane condition at block 24, lane by lane: column `24 * 2048 + x < 50257` (compared as signed words) iff `x < 1105`. -/
theorem mask_fin : ∀ x : Fin 2048,
    IntOp.cmpi .slt (IntOp.addi (BitVec.ofNat 32 (0 * 2048 + x.val)) (Scalar.muli 24#32 2048#32)) 50257#32 = 1#1 ↔ x.val < 1105 := by
  decide +kernel

/-- So where the condition holds the lane's column is among the first 1105. -/
theorem mask_col (j : S512x2048.Idx) (h : k0_pay10 24#32 j = 1#1) : (j 1).val < 1105 :=
  (mask_fin (j 1)).mp h

/-- Two fillings of the block at a last column block agree wherever the lane condition holds. -/
theorem fill_agree (t : Fin cfg0.N) (h : t.val % 25 = 24) (d d' : S512x2048.Idx → Elt F .f32)
    (g : (win0_0.xblock (grid0.coords t)).Idx → Elt F .f32) (j : S512x2048.Idx) (hm : k0_pay10 (kw t) j = 1#1) :
    win0_0.fill (grid0.coords t) d g j = win0_0.fill (grid0.coords t) d' g j := by
  obtain ⟨h0, h1, hk⟩ := last_facts t h
  rw [hk] at hm
  have hmv : win0_0.moved (grid0.coords t) j = true := (win0_0.moved_iff _ j).mpr fun a => by
    match a with
    | ⟨0, _⟩ => show (j 0).val < win0_0.xsize (grid0.coords t) 0; rw [h0]; exact (j 0).isLt
    | ⟨1, _⟩ => show (j 1).val < win0_0.xsize (grid0.coords t) 1; rw [h1]; exact mask_col j hm
  unfold Pipeline.Window.fill; rw [dif_pos hmv, dif_pos hmv]

/-- A select on a condition sees its first operand only where the condition holds. -/
theorem select_agree {α : Type} (cnd : IVec S512x2048 1) (X X' z : S512x2048.Idx → α)
    (hag : ∀ j, cnd j = 1#1 → X j = X' j) : select cnd X z = select cnd X' z := by
  funext j
  show Scalar.select (cnd j) (X j) (z j) = Scalar.select (cnd j) (X' j) (z j)
  unfold Scalar.select
  split
  · exact hag j ‹_›
  · rfl

variable (a : BitVec 32) (X X' : Vec F S512x2048 .f32) (hag : ∀ j, k0_pay10 a j = 1#1 → X j = X' j)
include hag

/-- The masked maximum, -/
theorem pay11_agree (s : Vec F S512x1 .f32) : k0_pay11 a X s = k0_pay11 a X' s := by
  unfold k0_pay11; dsimp only
  rw [select_agree (k0_pay10 a) X X' _ hag]

/-- (the exponentials of the block shifted by any column, under the select,) -/
theorem sel_exp_agree (B z : Vec F S512x2048 .f32) :
    select (k0_pay10 a) (exp (subf X B)) z = select (k0_pay10 a) (exp (subf X' B)) z :=
  select_agree (k0_pay10 a) _ _ z fun j hm => by
    show FloatOps.exp (FloatOps.subf (X j) (B j)) = FloatOps.exp (FloatOps.subf (X' j) (B j))
    rw [hag j hm]

/-- the masked normaliser, -/
theorem pay12_agree (s5 s5' s6 : Vec F S512x1 .f32) : k0_pay12 a X s5 s5' s6 = k0_pay12 a X' s5 s5' s6 := by
  unfold k0_pay12; dsimp only
  rw [pay11_agree a X X' hag s5, sel_exp_agree a X X' hag]

/-- and the masked total see the block only where the condition holds. -/
theorem pay13_agree (s7 : Vec F S512x1 .f32) : k0_pay13 a X s7 = k0_pay13 a X' s7 := by
  unfold k0_pay13; dsimp only
  rw [select_agree (k0_pay10 a) X X' _ hag]

/-- So do the masked step and the two results. -/
theorem stepM_agree (s : S3 F) : stepM a X s = stepM a X' s := by
  unfold stepM
  rw [pay11_agree a X X' hag, pay12_agree a X X' hag, pay13_agree a X X' hag]
theorem outL_agree (s : S3 F) : outL a X s = outL a X' s := by
  unfold outL
  rw [pay11_agree a X X' hag, pay12_agree a X X' hag]
theorem outS_agree (s : S3 F) : outS a X s = outS a X' s := by
  unfold outS
  rw [pay13_agree a X X' hag]

end Cert.Kernel.Body

end
-- ==== Proof.BBody.lean ====
/-
  The body obligation at every grid point, and the run of the whole program.

  At a point the pipeline hands the body: the invariant (the three carried columns at what the point before left — at
  anything before the first point), the input window's buffer just fetched (its block, filled out past the array's end
  with whatever the fetch left there), and the two result buffers.  The body hands back the invariant of the next point,
  the input buffer as it found it, and the result buffers: untouched at k < 24, written at k = 24.
-/
import proofs.«150753_j16406775071064_2_alg».proof.Proof.BFill

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S512x2048 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S512x1 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S512x1 .f32 := win0_2.stage (cfg0.slots t 2)
abbrev hs2 (t : Fin cfg0.N) : (ms2 t).IsWhole := Gen.hstage0_2 ((cfg0.slots t 2).cast Gen.nbuf0_2)

/-! ## What the obligation asks of each window's buffer after the body -/

/-- The input window (live everywhere, clipped at the array's end): its block on the part inside the array. -/
theorem leaves0 (c : Dev nD) (t : Fin cfg0.N) :
    (dats m 0 c).leaves 0 t = iprop(∃ d, owns (c : Thread nD τ) (ms0 t) fullShare (win0_0.fill (grid0.coords t) d (xblk m c t))) := by
  unfold Dat.leaves; rw [live0 t]; dsimp only
  show iprop(∃ d, owns (c : Thread nD τ) (ms0 t) fullShare (win0_0.fill (grid0.coords t) d (win0_0.cut (grid0.coords t) ((dats m 0 c).after 0 t)))) = _
  rw [after0]; unfold xin; rw [Pipeline.Window.cut_fill]

theorem noflush1 (t : Fin cfg0.N) (h : ¬t.val % 25 = 24) : (cfg0.win 1).flush t = false :=
  Bool.eq_false_iff.mpr fun hf => h ((flush0_1 t).mp hf)
theorem noflush2 (t : Fin cfg0.N) (h : ¬t.val % 25 = 24) : (cfg0.win 2).flush t = false :=
  Bool.eq_false_iff.mpr fun hf => h ((flush0_2 t).mp hf)

/-- A result window at a point that is no last column block: handed back as found. -/
theorem leaves1_idle (c : Dev nD) (t : Fin cfg0.N) (h : ¬t.val % 25 = 24) :
    (dats m 0 c).leaves 1 t = iprop(∃ d, owns (c : Thread nD τ) (ms1 t) fullShare ((dats m 0 c).before 1 t d)) :=
  Dat.leaves_idle (dats m 0 c) 1 t (idle1 t h) (noflush1 t h)
theorem leaves2_idle (c : Dev nD) (t : Fin cfg0.N) (h : ¬t.val % 25 = 24) :
    (dats m 0 c).leaves 2 t = iprop(∃ d, owns (c : Thread nD τ) (ms2 t) fullShare ((dats m 0 c).before 2 t d)) :=
  Dat.leaves_idle (dats m 0 c) 2 t (idle2 t h) (noflush2 t h)

/-- A result window at a last column block: the result. -/
theorem leaves1_live (c : Dev nD) (t : Fin cfg0.N) (h : t.val % 25 = 24) :
    (dats m 0 c).leaves 1 t = owns (c : Thread nD τ) (ms1 t) fullShare (outAt1 m c t) := by
  unfold Dat.leaves; rw [live1 t h]; dsimp only; rw [after1]
theorem leaves2_live (c : Dev nD) (t : Fin cfg0.N) (h : t.val % 25 = 24) :
    (dats m 0 c).leaves 2 t = owns (c : Thread nD τ) (ms2 t) fullShare (outAt2 m c t) := by
  unfold Dat.leaves; rw [live2 t h]; dsimp only; rw [after2]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 4000000 in
/-- Column block 0: the reset and the plain step. -/
theorem sound_A (c : Dev nD) (t : Fin cfg0.N) (h0 : t.val % 25 = 0) (h24 : ¬t.val % 25 = 24) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1_idle m c t h24, leaves2_idle m c t h24, scAt_A m c t h0]
  have hc0 : cond0 (grid0.coords t) := (hcond0 t).mpr h0
  have hc1 : cond1 (grid0.coords t) := (hcond1 t).mpr h24
  have hc2 : ¬cond2 (grid0.coords t) := fun h => h24 ((hcond2 t).mp h)
  have hpre : (dats m 0 c).Φ t.castSucc ⊢ (iprop(iprop((∃ d, owns (c : Thread nD τ) scM5 fullShare d) ∗ (∃ d, owns (c : Thread nD τ) scM6 fullShare d) ∗ (∃ d, owns (c : Thread nD τ) scM7 fullShare d)) ∗ (∃ r, prngReg c r)) : sProp 𝕄) := by
    rw [PhiS_castSucc m c t]
    by_cases hz : t.val = 0
    · rw [PhiS_zero m c _ _ hz, PhiA_eq]
    · rw [PhiS_pos m c _ _ hz]
      iintro ⟨⟨H5, H6, H7⟩, Hg⟩
      isplitl [H5 H6 H7]
      · isplitl [H5]; · iexists _; iexact H5
        isplitl [H6]; · iexists _; iexact H6
        iexists _; iexact H7
      iexact Hg
  iintro ⟨HΦ, Ho, ⟨%d0, H0⟩, H1, H2⟩
  ihave HΦ' := hpre $$ HΦ
  icases HΦ' with ⟨⟨H5, H6, H7⟩, Hg⟩
  rw [before0, fill_total t h24 d0 zfill (xblk m c t)]
  iapply ((runA c (grid0.coords t) (ms0 t) (hs0 t) (ms1 t) (hs1 t) (ms2 t) (hs2 t) scM5 (Memref.isWhole_whole _) scM6 (Memref.isWhole_whole _) scM7 (Memref.isWhole_whole _) hc0 hc1 hc2 (xin m c t)).2.2.2 Set.univ _)
  isplitl [H0]; · iexact H0
  isplitl [H5]; · iexact H5
  isplitl [H6]; · iexact H6
  isplitl [H7]; · iexact H7
  iintro ⟨H0, ⟨%e5, H5⟩, ⟨%e6, H6⟩, ⟨%e7, H7⟩⟩
  isplitl [H5 H6 H7 Hg]
  · isplitl [H5 H6 H7]
    · isplitl [H5]
      · unfold owns; iexists _; isplitr
        swap; · iexact H5
        ipureintro; exact contA5 c _ _ _ _ _ _ _ _ _ _ _ _ _ hc0 hc1 hc2 _ _ e5
      isplitl [H6]
      · unfold owns; iexists _; isplitr
        swap; · iexact H6
        ipureintro; exact contA6 c _ _ _ _ _ _ _ _ _ _ _ _ _ hc0 hc1 hc2 _ _ e6
      · unfold owns; iexists _; isplitr
        swap; · iexact H7
        ipureintro; exact contA7 c _ _ _ _ _ _ _ _ _ _ _ _ _ hc0 hc1 hc2 _ _ e7
    iexact Hg
  isplitl [Ho]; · iexact Ho
  isplitl [H0]; · iexists zfill; iexact H0
  isplitl [H1]; · iexact H1
  iexact H2

set_option maxHeartbeats 4000000 in
/-- Column blocks 1 … 23: the plain step. -/
theorem sound_B (c : Dev nD) (t : Fin cfg0.N) (h0 : ¬t.val % 25 = 0) (h24 : ¬t.val % 25 = 24) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1_idle m c t h24, leaves2_idle m c t h24, scAt_B m c t h0 h24]
  have hc0 : ¬cond0 (grid0.coords t) := fun h => h0 ((hcond0 t).mp h)
  have hc1 : cond1 (grid0.coords t) := (hcond1 t).mpr h24
  have hc2 : ¬cond2 (grid0.coords t) := fun h => h24 ((hcond2 t).mp h)
  have hz : t.val ≠ 0 := fun h => h0 (by rw [h])
  rw [PhiS_castSucc m c t, PhiS_pos m c _ _ hz]
  iintro ⟨⟨⟨H5, H6, H7⟩, Hg⟩, Ho, ⟨%d0, H0⟩, H1, H2⟩
  rw [before0, fill_total t h24 d0 zfill (xblk m c t)]
  iapply ((runB c (grid0.coords t) (ms0 t) (hs0 t) (ms1 t) (hs1 t) (ms2 t) (hs2 t) scM5 (Memref.isWhole_whole _) scM6 (Memref.isWhole_whole _) scM7 (Memref.isWhole_whole _) hc0 hc1 hc2 (xin m c t) _ _ _).2.2.2 Set.univ _)
  isplitl [H0]; · iexact H0
  isplitl [H5]; · iexact H5
  isplitl [H6]; · iexact H6
  isplitl [H7]; · iexact H7
  iintro ⟨H0, ⟨%e5, H5⟩, ⟨%e6, H6⟩, ⟨%e7, H7⟩⟩
  isplitl [H5 H6 H7 Hg]
  · isplitl [H5 H6 H7]
    · isplitl [H5]
      · unfold owns; iexists _; isplitr
        swap; · iexact H5
        ipureintro; exact contB5 c _ _ _ _ _ _ _ _ _ _ _ _ _ hc0 hc1 hc2 _ _ _ _ _ e5
      isplitl [H6]
      · unfold owns; iexists _; isplitr
        swap; · iexact H6
        ipureintro; exact contB6 c _ _ _ _ _ _ _ _ _ _ _ _ _ hc0 hc1 hc2 _ _ _ _ _ e6
      · unfold owns; iexists _; isplitr
        swap; · iexact H7
        ipureintro; exact contB7 c _ _ _ _ _ _ _ _ _ _ _ _ _ hc0 hc1 hc2 _ _ _ _ _ e7
    iexact Hg
  isplitl [Ho]; · iexact Ho
  isplitl [H0]; · iexists zfill; iexact H0
  isplitl [H1]; · iexact H1
  iexact H2

set_option maxHeartbeats 4000000 in
/-- Column block 24: the masked step and the two results. -/
theorem sound_C (c : Dev nD) (t : Fin cfg0.N) (h24 : t.val % 25 = 24) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1_live m c t h24, leaves2_live m c t h24, scAt_C m c t h24]
  have h0 : ¬t.val % 25 = 0 := by omega
  have hc0 : ¬cond0 (grid0.coords t) := fun h => h0 ((hcond0 t).mp h)
  have hc1 : ¬cond1 (grid0.coords t) := fun h => ((hcond1 t).mp h) h24
  have hc2 : cond2 (grid0.coords t) := (hcond2 t).mpr h24
  have hz : t.val ≠ 0 := fun h => h0 (by rw [h])
  rw [PhiS_castSucc m c t, PhiS_pos m c _ _ hz]
  iintro ⟨⟨⟨H5, H6, H7⟩, Hg⟩, Ho, ⟨%d0, H0⟩, ⟨%d1, H1⟩, ⟨%d2, H2⟩⟩
  rw [before0]
  have hag : ∀ j, k0_pay10 (kw t) j = 1#1 → win0_0.fill (grid0.coords t) d0 (xblk m c t) j = xin m c t j :=
    fun j hm => fill_agree t h24 d0 zfill (xblk m c t) j hm
  iapply ((runC c (grid0.coords t) (ms0 t) (hs0 t) (ms1 t) (hs1 t) (ms2 t) (hs2 t) scM5 (Memref.isWhole_whole _) scM6 (Memref.isWhole_whole _) scM7 (Memref.isWhole_whole _) hc0 hc1 hc2 (win0_0.fill (grid0.coords t) d0 (xblk m c t)) _ _ _).2.2.2.2.2 Set.univ _)
  isplitl [H0]; · iexact H0
  isplitl [H1]; · iexists _; iexact H1
  isplitl [H2]; · iexists _; iexact H2
  isplitl [H5]; · iexact H5
  isplitl [H6]; · iexact H6
  isplitl [H7]; · iexact H7
  iintro ⟨H0, ⟨%e3, H3⟩, ⟨%e4, H4⟩, ⟨%e5, H5⟩, ⟨%e6, H6⟩, ⟨%e7, H7⟩⟩
  isplitl [H5 H6 H7 Hg]
  · isplitl [H5 H6 H7]
    · isplitl [H5]
      · unfold owns; iexists _; isplitr
        swap; · iexact H5
        ipureintro; exact (contC5 c _ _ _ _ _ _ _ _ _ _ _ _ _ hc0 hc1 hc2 _ _ _ _ _ e5).trans (congrArg (·.1) (stepM_agree (kw t) _ _ hag _))
      isplitl [H6]
      · unfold owns; iexists _; isplitr
        swap; · iexact H6
        ipureintro; exact (contC6 c _ _ _ _ _ _ _ _ _ _ _ _ _ hc0 hc1 hc2 _ _ _ _ _ e6).trans (congrArg (·.2.1) (stepM_agree (kw t) _ _ hag _))
      · unfold owns; iexists _; isplitr
        swap; · iexact H7
        ipureintro; exact (contC7 c _ _ _ _ _ _ _ _ _ _ _ _ _ hc0 hc1 hc2 _ _ _ _ _ e7).trans (congrArg (·.2.2) (stepM_agree (kw t) _ _ hag _))
    iexact Hg
  isplitl [Ho]; · iexact Ho
  isplitl [H0]; · iexists d0; iexact H0
  isplitl [H3]
  · unfold owns; iexists _; isplitr
    swap; · iexact H3
    ipureintro; exact (contC3 c _ _ _ _ _ _ _ _ _ _ _ _ _ hc0 hc1 hc2 _ _ _ _ _ e3).trans (outL_agree (kw t) _ _ hag _)
  · unfold owns; iexists _; isplitr
    swap; · iexact H4
    ipureintro; exact (contC4 c _ _ _ _ _ _ _ _ _ _ _ _ _ hc0 hc1 hc2 _ _ _ _ _ e4).trans (outS_agree (kw t) _ _ hag _)

/-- The library's (loose) body obligation, at every point. -/
theorem body_obligation (c : Dev nD) : BodyObligationLoose (dats (F := F) m 0 c) (defs₀ (F := F)) Variants.none () Set.univ := fun t => by
  rw [bigSep_W0, bigSep_W0]
  by_cases h24 : t.val % 25 = 24
  · exact sound_C m c t h24
  · by_cases h0 : t.val % 25 = 0
    · exact sound_A m c t h0 h24
    · exact sound_B m c t h0 h24

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the carried columns' named contents are forgotten. -/
theorem hout (c : Dev nD) : (dats m 0 c).Φ (Fin.last cfg0.N) ⊢ Pipeline.ΦA spec0 c := by
  have hN : cfg0.N = 200 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨H5, H6, H7⟩, Hg⟩
  isplitl [H5 H6 H7]
  · isplitl [H5]; · iexists _; iexact H5
    isplitl [H6]; · iexists _; iexact H6
    iexists _; iexact H7
  iexact Hg

/-! ## The run and the frame -/

set_option backward.isDefEq.respectTransparency.types false in
/-- Every weakly fair execution of the program terminates, nothing faulting, with every array of the pipeline at what the
    library computes from the proof data and every other buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KRunA.lean ====
/-
  The body of the kernel at one grid point, case by case.

  The grid is 8 row blocks by 25 column blocks; a point's second coordinate k says which of three things the body does:
  at k = 0 it resets the three carried columns (running maximum to the bottom word, running normaliser and running total
  to zero) and then takes the plain step; at 0 < k < 24 it takes the plain step; at k = 24 it takes the masked step (only
  the columns inside the array count) and writes the two results.  Each case is run once, on whole staging buffers,
  and what each buffer ends with is found as the list of stores into it.
-/
import proofs.«150753_j16406775071064_2_alg».proof.Proof.Gen.KernelIdeal.Frame
import proofs.«150753_j16406775071064_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three branch conditions, as the body computes them from the column-block coordinate -/

/-- `k = 0`: the reset. -/
abbrev cond0 (i : grid0.Coords) : Prop :=
  (Scalar.cmpi .ne (Scalar.extui (Scalar.cmpi .eq (BitVec.ofNat 32 (i 1).val) 0#32)) 0#32) = 1#1
/-- `k ≠ 24`: the plain step. -/
abbrev cond1 (i : grid0.Coords) : Prop :=
  (Scalar.cmpi .ne (Scalar.extui (Scalar.xori (Scalar.cmpi .eq (BitVec.ofNat 32 (i 1).val) 24#32) 1#1)) 0#32) = 1#1
/-- `k = 24`: the masked step and the results. -/
abbrev cond2 (i : grid0.Coords) : Prop := k0_cond3 i = 1#1

/-- Over the 200 points, in closed form: the column block of point `t` is `t mod 25`. -/
theorem hcond0 : ∀ t : Fin cfg0.N, cond0 (grid0.coords t) ↔ t.val % 25 = 0 :=
  (by decide +kernel : ∀ t : Fin grid0.N, cond0 (grid0.coords t) ↔ t.val % 25 = 0)
theorem hcond1 : ∀ t : Fin cfg0.N, cond1 (grid0.coords t) ↔ ¬ t.val % 25 = 24 :=
  (by decide +kernel : ∀ t : Fin grid0.N, cond1 (grid0.coords t) ↔ ¬ t.val % 25 = 24)
theorem hcond2 : ∀ t : Fin cfg0.N, cond2 (grid0.coords t) ↔ t.val % 25 = 24 :=
  (by decide +kernel : ∀ t : Fin grid0.N, cond2 (grid0.coords t) ↔ t.val % 25 = 24)

/-! ## Where the windows are idle and written back -/

theorem live0 : ∀ t : Fin cfg0.N, cfg0.idle 0 (grid0.coords t) = false := by decide +kernel
theorem idle1 : ∀ t : Fin cfg0.N, ¬ t.val % 25 = 24 → cfg0.idle 1 (grid0.coords t) = true := by decide +kernel
theorem idle2 : ∀ t : Fin cfg0.N, ¬ t.val % 25 = 24 → cfg0.idle 2 (grid0.coords t) = true := by decide +kernel
theorem live1 : ∀ t : Fin cfg0.N, t.val % 25 = 24 → cfg0.idle 1 (grid0.coords t) = false := by decide +kernel
theorem live2 : ∀ t : Fin cfg0.N, t.val % 25 = 24 → cfg0.idle 2 (grid0.coords t) = false := by decide +kernel
theorem loose0 : cfg0.loose 0 = true := by decide +kernel
theorem loose1 : cfg0.loose 1 = false := by decide +kernel
theorem loose2 : cfg0.loose 2 = false := by decide +kernel

/-! ## The scratch operands -/

abbrev scM5 : Memref sig .tc .vmem S512x1 .f32 := Memref.whole cc0_scratch0
abbrev scM6 : Memref sig .tc .vmem S512x1 .f32 := Memref.whole cc0_scratch1
abbrev scM7 : Memref sig .tc .vmem S512x1 .f32 := Memref.whole cc0_scratch2

/-- The class invariant with the three scratch buffers as memrefs owned at some contents. -/
theorem PhiA_eq (c : Dev nD) :
    (Pipeline.ΦA spec0 c : sProp 𝕄)
      = iprop(iprop((∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM5, scM6, scM7, owns_whole]; try rfl

set_option maxHeartbeats 4000000 in
/-- Column block 0: the reset, then the plain step.  The three carried columns are handed in at anything and come back
    with the stores of this point written. -/
noncomputable def runA (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) :
    Σ' (L5 : List (View.Piece (Elt F) S512x1 .f32)) (L6 : List (View.Piece (Elt F) S512x1 .f32)), { L7 : List (View.Piece (Elt F) S512x1 .f32) //
      ∀ (E : Set ℕ) (K : PUnit → sProp 𝕄),
        iprop(owns (c : Thread nD τ) arg2 fullShare x0 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__ls_kernel i arg2 harg2 arg3 harg3 arg4 harg4 arg5 harg5 arg6 harg6 arg7 harg7) K } := by
  refine ⟨?_, ?_, ?_, fun E K => ?run⟩
  case run =>
    simp only [cc0__ls_kernel_eq_skeleton]; unfold cc0__ls_kernel_skel
    unfold owns
    iintro ⟨⟨%f0, %hf0, H0⟩, ⟨%d5, %f5, -, H5⟩, ⟨%d6, %f6, -, H6⟩, ⟨%d7, %f7, -, H7⟩, Hk⟩
    obtain rfl := harg2.eq_unread hf0
    sl_exec (disch := first | exact hc0 | exact hc1 | exact hc2)
    sl_step
    iapply Hk
    isplitl [H0]
    · iexists _; isplitr; · ipureintro; exact harg2.read_unread _
      iexact H0
    isplitl [H5]; · iexists _; iexact H5
    isplitl [H6]; · iexists _; iexact H6
    iexists _; iexact H7

end Cert.KernelIdeal.Body

end
-- ==== Proof.KRunB.lean ====
/-
  The body at a column block strictly between the first and the last: the plain step of the running maximum, the running
  normaliser and the running total, from what the point before left in the three carried columns.
-/
import proofs.«150753_j16406775071064_2_alg».proof.Proof.KRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Column blocks 1 … 23: the plain step.  The carried columns come in at `xs5`, `xs6`, `xs7` and come back with this
    point's stores written. -/
noncomputable def runB (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) :
    Σ' (L5 : List (View.Piece (Elt F) S512x1 .f32)) (L6 : List (View.Piece (Elt F) S512x1 .f32)), { L7 : List (View.Piece (Elt F) S512x1 .f32) //
      ∀ (E : Set ℕ) (K : PUnit → sProp 𝕄),
        iprop(owns (c : Thread nD τ) arg2 fullShare x0 ∗ owns (c : Thread nD τ) arg5 fullShare xs5 ∗ owns (c : Thread nD τ) arg6 fullShare xs6 ∗ owns (c : Thread nD τ) arg7 fullShare xs7
            ∗ (iprop(owns (c : Thread nD τ) arg2 fullShare x0 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__ls_kernel i arg2 harg2 arg3 harg3 arg4 harg4 arg5 harg5 arg6 harg6 arg7 harg7) K } := by
  refine ⟨?_, ?_, ?_, fun E K => ?run⟩
  case run =>
    simp only [cc0__ls_kernel_eq_skeleton]; unfold cc0__ls_kernel_skel
    unfold owns
    iintro ⟨⟨%f0, %hf0, H0⟩, ⟨%f5, %hf5, H5⟩, ⟨%f6, %hf6, H6⟩, ⟨%f7, %hf7, H7⟩, Hk⟩
    obtain rfl := harg2.eq_unread hf0; obtain rfl := harg5.eq_unread hf5; obtain rfl := harg6.eq_unread hf6; obtain rfl := harg7.eq_unread hf7
    sl_exec (disch := first | exact hc0 | exact hc1 | exact hc2)
    sl_step
    iapply Hk
    isplitl [H0]
    · iexists _; isplitr; · ipureintro; exact harg2.read_unread _
      iexact H0
    isplitl [H5]; · iexists _; iexact H5
    isplitl [H6]; · iexists _; iexact H6
    iexists _; iexact H7

end Cert.KernelIdeal.Body

end
-- ==== Proof.KRunC.lean ====
/-
  The body at the last column block: the masked step (a lane counts only when its column lies inside the array: the
  maximum is taken against the bottom word there, the exponentials and the entries against zero), then the two results:
  the row's log-sum-exp (running maximum plus the logarithm of the running normaliser) and the row's total.
-/
import proofs.«150753_j16406775071064_2_alg».proof.Proof.KRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Column block 24: the masked step and the results.  The carried columns come in at `xs5`, `xs6`, `xs7`, the two result
    buffers at anything; all five come back with this point's stores written. -/
noncomputable def runC (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) :
    Σ' (L3 : List (View.Piece (Elt F) S512x1 .f32)) (L4 : List (View.Piece (Elt F) S512x1 .f32)) (L5 : List (View.Piece (Elt F) S512x1 .f32)) (L6 : List (View.Piece (Elt F) S512x1 .f32)), { L7 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6 ∗ owns (c : Thread nD τ) arg7 fullShare xs7
            ∗ (iprop(owns (c : Thread nD τ) arg2 fullShare x0 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__ls_kernel i arg2 harg2 arg3 harg3 arg4 harg4 arg5 harg5 arg6 harg6 arg7 harg7) K } := by
  refine ⟨?_, ?_, ?_, ?_, ?_, fun E K => ?run⟩
  case run =>
    simp only [cc0__ls_kernel_eq_skeleton]; unfold cc0__ls_kernel_skel
    unfold owns
    iintro ⟨⟨%f0, %hf0, H0⟩, ⟨%d3, %f3, -, H3⟩, ⟨%d4, %f4, -, H4⟩, ⟨%f5, %hf5, H5⟩, ⟨%f6, %hf6, H6⟩, ⟨%f7, %hf7, H7⟩, Hk⟩
    obtain rfl := harg2.eq_unread hf0; obtain rfl := harg5.eq_unread hf5; obtain rfl := harg6.eq_unread hf6; obtain rfl := harg7.eq_unread hf7
    sl_exec (disch := first | exact hc0 | exact hc1 | exact hc2)
    sl_step
    iapply Hk
    isplitl [H0]
    · iexists _; isplitr; · ipureintro; exact harg2.read_unread _
      iexact H0
    isplitl [H3]; · iexists _; iexact H3
    isplitl [H4]; · iexists _; iexact H4
    isplitl [H5]; · iexists _; iexact H5
    isplitl [H6]; · iexists _; iexact H6
    iexists _; iexact H7

end Cert.KernelIdeal.Body

end
-- ==== Proof.KPieces.lean ====
/-
  What the body leaves in each buffer, case by case, as a function of what it found.

  Every store of the body covers its whole buffer, so a buffer ends with the payload of the last store into it, and a
  load that follows a store reads that store's payload.  With `x` the input block as the body found it and
  `(s5, s6, s7)` the three carried columns (running maximum, running normaliser, running total):
  the plain step leaves  (max s5 (row maxima of x),  s6 * exp (s5 - new maximum) + row sums of exp (x - new maximum),  s7 + row sums of x);
  the reset first puts (bottom word, zero, zero) there;  the masked step is the plain one with the lanes outside the array
  replaced by the bottom word (for the maximum) and by zero (for the two sums), and the results are
  new maximum + log (new normaliser) and the new total.
-/
import proofs.«150753_j16406775071064_2_alg».proof.Proof.KRunC
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Facts₀

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Three carried columns. -/
abbrev S3 (F : FTy → Type) : Type := Vec F S512x1 .f32 × Vec F S512x1 .f32 × Vec F S512x1 .f32

/-- What the reset stores: the bottom word, zero, zero. -/
def initS : S3 F := (k0_pay1, k0_pay2, k0_pay3)
/-- The plain step on an input block `x`. -/
def stepP (x : Vec F S512x2048 .f32) (s : S3 F) : S3 F := (k0_pay7 x s.1, k0_pay5 x s.1 s.1 s.2.1, k0_pay6 x s.2.2)
/-- The masked step at column block `a`. -/
def stepM (a : BitVec 32) (x : Vec F S512x2048 .f32) (s : S3 F) : S3 F :=
  (k0_pay8 (k0_pay11 a x s.1), k0_pay12 a x s.1 s.1 s.2.1, k0_pay13 a x s.2.2)
/-- The first result: the new maximum plus the logarithm of the new normaliser. -/
def outL (a : BitVec 32) (x : Vec F S512x2048 .f32) (s : S3 F) : Vec F S512x1 .f32 :=
  k0_pay9 (k0_pay8 (k0_pay11 a x s.1)) (k0_pay12 a x s.1 s.1 s.2.1)
/-- The second result: the new total. -/
def outS (a : BitVec 32) (x : Vec F S512x2048 .f32) (s : S3 F) : Vec F S512x1 .f32 := k0_pay13 a x s.2.2

/-! ### The plain step -/

theorem contB5 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) (v : View sig .tc .vmem S512x1 .f32) (f : v.ty.Contents (Elt F)) : v.read (Elt F) (v.writes (Elt F) f (runB c i arg2 harg2 arg3 harg3 arg4 harg4 arg5 harg5 arg6 harg6 arg7 harg7 hc0 hc1 hc2 x0 xs5 xs6 xs7).1) = (stepP x0 (xs5, xs6, xs7)).1 := by
  unfold runB; dsimp only
  rw [View.read_writes_eq_canon _ _ _ (fun y => ⟨_, List.mem_singleton_self _, View.mem_set_unit_zero hz Cert.KernelIdeal.Facts₀.inb_S512x1_S512x1_0_0 y⟩), View.canon_unit_zero hz]
  simp only [View.readAt_eq_ld, harg2.read_unread, harg5.read_unread, harg6.read_unread, harg7.read_unread, View.ld_unit_zero (S := S512x2048) hz, View.ld_unit_zero (S := S512x1) hz]
  rfl
theorem contB6 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) (v : View sig .tc .vmem S512x1 .f32) (f : v.ty.Contents (Elt F)) : v.read (Elt F) (v.writes (Elt F) f (runB c i arg2 harg2 arg3 harg3 arg4 harg4 arg5 harg5 arg6 harg6 arg7 harg7 hc0 hc1 hc2 x0 xs5 xs6 xs7).2.1) = (stepP x0 (xs5, xs6, xs7)).2.1 := by
  unfold runB; dsimp only
  rw [View.read_writes_eq_canon _ _ _ (fun y => ⟨_, List.mem_singleton_self _, View.mem_set_unit_zero hz Cert.KernelIdeal.Facts₀.inb_S512x1_S512x1_0_0 y⟩), View.canon_unit_zero hz]
  simp only [View.readAt_eq_ld, harg2.read_unread, harg5.read_unread, harg6.read_unread, harg7.read_unread, View.ld_unit_zero (S := S512x2048) hz, View.ld_unit_zero (S := S512x1) hz]
  rfl
theorem contB7 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : cond1 i) (hc2 : ¬cond2 i)
    (x0 : Vec F S512x2048 .f32) (xs5 xs6 xs7 : Vec F S512x1 .f32) (v : View sig .tc .vmem S512x1 .f32) (f : v.ty.Contents (Elt F)) : v.read (Elt F) (v.writes (Elt F) f (runB c i arg2 harg2 arg3 harg3 arg4 harg4 arg5 harg5 arg6 harg6 arg7 harg7 hc0 hc1 hc2 x0 xs5 xs6 xs7).2.2.1) = (stepP x0 (xs5, xs6, xs7)).2.2 := by
  unfold runB; dsimp only
  rw [View.read_writes_eq_canon _ _ _ (fun y => ⟨_, List.mem_singleton_self _, View.mem_set_unit_zero hz Cert.KernelIdeal.Facts₀.inb_S512x1_S512x1_0_0 y⟩), View.canon_unit_zero hz]
  simp only [View.readAt_eq_ld, harg2.read_unread, harg5.read_unread, harg6.read_unread, harg7.read_unread, View.ld_unit_zero (S := S512x2048) hz, View.ld_unit_zero (S := S512x1) hz]
  rfl

/-! ### The reset followed by the plain step -/

theorem contA5 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) (v : View sig .tc .vmem S512x1 .f32) (f : v.ty.Contents (Elt F)) : v.read (Elt F) (v.writes (Elt F) f (runA c i arg2 harg2 arg3 harg3 arg4 harg4 arg5 harg5 arg6 harg6 arg7 harg7 hc0 hc1 hc2 x0).1) = (stepP x0 initS).1 := by
  unfold runA; dsimp only
  sl_unfold_words
  rw [View.read_writes_eq_canon _ _ _ (fun y => ⟨_, List.mem_cons_self, View.mem_set_unit_zero hz Cert.KernelIdeal.Facts₀.inb_S512x1_S512x1_0_0 y⟩), View.canon_cons_unit_zero (S := S512x1) hz]
  simp only [View.readCov_unit_zero (S := S512x1) _ hz, View.readAt_eq_ld, harg2.read_unread, View.ld_unit_zero (S := S512x2048) hz]
  rfl
theorem contA6 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) (v : View sig .tc .vmem S512x1 .f32) (f : v.ty.Contents (Elt F)) : v.read (Elt F) (v.writes (Elt F) f (runA c i arg2 harg2 arg3 harg3 arg4 harg4 arg5 harg5 arg6 harg6 arg7 harg7 hc0 hc1 hc2 x0).2.1) = (stepP x0 initS).2.1 := by
  unfold runA; dsimp only
  sl_unfold_words
  rw [View.read_writes_eq_canon _ _ _ (fun y => ⟨_, List.mem_cons_self, View.mem_set_unit_zero hz Cert.KernelIdeal.Facts₀.inb_S512x1_S512x1_0_0 y⟩), View.canon_cons_unit_zero (S := S512x1) hz]
  simp only [View.readCov_unit_zero (S := S512x1) _ hz, View.readAt_eq_ld, harg2.read_unread, View.ld_unit_zero (S := S512x2048) hz]
  rfl
theorem contA7 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0 i) (hc1 : cond1 i) (hc2 : ¬cond2 i)
    (x0 : Vec F S512x2048 .f32) (v : View sig .tc .vmem S512x1 .f32) (f : v.ty.Contents (Elt F)) : v.read (Elt F) (v.writes (Elt F) f (runA c i arg2 harg2 arg3 harg3 arg4 harg4 arg5 harg5 arg6 harg6 arg7 harg7 hc0 hc1 hc2 x0).2.2.1) = (stepP x0 initS).2.2 := by
  unfold runA; dsimp only
  sl_unfold_words
  rw [View.read_writes_eq_canon _ _ _ (fun y => ⟨_, List.mem_cons_self, View.mem_set_unit_zero hz Cert.KernelIdeal.Facts₀.inb_S512x1_S512x1_0_0 y⟩), View.canon_cons_unit_zero (S := S512x1) hz]
  simp only [View.readCov_unit_zero (S := S512x1) _ hz, View.readAt_eq_ld, harg2.read_unread, View.ld_unit_zero (S := S512x2048) hz]
  rfl

/-! ### The masked step and the results -/

theorem contC3 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).1) = outL (BitVec.ofNat 32 (i 1).val) x0 (xs5, xs6, xs7) := by
  unfold runC; dsimp only
  sl_unfold_words
  rw [View.read_writes_eq_canon _ _ _ (fun y => ⟨_, List.mem_singleton_self _, View.mem_set_unit_zero hz Cert.KernelIdeal.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC4 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.1) = outS (BitVec.ofNat 32 (i 1).val) x0 (xs5, xs6, xs7) := by
  unfold runC; dsimp only
  sl_unfold_words
  rw [View.read_writes_eq_canon _ _ _ (fun y => ⟨_, List.mem_singleton_self _, View.mem_set_unit_zero hz Cert.KernelIdeal.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC5 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.2.1) = (stepM (BitVec.ofNat 32 (i 1).val) x0 (xs5, xs6, xs7)).1 := by
  unfold runC; dsimp only
  sl_unfold_words
  rw [View.read_writes_eq_canon _ _ _ (fun y => ⟨_, List.mem_singleton_self _, View.mem_set_unit_zero hz Cert.KernelIdeal.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC6 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.2.2.1) = (stepM (BitVec.ofNat 32 (i 1).val) x0 (xs5, xs6, xs7)).2.1 := by
  unfold runC; dsimp only
  sl_unfold_words
  rw [View.read_writes_eq_canon _ _ _ (fun y => ⟨_, List.mem_singleton_self _, View.mem_set_unit_zero hz Cert.KernelIdeal.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl
theorem contC7 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0 i) (hc1 : ¬cond1 i) (hc2 : cond2 i)
    (x0 : Vec F S512x2048 .f32) (xs5 xs6 xs7 : Vec F S512x1 .f32) (v : View sig .tc .vmem S512x1 .f32) (f : v.ty.Contents (Elt F)) : v.read (Elt F) (v.writes (Elt F) f (runC c i arg2 harg2 arg3 harg3 arg4 harg4 arg5 harg5 arg6 harg6 arg7 harg7 hc0 hc1 hc2 x0 xs5 xs6 xs7).2.2.2.2.1) = (stepM (BitVec.ofNat 32 (i 1).val) x0 (xs5, xs6, xs7)).2.2 := by
  unfold runC; dsimp only
  sl_unfold_words
  rw [View.read_writes_eq_canon _ _ _ (fun y => ⟨_, List.mem_singleton_self _, View.mem_set_unit_zero hz Cert.KernelIdeal.Facts₀.inb_S512x1_S512x1_0_0 y⟩), View.canon_unit_zero hz]
  simp only [View.readCov_unit_zero (S := S512x1) _ hz, View.readAt_eq_ld, harg2.read_unread, harg5.read_unread, harg6.read_unread, harg7.read_unread, View.ld_unit_zero (S := S512x2048) hz, View.ld_unit_zero (S := S512x1) hz]
  rfl

end Cert.KernelIdeal.Body

end
-- ==== Proof.KData.lean ====
/-
  The proof data of the pipeline: what every buffer holds, point by point.

  Point t = 25 i + k works on rows 512 i … 512 i + 511 and columns 2048 k … 2048 k + 2047.  The input window's block at
  k = 24 overhangs the array: only its first 1105 columns are fetched, and the lanes past them hold words nothing names.
  The block "as the body finds it" is therefore stated with one fixed word in those lanes; that the carried columns do
  not depend on the choice is shown where it is used (the masked step reads those lanes only through a select whose
  condition is false there; at every other point no lane is past the end).

  The three carried columns after point t are given by recursion on t: the reset and a plain step at k = 0, a plain
  step at 0 < k < 24, the masked step at k = 24; the two results are written at k = 24 only.
-/
import proofs.«150753_j16406775071064_2_alg».proof.Proof.KPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word standing in the lanes of a clipped block that lie past the array's end. -/
def zfill : S512x2048.Idx → Elt F .f32 := fun _ => Scalar.ofBits .f32 0#32

/-- The input window's block at point `t`: its part inside the array. -/
def xblk (c : Dev nD) (t : Fin cfg0.N) : (win0_0.xblock (grid0.coords t)).Idx → Elt F .f32 := iblk m c 0 t

/-- The input block as the body is taken to find it: the part inside the array, filled out with `zfill`. -/
def xin (c : Dev nD) (t : Fin cfg0.N) : Vec F S512x2048 .f32 := win0_0.fill (grid0.coords t) zfill (xblk m c t)

/-- The column-block coordinate of point `t`, as the word the body computes with. -/
abbrev kw (t : Fin cfg0.N) : BitVec 32 := BitVec.ofNat 32 ((grid0.coords t) 1).val

/-- The three carried columns AFTER point `n`. -/
def scAt (c : Dev nD) : (n : ℕ) → n < cfg0.N → S3 F
  | 0, h => stepP (xin m c ⟨0, h⟩) initS
  | n + 1, h =>
    if (n + 1) % 25 = 0 then stepP (xin m c ⟨n + 1, h⟩) initS
    else if (n + 1) % 25 = 24 then stepM (kw ⟨n + 1, h⟩) (xin m c ⟨n + 1, h⟩) (scAt c n (Nat.lt_of_succ_lt h))
    else stepP (xin m c ⟨n + 1, h⟩) (scAt c n (Nat.lt_of_succ_lt h))

theorem scAt_A (c : Dev nD) (t : Fin cfg0.N) (h0 : t.val % 25 = 0) :
    scAt m c t.val t.isLt = stepP (xin m c t) initS := by
  obtain ⟨n, hn⟩ := t
  cases n with
  | zero => rfl
  | succ n => exact if_pos h0

theorem scAt_B (c : Dev nD) (t : Fin cfg0.N) (h0 : ¬t.val % 25 = 0) (h2 : ¬t.val % 25 = 24) :
    scAt m c t.val t.isLt = stepP (xin m c t) (scAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h2).trans rfl)

theorem scAt_C (c : Dev nD) (t : Fin cfg0.N) (h2 : t.val % 25 = 24) :
    scAt m c t.val t.isLt = stepM (kw t) (xin m c t) (scAt m c (t.val - 1) (Nat.lt_of_le_of_lt (Nat.sub_le _ _) t.isLt)) := by
  obtain ⟨n, hn⟩ := t
  cases n with
  | zero => exact absurd (show (0 : ℕ) % 25 = 24 from h2) (by decide)
  | succ n =>
    have h0 : ¬(n + 1) % 25 = 0 := by dsimp only at h2; omega
    exact (if_neg h0).trans ((if_pos h2).trans rfl)

/-- The two results as point `t` writes them (read only where `t` is a last column block). -/
def outAt1 (c : Dev nD) (t : Fin cfg0.N) : Vec F S512x1 .f32 :=
  outL (kw t) (xin m c t) (scAt m c (t.val - 1) (Nat.lt_of_le_of_lt (Nat.sub_le _ _) t.isLt))
def outAt2 (c : Dev nD) (t : Fin cfg0.N) : Vec F S512x1 .f32 :=
  outS (kw t) (xin m c t) (scAt m c (t.val - 1) (Nat.lt_of_le_of_lt (Nat.sub_le _ _) t.isLt))

/-- The region invariant before position `n`: before the first point the class's (every scratch buffer at anything);
    afterwards the three carried columns at what the point before left, and the generator register at some state. -/
def PhiS (c : Dev nD) : (n : ℕ) → n ≤ cfg0.N → sProp 𝕄
  | 0, _ => Pipeline.ΦA spec0 c
  | n + 1, hn => iprop(iprop(owns (c : Thread nD τ) scM5 fullShare (scAt m c n hn).1 ∗ owns (c : Thread nD τ) scM6 fullShare (scAt m c n hn).2.1 ∗ owns (c : Thread nD τ) scM7 fullShare (scAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM5 fullShare (scAt m c n hn).1 ∗ owns (c : Thread nD τ) scM6 fullShare (scAt m c n hn).2.1 ∗ owns (c : Thread nD τ) scM7 fullShare (scAt m c n hn).2.2) ∗ (∃ r, prngReg c r)) := rfl

theorem PhiS_pos (c : Dev nD) (n : ℕ) (h : n ≤ cfg0.N) (hz : n ≠ 0) :
    PhiS m c n h = iprop(iprop(owns (c : Thread nD τ) scM5 fullShare (scAt m c (n - 1) (by omega)).1 ∗ owns (c : Thread nD τ) scM6 fullShare (scAt m c (n - 1) (by omega)).2.1 ∗ owns (c : Thread nD τ) scM7 fullShare (scAt m c (n - 1) (by omega)).2.2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => outAt1 m c t
    | ⟨2, _⟩ => outAt2 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xin m c t := by dsimp only [dats]
theorem after1 (c : Dev nD) (t : Fin cfg0.N) : (dats m 0 c).after 1 t = outAt1 m c t := by dsimp only [dats]
theorem after2 (c : Dev nD) (t : Fin cfg0.N) : (dats m 0 c).after 2 t = outAt2 m c t := by dsimp only [dats]

/-- The input window is fetched at every point: the body finds its block, filled out with whatever the fetch left past
    the array's end. -/
theorem before0 (c : Dev nD) (t : Fin cfg0.N) (d) :
    (dats m 0 c).before 0 t d = win0_0.fill (grid0.coords t) d (xblk m c t) := by
  unfold Dat.before; rw [if_pos (fetch0_0 t)]
  unfold Dat.fetched Dat.blockOf xblk iblk
  rw [A_eq]

end Cert.KernelIdeal.Body

end
-- ==== Proof.KFill.lean ====
/-
  The lanes past the array's end do not matter.

  At every point but a last column block the input block lies wholly inside the array, so filling it out changes
  nothing.  At a last column block (k = 24) the block's first 1105 columns are inside; the body's lane condition
  "column 2048 k + lane < 50257" is exactly "lane < 1105", and every use the masked step makes of the block passes
  through a select on that condition — so two fillings of the block give the same carried columns and the same results.
-/
import proofs.«150753_j16406775071064_2_alg».proof.Proof.KData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Facts₀

variable {F : FTy → Type} [FloatOps F]

local notation "𝕄" => MT nD τ sig Unit (Elt F) ℕ (UR sig nD τ) ℕ

/-- At every point but a last column block no lane of the input block lies past the array's end. -/
theorem unclipped : ∀ t : Fin cfg0.N, ¬t.val % 25 = 24 → win0_0.clipped (grid0.coords t) = false :=
  (by decide +kernel : ∀ t : Fin grid0.N, ¬t.val % 25 = 24 → win0_0.clipped (grid0.coords t) = false)

/-- There the filling is all block: the prior contents do not show. -/
theorem fill_total {α : Type} (t : Fin cfg0.N) (h : ¬t.val % 25 = 24) (d d' : S512x2048.Idx → α)
    (g : (win0_0.xblock (grid0.coords t)).Idx → α) :
    win0_0.fill (grid0.coords t) d g = win0_0.fill (grid0.coords t) d' g := by
  funext j
  have hm : win0_0.moved (grid0.coords t) j = true := (win0_0.moved_iff _ j).mpr fun a => by
    have := (j a).isLt; unfold Pipeline.Window.xsize; rw [(win0_0.clipped_eq_false_iff _).mp (unclipped t h) a]; exact this
  unfold Pipeline.Window.fill; rw [dif_pos hm, dif_pos hm]

/-- At a last column block the part inside the array is 512 rows by 1105 columns, and the block coordinate is 24. -/
theorem last_facts : ∀ t : Fin cfg0.N, t.val % 25 = 24 →
    win0_0.xsize (grid0.coords t) 0 = 512 ∧ win0_0.xsize (grid0.coords t) 1 = 1105 ∧ kw t = 24#32 :=
  (by decide +kernel : ∀ t : Fin grid0.N, t.val % 25 = 24 →
    win0_0.xsize (grid0.coords t) 0 = 512 ∧ win0_0.xsize (grid0.coords t) 1 = 1105 ∧ kw t = 24#32)

/-- The lane condition at block 24, lane by lane: column `24 * 2048 + x < 50257` (compared as signed words) iff `x < 1105`. -/
theorem mask_fin : ∀ x : Fin 2048,
    IntOp.cmpi .slt (IntOp.addi (BitVec.ofNat 32 (0 * 2048 + x.val)) (Scalar.muli 24#32 2048#32)) 50257#32 = 1#1 ↔ x.val < 1105 := by
  decide +kernel

/-- So where the condition holds the lane's column is among the first 1105. -/
theorem mask_col (j : S512x2048.Idx) (h : k0_pay10 24#32 j = 1#1) : (j 1).val < 1105 :=
  (mask_fin (j 1)).mp h

/-- Two fillings of the block at a last column block agree wherever the lane condition holds. -/
theorem fill_agree (t : Fin cfg0.N) (h : t.val % 25 = 24) (d d' : S512x2048.Idx → Elt F .f32)
    (g : (win0_0.xblock (grid0.coords t)).Idx → Elt F .f32) (j : S512x2048.Idx) (hm : k0_pay10 (kw t) j = 1#1) :
    win0_0.fill (grid0.coords t) d g j = win0_0.fill (grid0.coords t) d' g j := by
  obtain ⟨h0, h1, hk⟩ := last_facts t h
  rw [hk] at hm
  have hmv : win0_0.moved (grid0.coords t) j = true := (win0_0.moved_iff _ j).mpr fun a => by
    match a with
    | ⟨0, _⟩ => show (j 0).val < win0_0.xsize (grid0.coords t) 0; rw [h0]; exact (j 0).isLt
    | ⟨1, _⟩ => show (j 1).val < win0_0.xsize (grid0.coords t) 1; rw [h1]; exact mask_col j hm
  unfold Pipeline.Window.fill; rw [dif_pos hmv, dif_pos hmv]

/-- A select on a condition sees its first operand only where the condition holds. -/
theorem select_agree {α : Type} (cnd : IVec S512x2048 1) (X X' z : S512x2048.Idx → α)
    (hag : ∀ j, cnd j = 1#1 → X j = X' j) : select cnd X z = select cnd X' z := by
  funext j
  show Scalar.select (cnd j) (X j) (z j) = Scalar.select (cnd j) (X' j) (z j)
  unfold Scalar.select
  split
  · exact hag j ‹_›
  · rfl

variable (a : BitVec 32) (X X' : Vec F S512x2048 .f32) (hag : ∀ j, k0_pay10 a j = 1#1 → X j = X' j)
include hag

/-- The masked maximum, -/
theorem pay11_agree (s : Vec F S512x1 .f32) : k0_pay11 a X s = k0_pay11 a X' s := by
  unfold k0_pay11; dsimp only
  rw [select_agree (k0_pay10 a) X X' _ hag]

/-- (the exponentials of the block shifted by any column, under the select,) -/
theorem sel_exp_agree (B z : Vec F S512x2048 .f32) :
    select (k0_pay10 a) (exp (subf X B)) z = select (k0_pay10 a) (exp (subf X' B)) z :=
  select_agree (k0_pay10 a) _ _ z fun j hm => by
    show FloatOps.exp (FloatOps.subf (X j) (B j)) = FloatOps.exp (FloatOps.subf (X' j) (B j))
    rw [hag j hm]

/-- the masked normaliser, -/
theorem pay12_agree (s5 s5' s6 : Vec F S512x1 .f32) : k0_pay12 a X s5 s5' s6 = k0_pay12 a X' s5 s5' s6 := by
  unfold k0_pay12; dsimp only
  rw [pay11_agree a X X' hag s5, sel_exp_agree a X X' hag]

/-- and the masked total see the block only where the condition holds. -/
theorem pay13_agree (s7 : Vec F S512x1 .f32) : k0_pay13 a X s7 = k0_pay13 a X' s7 := by
  unfold k0_pay13; dsimp only
  rw [select_agree (k0_pay10 a) X X' _ hag]

/-- So do the masked step and the two results. -/
theorem stepM_agree (s : S3 F) : stepM a X s = stepM a X' s := by
  unfold stepM
  rw [pay11_agree a X X' hag, pay12_agree a X X' hag, pay13_agree a X X' hag]
theorem outL_agree (s : S3 F) : outL a X s = outL a X' s := by
  unfold outL
  rw [pay11_agree a X X' hag, pay12_agree a X X' hag]
theorem outS_agree (s : S3 F) : outS a X s = outS a X' s := by
  unfold outS
  rw [pay13_agree a X X' hag]

end Cert.KernelIdeal.Body

end
-- ==== Proof.KBody.lean ====
/-
  The body obligation at every grid point, and the run of the whole program.

  At a point the pipeline hands the body: the invariant (the three carried columns at what the point before left — at
  anything before the first point), the input window's buffer just fetched (its block, filled out past the array's end
  with whatever the fetch left there), and the two result buffers.  The body hands back the invariant of the next point,
  the input buffer as it found it, and the result buffers: untouched at k < 24, written at k = 24.
-/
import proofs.«150753_j16406775071064_2_alg».proof.Proof.KFill

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S512x2048 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S512x1 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S512x1 .f32 := win0_2.stage (cfg0.slots t 2)
abbrev hs2 (t : Fin cfg0.N) : (ms2 t).IsWhole := Gen.hstage0_2 ((cfg0.slots t 2).cast Gen.nbuf0_2)

/-! ## What the obligation asks of each window's buffer after the body -/

/-- The input window (live everywhere, clipped at the array's end): its block on the part inside the array. -/
theorem leaves0 (c : Dev nD) (t : Fin cfg0.N) :
    (dats m 0 c).leaves 0 t = iprop(∃ d, owns (c : Thread nD τ) (ms0 t) fullShare (win0_0.fill (grid0.coords t) d (xblk m c t))) := by
  unfold Dat.leaves; rw [live0 t]; dsimp only
  show iprop(∃ d, owns (c : Thread nD τ) (ms0 t) fullShare (win0_0.fill (grid0.coords t) d (win0_0.cut (grid0.coords t) ((dats m 0 c).after 0 t)))) = _
  rw [after0]; unfold xin; rw [Pipeline.Window.cut_fill]

theorem noflush1 (t : Fin cfg0.N) (h : ¬t.val % 25 = 24) : (cfg0.win 1).flush t = false :=
  Bool.eq_false_iff.mpr fun hf => h ((flush0_1 t).mp hf)
theorem noflush2 (t : Fin cfg0.N) (h : ¬t.val % 25 = 24) : (cfg0.win 2).flush t = false :=
  Bool.eq_false_iff.mpr fun hf => h ((flush0_2 t).mp hf)

/-- A result window at a point that is no last column block: handed back as found. -/
theorem leaves1_idle (c : Dev nD) (t : Fin cfg0.N) (h : ¬t.val % 25 = 24) :
    (dats m 0 c).leaves 1 t = iprop(∃ d, owns (c : Thread nD τ) (ms1 t) fullShare ((dats m 0 c).before 1 t d)) :=
  Dat.leaves_idle (dats m 0 c) 1 t (idle1 t h) (noflush1 t h)
theorem leaves2_idle (c : Dev nD) (t : Fin cfg0.N) (h : ¬t.val % 25 = 24) :
    (dats m 0 c).leaves 2 t = iprop(∃ d, owns (c : Thread nD τ) (ms2 t) fullShare ((dats m 0 c).before 2 t d)) :=
  Dat.leaves_idle (dats m 0 c) 2 t (idle2 t h) (noflush2 t h)

/-- A result window at a last column block: the result. -/
theorem leaves1_live (c : Dev nD) (t : Fin cfg0.N) (h : t.val % 25 = 24) :
    (dats m 0 c).leaves 1 t = owns (c : Thread nD τ) (ms1 t) fullShare (outAt1 m c t) := by
  unfold Dat.leaves; rw [live1 t h]; dsimp only; rw [after1]
theorem leaves2_live (c : Dev nD) (t : Fin cfg0.N) (h : t.val % 25 = 24) :
    (dats m 0 c).leaves 2 t = owns (c : Thread nD τ) (ms2 t) fullShare (outAt2 m c t) := by
  unfold Dat.leaves; rw [live2 t h]; dsimp only; rw [after2]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 4000000 in
/-- Column block 0: the reset and the plain step. -/
theorem sound_A (c : Dev nD) (t : Fin cfg0.N) (h0 : t.val % 25 = 0) (h24 : ¬t.val % 25 = 24) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1_idle m c t h24, leaves2_idle m c t h24, scAt_A m c t h0]
  have hc0 : cond0 (grid0.coords t) := (hcond0 t).mpr h0
  have hc1 : cond1 (grid0.coords t) := (hcond1 t).mpr h24
  have hc2 : ¬cond2 (grid0.coords t) := fun h => h24 ((hcond2 t).mp h)
  have hpre : (dats m 0 c).Φ t.castSucc ⊢ (iprop(iprop((∃ d, owns (c : Thread nD τ) scM5 fullShare d) ∗ (∃ d, owns (c : Thread nD τ) scM6 fullShare d) ∗ (∃ d, owns (c : Thread nD τ) scM7 fullShare d)) ∗ (∃ r, prngReg c r)) : sProp 𝕄) := by
    rw [PhiS_castSucc m c t]
    by_cases hz : t.val = 0
    · rw [PhiS_zero m c _ _ hz, PhiA_eq]
    · rw [PhiS_pos m c _ _ hz]
      iintro ⟨⟨H5, H6, H7⟩, Hg⟩
      isplitl [H5 H6 H7]
      · isplitl [H5]; · iexists _; iexact H5
        isplitl [H6]; · iexists _; iexact H6
        iexists _; iexact H7
      iexact Hg
  iintro ⟨HΦ, Ho, ⟨%d0, H0⟩, H1, H2⟩
  ihave HΦ' := hpre $$ HΦ
  icases HΦ' with ⟨⟨H5, H6, H7⟩, Hg⟩
  rw [before0, fill_total t h24 d0 zfill (xblk m c t)]
  iapply ((runA c (grid0.coords t) (ms0 t) (hs0 t) (ms1 t) (hs1 t) (ms2 t) (hs2 t) scM5 (Memref.isWhole_whole _) scM6 (Memref.isWhole_whole _) scM7 (Memref.isWhole_whole _) hc0 hc1 hc2 (xin m c t)).2.2.2 Set.univ _)
  isplitl [H0]; · iexact H0
  isplitl [H5]; · iexact H5
  isplitl [H6]; · iexact H6
  isplitl [H7]; · iexact H7
  iintro ⟨H0, ⟨%e5, H5⟩, ⟨%e6, H6⟩, ⟨%e7, H7⟩⟩
  isplitl [H5 H6 H7 Hg]
  · isplitl [H5 H6 H7]
    · isplitl [H5]
      · unfold owns; iexists _; isplitr
        swap; · iexact H5
        ipureintro; exact contA5 c _ _ _ _ _ _ _ _ _ _ _ _ _ hc0 hc1 hc2 _ _ e5
      isplitl [H6]
      · unfold owns; iexists _; isplitr
        swap; · iexact H6
        ipureintro; exact contA6 c _ _ _ _ _ _ _ _ _ _ _ _ _ hc0 hc1 hc2 _ _ e6
      · unfold owns; iexists _; isplitr
        swap; · iexact H7
        ipureintro; exact contA7 c _ _ _ _ _ _ _ _ _ _ _ _ _ hc0 hc1 hc2 _ _ e7
    iexact Hg
  isplitl [Ho]; · iexact Ho
  isplitl [H0]; · iexists zfill; iexact H0
  isplitl [H1]; · iexact H1
  iexact H2

set_option maxHeartbeats 4000000 in
/-- Column blocks 1 … 23: the plain step. -/
theorem sound_B (c : Dev nD) (t : Fin cfg0.N) (h0 : ¬t.val % 25 = 0) (h24 : ¬t.val % 25 = 24) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1_idle m c t h24, leaves2_idle m c t h24, scAt_B m c t h0 h24]
  have hc0 : ¬cond0 (grid0.coords t) := fun h => h0 ((hcond0 t).mp h)
  have hc1 : cond1 (grid0.coords t) := (hcond1 t).mpr h24
  have hc2 : ¬cond2 (grid0.coords t) := fun h => h24 ((hcond2 t).mp h)
  have hz : t.val ≠ 0 := fun h => h0 (by rw [h])
  rw [PhiS_castSucc m c t, PhiS_pos m c _ _ hz]
  iintro ⟨⟨⟨H5, H6, H7⟩, Hg⟩, Ho, ⟨%d0, H0⟩, H1, H2⟩
  rw [before0, fill_total t h24 d0 zfill (xblk m c t)]
  iapply ((runB c (grid0.coords t) (ms0 t) (hs0 t) (ms1 t) (hs1 t) (ms2 t) (hs2 t) scM5 (Memref.isWhole_whole _) scM6 (Memref.isWhole_whole _) scM7 (Memref.isWhole_whole _) hc0 hc1 hc2 (xin m c t) _ _ _).2.2.2 Set.univ _)
  isplitl [H0]; · iexact H0
  isplitl [H5]; · iexact H5
  isplitl [H6]; · iexact H6
  isplitl [H7]; · iexact H7
  iintro ⟨H0, ⟨%e5, H5⟩, ⟨%e6, H6⟩, ⟨%e7, H7⟩⟩
  isplitl [H5 H6 H7 Hg]
  · isplitl [H5 H6 H7]
    · isplitl [H5]
      · unfold owns; iexists _; isplitr
        swap; · iexact H5
        ipureintro; exact contB5 c _ _ _ _ _ _ _ _ _ _ _ _ _ hc0 hc1 hc2 _ _ _ _ _ e5
      isplitl [H6]
      · unfold owns; iexists _; isplitr
        swap; · iexact H6
        ipureintro; exact contB6 c _ _ _ _ _ _ _ _ _ _ _ _ _ hc0 hc1 hc2 _ _ _ _ _ e6
      · unfold owns; iexists _; isplitr
        swap; · iexact H7
        ipureintro; exact contB7 c _ _ _ _ _ _ _ _ _ _ _ _ _ hc0 hc1 hc2 _ _ _ _ _ e7
    iexact Hg
  isplitl [Ho]; · iexact Ho
  isplitl [H0]; · iexists zfill; iexact H0
  isplitl [H1]; · iexact H1
  iexact H2

set_option maxHeartbeats 4000000 in
/-- Column block 24: the masked step and the two results. -/
theorem sound_C (c : Dev nD) (t : Fin cfg0.N) (h24 : t.val % 25 = 24) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1_live m c t h24, leaves2_live m c t h24, scAt_C m c t h24]
  have h0 : ¬t.val % 25 = 0 := by omega
  have hc0 : ¬cond0 (grid0.coords t) := fun h => h0 ((hcond0 t).mp h)
  have hc1 : ¬cond1 (grid0.coords t) := fun h => ((hcond1 t).mp h) h24
  have hc2 : cond2 (grid0.coords t) := (hcond2 t).mpr h24
  have hz : t.val ≠ 0 := fun h => h0 (by rw [h])
  rw [PhiS_castSucc m c t, PhiS_pos m c _ _ hz]
  iintro ⟨⟨⟨H5, H6, H7⟩, Hg⟩, Ho, ⟨%d0, H0⟩, ⟨%d1, H1⟩, ⟨%d2, H2⟩⟩
  rw [before0]
  have hag : ∀ j, k0_pay10 (kw t) j = 1#1 → win0_0.fill (grid0.coords t) d0 (xblk m c t) j = xin m c t j :=
    fun j hm => fill_agree t h24 d0 zfill (xblk m c t) j hm
  iapply ((runC c (grid0.coords t) (ms0 t) (hs0 t) (ms1 t) (hs1 t) (ms2 t) (hs2 t) scM5 (Memref.isWhole_whole _) scM6 (Memref.isWhole_whole _) scM7 (Memref.isWhole_whole _) hc0 hc1 hc2 (win0_0.fill (grid0.coords t) d0 (xblk m c t)) _ _ _).2.2.2.2.2 Set.univ _)
  isplitl [H0]; · iexact H0
  isplitl [H1]; · iexists _; iexact H1
  isplitl [H2]; · iexists _; iexact H2
  isplitl [H5]; · iexact H5
  isplitl [H6]; · iexact H6
  isplitl [H7]; · iexact H7
  iintro ⟨H0, ⟨%e3, H3⟩, ⟨%e4, H4⟩, ⟨%e5, H5⟩, ⟨%e6, H6⟩, ⟨%e7, H7⟩⟩
  isplitl [H5 H6 H7 Hg]
  · isplitl [H5 H6 H7]
    · isplitl [H5]
      · unfold owns; iexists _; isplitr
        swap; · iexact H5
        ipureintro; exact (contC5 c _ _ _ _ _ _ _ _ _ _ _ _ _ hc0 hc1 hc2 _ _ _ _ _ e5).trans (congrArg (·.1) (stepM_agree (kw t) _ _ hag _))
      isplitl [H6]
      · unfold owns; iexists _; isplitr
        swap; · iexact H6
        ipureintro; exact (contC6 c _ _ _ _ _ _ _ _ _ _ _ _ _ hc0 hc1 hc2 _ _ _ _ _ e6).trans (congrArg (·.2.1) (stepM_agree (kw t) _ _ hag _))
      · unfold owns; iexists _; isplitr
        swap; · iexact H7
        ipureintro; exact (contC7 c _ _ _ _ _ _ _ _ _ _ _ _ _ hc0 hc1 hc2 _ _ _ _ _ e7).trans (congrArg (·.2.2) (stepM_agree (kw t) _ _ hag _))
    iexact Hg
  isplitl [Ho]; · iexact Ho
  isplitl [H0]; · iexists d0; iexact H0
  isplitl [H3]
  · unfold owns; iexists _; isplitr
    swap; · iexact H3
    ipureintro; exact (contC3 c _ _ _ _ _ _ _ _ _ _ _ _ _ hc0 hc1 hc2 _ _ _ _ _ e3).trans (outL_agree (kw t) _ _ hag _)
  · unfold owns; iexists _; isplitr
    swap; · iexact H4
    ipureintro; exact (contC4 c _ _ _ _ _ _ _ _ _ _ _ _ _ hc0 hc1 hc2 _ _ _ _ _ e4).trans (outS_agree (kw t) _ _ hag _)

/-- The library's (loose) body obligation, at every point. -/
theorem body_obligation (c : Dev nD) : BodyObligationLoose (dats (F := F) m 0 c) (defs₀ (F := F)) Variants.none () Set.univ := fun t => by
  rw [bigSep_W0, bigSep_W0]
  by_cases h24 : t.val % 25 = 24
  · exact sound_C m c t h24
  · by_cases h0 : t.val % 25 = 0
    · exact sound_A m c t h0 h24
    · exact sound_B m c t h0 h24

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the carried columns' named contents are forgotten. -/
theorem hout (c : Dev nD) : (dats m 0 c).Φ (Fin.last cfg0.N) ⊢ Pipeline.ΦA spec0 c := by
  have hN : cfg0.N = 200 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨H5, H6, H7⟩, Hg⟩
  isplitl [H5 H6 H7]
  · isplitl [H5]; · iexists _; iexact H5
    isplitl [H6]; · iexists _; iexact H6
    iexists _; iexact H7
  iexact Hg

/-! ## The run and the frame -/

set_option backward.isDefEq.respectTransparency.types false in
/-- Every weakly fair execution of the program terminates, nothing faulting, with every array of the pipeline at what the
    library computes from the proof data and every other buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KArr.lean ====
/-
  From blocks to arrays.  The input block a point finds, read at a lane inside the table, is the table's entry at the
  point's rows and columns; and each of the two result columns, written back in blocks of 512 rows at the last column
  block of every row block, ends holding at row r what the point of r's row block wrote for it.
-/
import proofs.«150753_j16406775071064_2_alg».proof.Proof.KData
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The index maps, decided over the grid -/

/-- Point t = 25 i + k takes the input's block (i, k), whose part inside the table has 512 rows and 2048 columns,
    1105 at the last column block. -/
theorem idx_facts0 : ∀ t : Fin cfg0.N, win0_0.index t 0 = t.val / 25 ∧ win0_0.index t 1 = t.val % 25
    ∧ win0_0.xsize (grid0.coords t) 0 = 512
    ∧ win0_0.xsize (grid0.coords t) 1 = (if t.val % 25 = 24 then 1105 else 2048) :=
  (by decide +kernel : ∀ t : Fin grid0.N, win0_0.index t 0 = t.val / 25 ∧ win0_0.index t 1 = t.val % 25
    ∧ win0_0.xsize (grid0.coords t) 0 = 512
    ∧ win0_0.xsize (grid0.coords t) 1 = (if t.val % 25 = 24 then 1105 else 2048))

/-- It takes block (i, 0) of each result column. -/
theorem idx_facts1 : ∀ t : Fin cfg0.N, win0_1.index t 0 = t.val / 25 ∧ win0_1.index t 1 = 0 :=
  (by decide +kernel : ∀ t : Fin grid0.N, win0_1.index t 0 = t.val / 25 ∧ win0_1.index t 1 = 0)
theorem idx_facts2 : ∀ t : Fin cfg0.N, win0_2.index t 0 = t.val / 25 ∧ win0_2.index t 1 = 0 :=
  (by decide +kernel : ∀ t : Fin grid0.N, win0_2.index t 0 = t.val / 25 ∧ win0_2.index t 1 = 0)

/-! ## The input block at a lane inside the table -/

theorem xin_apply (c : Dev nD) (t : Fin cfg0.N) (p : Fin 512) (q : Fin 2048) (hin : 2048 * (t.val % 25) + q.val < 50257) :
    xin m c t (ValueIdx.ix2 p q)
      = m ((c.tc : Thread nD τ).loc main_arg0)
          (ValueIdx.ix2 ⟨512 * (t.val / 25) + p.val, by have := t.isLt; have : cfg0.N = 200 := N_0; omega⟩
            ⟨2048 * (t.val % 25) + q.val, hin⟩) := by
  obtain ⟨e0, e1, x0, x1⟩ := idx_facts0 t
  have hmv : win0_0.moved (grid0.coords t) (ValueIdx.ix2 p q) = true := by
    rw [Window.moved_iff]
    intro a
    match a with
    | ⟨0, _⟩ => show p.val < win0_0.xsize (grid0.coords t) 0; rw [x0]; exact p.isLt
    | ⟨1, _⟩ => show q.val < win0_0.xsize (grid0.coords t) 1; rw [x1]; have := q.isLt; split <;> omega
  unfold xin Pipeline.Window.fill
  rw [dif_pos hmv]
  unfold xblk iblk
  rw [View.read_apply]
  show m ((c.tc : Thread nD τ).loc main_arg0) _ = m ((c.tc : Thread nD τ).loc main_arg0) _
  refine congrArg (m ((c.tc : Thread nD τ).loc main_arg0)) ?_
  funext a; apply Fin.ext
  match a with
  | ⟨0, _⟩ => show win0_0.index t 0 * 512 + 1 * p.val = 512 * (t.val / 25) + p.val; rw [e0]; omega
  | ⟨1, _⟩ => show win0_0.index t 1 * 2048 + 1 * q.val = 2048 * (t.val % 25) + q.val; rw [e1]; omega

/-! ## The result columns after the run -/

/-- A column of 4096 rows from its entries. -/
def colOf (Lf : Fin 4096 → Elt F .f32) : S4096x1.Idx → Elt F .f32 := fun idx => Lf (idx 0)

theorem colOf_apply (Lf : Fin 4096 → Elt F .f32) (i : Fin 4096) : colOf Lf (ValueIdx.ix2 i 0) = Lf i := rfl

/-- What a last-column-block point writes back of the first result is its block of the column. -/
theorem flushed1_eq (c : Dev nD) (Lf : Fin 4096 → Elt F .f32)
    (hL : ∀ (t : Fin cfg0.N), t.val % 25 = 24 → ∀ p : Fin 512, outAt1 m c t (ValueIdx.ix2 p 0)
      = Lf ⟨512 * (t.val / 25) + p.val, by have := t.isLt; have : cfg0.N = 200 := N_0; omega⟩)
    (t : Fin cfg0.N) (hf : (cfg0.win 1).flush t = true) :
    (dats m 0 c).flushed 1 t = ((cfg0.win 1).blk t).view.read (Elt F) (colOf Lf) := by
  have h24 : t.val % 25 = 24 := (flush0_1 t).mp hf
  obtain ⟨e0, e1⟩ := idx_facts1 t
  show (cfg0.win 1).cut (grid0.coords t) ((dats m 0 c).after 1 t) = _
  rw [after1]
  funext y
  rw [View.read_apply]
  have hy0 : (y 0).val < 512 := (y 0).isLt
  have hy1 : (y 1).val < 1 := (y 1).isLt
  have hx : win0_1.xinj (grid0.coords t) y = ValueIdx.ix2 (⟨(y 0).val, hy0⟩ : Fin 512) (0 : Fin 1) := by
    funext a; apply Fin.ext
    match a with
    | ⟨0, _⟩ => rfl
    | ⟨1, _⟩ => show (y 1).val = 0; omega
  show outAt1 m c t (win0_1.xinj (grid0.coords t) y) = _
  rw [hx, hL t h24 ⟨(y 0).val, hy0⟩]
  show Lf _ = Lf _
  refine congrArg Lf (Fin.ext ?_)
  show 512 * (t.val / 25) + (y 0).val = win0_1.index t 0 * 512 + 1 * (y 0).val
  rw [e0]; omega

/-- Every row of the first result column lies in the block some last-column-block point writes back. -/
theorem cover1 (i : S4096x1.Idx) : ∃ t : Fin cfg0.N, (cfg0.win 1).flush t = true ∧ i ∈ ((cfg0.win 1).blk t).view.set := by
  have hN : cfg0.N = 200 := N_0
  have h0 : (i 0).val < 4096 := (i 0).isLt
  have h1 : (i 1).val < 1 := (i 1).isLt
  let t : Fin cfg0.N := ⟨25 * ((i 0).val / 512) + 24, by omega⟩
  have htv : t.val = 25 * ((i 0).val / 512) + 24 := rfl
  obtain ⟨e0, e1⟩ := idx_facts1 t
  refine ⟨t, (flush0_1 t).mpr (by rw [htv]; omega), ?_⟩
  show i ∈ ((View.whole main_v0_0).slice (win0_1.rect t)).set
  rw [View.set_slice_whole, Rect.mem_set_unit]
  intro a
  match a with
  | ⟨0, _⟩ =>
    show win0_1.index t 0 * 512 ≤ (i 0).val ∧ (i 0).val < win0_1.index t 0 * 512 + 512
    rw [e0, htv]; omega
  | ⟨1, _⟩ =>
    show win0_1.index t 1 * 1 ≤ (i 1).val ∧ (i 1).val < win0_1.index t 1 * 1 + 1
    rw [e1]; omega

/-- THE FIRST RESULT COLUMN after the run. -/
theorem final1 (c : Dev nD) (Lf : Fin 4096 → Elt F .f32)
    (hL : ∀ (t : Fin cfg0.N), t.val % 25 = 24 → ∀ p : Fin 512, outAt1 m c t (ValueIdx.ix2 p 0)
      = Lf ⟨512 * (t.val / 25) + p.val, by have := t.isLt; have : cfg0.N = 200 := N_0; omega⟩) :
    (dats m 0 c).arrAt 1 cfg0.N = colOf Lf :=
  (dats m 0 c).arrAt_eq_of_cover 1 (colOf Lf) (flushed1_eq m c Lf hL) cover1

/-- What a last-column-block point writes back of the second result is its block of the column. -/
theorem flushed2_eq (c : Dev nD) (Lf : Fin 4096 → Elt F .f32)
    (hL : ∀ (t : Fin cfg0.N), t.val % 25 = 24 → ∀ p : Fin 512, outAt2 m c t (ValueIdx.ix2 p 0)
      = Lf ⟨512 * (t.val / 25) + p.val, by have := t.isLt; have : cfg0.N = 200 := N_0; omega⟩)
    (t : Fin cfg0.N) (hf : (cfg0.win 2).flush t = true) :
    (dats m 0 c).flushed 2 t = ((cfg0.win 2).blk t).view.read (Elt F) (colOf Lf) := by
  have h24 : t.val % 25 = 24 := (flush0_2 t).mp hf
  obtain ⟨e0, e1⟩ := idx_facts2 t
  show (cfg0.win 2).cut (grid0.coords t) ((dats m 0 c).after 2 t) = _
  rw [after2]
  funext y
  rw [View.read_apply]
  have hy0 : (y 0).val < 512 := (y 0).isLt
  have hy1 : (y 1).val < 1 := (y 1).isLt
  have hx : win0_2.xinj (grid0.coords t) y = ValueIdx.ix2 (⟨(y 0).val, hy0⟩ : Fin 512) (0 : Fin 1) := by
    funext a; apply Fin.ext
    match a with
    | ⟨0, _⟩ => rfl
    | ⟨1, _⟩ => show (y 1).val = 0; omega
  show outAt2 m c t (win0_2.xinj (grid0.coords t) y) = _
  rw [hx, hL t h24 ⟨(y 0).val, hy0⟩]
  show Lf _ = Lf _
  refine congrArg Lf (Fin.ext ?_)
  show 512 * (t.val / 25) + (y 0).val = win0_2.index t 0 * 512 + 1 * (y 0).val
  rw [e0]; omega

/-- Every row of the second result column lies in the block some last-column-block point writes back. -/
theorem cover2 (i : S4096x1.Idx) : ∃ t : Fin cfg0.N, (cfg0.win 2).flush t = true ∧ i ∈ ((cfg0.win 2).blk t).view.set := by
  have hN : cfg0.N = 200 := N_0
  have h0 : (i 0).val < 4096 := (i 0).isLt
  have h1 : (i 1).val < 1 := (i 1).isLt
  let t : Fin cfg0.N := ⟨25 * ((i 0).val / 512) + 24, by omega⟩
  have htv : t.val = 25 * ((i 0).val / 512) + 24 := rfl
  obtain ⟨e0, e1⟩ := idx_facts2 t
  refine ⟨t, (flush0_2 t).mpr (by rw [htv]; omega), ?_⟩
  show i ∈ ((View.whole main_v0_1).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    rw [e0, htv]; omega
  | ⟨1, _⟩ =>
    show win0_2.index t 1 * 1 ≤ (i 1).val ∧ (i 1).val < win0_2.index t 1 * 1 + 1
    rw [e1]; omega

/-- THE SECOND RESULT COLUMN after the run. -/
theorem final2 (c : Dev nD) (Lf : Fin 4096 → Elt F .f32)
    (hL : ∀ (t : Fin cfg0.N), t.val % 25 = 24 → ∀ p : Fin 512, outAt2 m c t (ValueIdx.ix2 p 0)
      = Lf ⟨512 * (t.val / 25) + p.val, by have := t.isLt; have : cfg0.N = 200 := N_0; omega⟩) :
    (dats m 0 c).arrAt 2 cfg0.N = colOf Lf :=
  (dats m 0 c).arrAt_eq_of_cover 2 (colOf Lf) (flushed2_eq m c Lf hL) cover2

end Cert.KernelIdeal.Body

end
-- ==== Proof.Spec.lean ====
/-
  The label-smoothing loss of a table of scores, as one function on the extended reals.

  A row `a` of `C` scores has a maximum `rowMax a`, a total `rowSumExp a` of the exponentials of its
  entries shifted by that maximum, and logarithmic shares `logProb a j = (a j - rowMax a) - log (rowSumExp a)`
  (the log-softmax of the row).  A target word `w` picks one entry of a row (`pick`): read signed, a negative word is
  first moved up by `C`; a word that then lies in `[0, C - 1]` picks that column, any other word picks the bottom
  element (the value the not-a-number pattern denotes on the extended reals).  The loss of a row is
  `-(coef * picked share + off * sum of the shares)`, and the loss of the table the mean of its rows' losses.

  The second arrangement of a row's loss (`kerRow`) is stated from three numbers of the row — its log-sum-exp
  `lse`, its plain total `sumx` and the picked raw score — as `-(coef * (picked - lse) + off * (sumx - C * lse))`.
-/
import Idealize.ShloMosaic.PureOps.Ideal
import Idealize.ShloMosaic.Lib.ValueIdx

noncomputable section

namespace Cert.LabelSmooth

open Idealize.ShloMosaic

/-- The number of columns (classes) -/
abbrev C : ℕ := 50257
/-- and of rows (samples). -/
abbrev R : ℕ := 4096

/-- The constants, as the words both programs spell them: `1 - s - s/(C-1)`, `s/(C-1)`, `C`, the number of rows, zero. -/
def coef : EReal := Ideal.ofBits .f32 0x3F666645#32
def off : EReal := Ideal.ofBits .f32 0x360588B6#32
def cnt : EReal := Ideal.ofBits .f32 0x47445100#32
def rows : EReal := Ideal.ofBits .f32 0x45800000#32
def zero : EReal := Ideal.ofBits .f32 0x00000000#32

/-- A row's maximum, -/
def rowMax (a : Fin C → EReal) : EReal := Finset.univ.sup a
/-- the total of its exponentials shifted by the maximum (started from the zero word), -/
def rowSumExp (a : Fin C → EReal) : EReal := zero + ∑ j, Ideal.exp (a j - rowMax a)
/-- and its logarithmic shares: the log-softmax of the row. -/
def logProb (a : Fin C → EReal) (j : Fin C) : EReal := (a j - rowMax a) - Ideal.log (rowSumExp a)

/-- A target word with a negative word moved up by the number of columns, -/
def wrap (w : BitVec 32) : BitVec 32 := if w.slt 0#32 then w + 50257#32 else w
/-- whether it then names a column, -/
def takeInb (w : BitVec 32) : Prop := 0 ≤ (wrap w).toInt ∧ (wrap w).toInt ≤ 50256
instance (w : BitVec 32) : Decidable (takeInb w) := by unfold takeInb; infer_instance
/-- the column it names (clamped into the row), -/
def takeCol (w : BitVec 32) : Fin C := ⟨min (wrap w).toInt.toNat 50256, Nat.lt_succ_of_le (Nat.min_le_right _ _)⟩
/-- and the entry of a row it picks: the bottom element when it names no column. -/
def pick (w : BitVec 32) (f : Fin C → EReal) : EReal := if takeInb w then f (takeCol w) else ⊥

/-- The loss of one row from its logarithmic shares, -/
def refRow (a : Fin C → EReal) (w : BitVec 32) : EReal :=
  -(coef * pick w (logProb a) + off * (zero + ∑ j, logProb a j))
/-- the same loss from the row's log-sum-exp, its total and the picked raw score, -/
def kerRow (a : Fin C → EReal) (w : BitVec 32) (lse sumx : EReal) : EReal :=
  -(coef * (pick w a - lse) + off * (sumx - cnt * lse))
/-- the mean over the rows, -/
def mean (l : Fin R → EReal) : EReal := Ideal.div (zero + ∑ i, l i) rows
/-- and the loss of a table of scores with one target word per row. -/
def refLoss (X : Fin R → Fin C → EReal) (tg : Fin R → BitVec 32) : EReal := mean fun i => refRow (X i) (tg i)

end Cert.LabelSmooth

end
-- ==== Proof.Online.lean ====
/-
  The block-by-block computation of a row's maximum, of the total of its exponentials shifted by the maximum,
  and of its plain total.

  For a real row `a`, `pmax a n`, `pexp a n` and `psum a n` are the maximum, the shifted exponential total and the
  plain total of the first `n` entries.  Taking in `w` further entries updates them by
    new maximum  = max (old maximum) (maximum of the new entries),
    new exp total = old exp total * exp (old maximum - new maximum) + total of exp (new entry - new maximum),
    new total    = old total + total of the new entries
  (`step_max`, `step_exp`, `step_sum`).  Before any entry the maximum is the bottom element, whose exponential is
  `0`, so the first step multiplies `0` by `0`.  Entries masked out of a block count as `0` in a sum and as the
  bottom element in a maximum (`sum_mask`, `sup_mask`).  After all `C` entries the three numbers are the row's
  `rowMax`, `rowSumExp` and total (`rowMax_eq`, `rowSumExp_eq`, `rowSum_eq`).
-/
import proofs.«150753_j16406775071064_2_alg».proof.Proof.Spec

noncomputable section

namespace Cert.LabelSmooth

open Idealize.ShloMosaic

/-- The inclusion of the reals in the extended reals commutes with finite sums. -/
theorem coe_sum {ι : Type*} (s : Finset ι) (f : ι → ℝ) :
    ((∑ j ∈ s, f j : ℝ) : EReal) = ∑ j ∈ s, ((f j : ℝ) : EReal) := by
  classical
  refine Finset.induction_on s ?_ ?_
  · simp
  · intro x s hx ih
    rw [Finset.sum_insert hx, Finset.sum_insert hx, EReal.coe_add, ih]

/-- The maximum of the first `n` entries (the bottom element for `n = 0`), -/
def pmax (a : ℕ → ℝ) (n : ℕ) : EReal := (Finset.range n).sup fun j => ((a j : ℝ) : EReal)
/-- the total of their exponentials shifted by that maximum, -/
def pexp (a : ℕ → ℝ) (n : ℕ) : EReal := ∑ j ∈ Finset.range n, Ideal.exp (((a j : ℝ) : EReal) - pmax a n)
/-- and their plain total. -/
def psum (a : ℕ → ℝ) (n : ℕ) : EReal := ∑ j ∈ Finset.range n, ((a j : ℝ) : EReal)

variable (a : ℕ → ℝ)

theorem pmax_zero : pmax a 0 = ⊥ := by simp [pmax]
theorem pexp_zero : pexp a 0 = 0 := by simp [pexp]
theorem psum_zero : psum a 0 = 0 := by simp [psum]

/-- The maximum of a prefix and of the block after it is the maximum of the longer prefix. -/
theorem step_max (n w : ℕ) :
    max (pmax a n) ((Finset.range w).sup fun j => ((a (n + j) : ℝ) : EReal)) = pmax a (n + w) := by
  unfold pmax
  rw [Finset.range_add, Finset.sup_union, Finset.sup_map]
  rfl

/-- The plain total of a prefix plus that of the block after it. -/
theorem step_sum (n w : ℕ) :
    psum a n + ∑ j ∈ Finset.range w, ((a (n + j) : ℝ) : EReal) = psum a (n + w) := by
  unfold psum
  rw [Finset.sum_range_add]

/-- A nonempty prefix has a real maximum. -/
theorem pmax_real {n : ℕ} (hn : 0 < n) : ∃ r : ℝ, pmax a n = (r : EReal) := by
  induction n with
  | zero => omega
  | succ k ih =>
    rcases Nat.eq_zero_or_pos k with rfl | hk
    · exact ⟨a 0, by simp [pmax]⟩
    · obtain ⟨r, hr⟩ := ih hk
      refine ⟨max (a k) r, ?_⟩
      unfold pmax at hr ⊢
      rw [Finset.range_add_one, Finset.sup_insert, hr]
      exact (EReal.coe_strictMono.monotone.map_max).symm

/-- Shifting by one real and then rescaling to another: `exp (x - m) * exp (m - m') = exp (x - m')`. -/
theorem exp_shift (x m m' : ℝ) :
    Ideal.exp ((x : EReal) - (m : EReal)) * Ideal.exp ((m : EReal) - (m' : EReal)) = Ideal.exp ((x : EReal) - (m' : EReal)) := by
  rw [← EReal.coe_sub, ← EReal.coe_sub, ← EReal.coe_sub, Ideal.exp_coe, Ideal.exp_coe, Ideal.exp_coe, ← EReal.coe_mul,
    ← Real.exp_add]
  congr 2
  ring

/-- A nonempty prefix has a positive real shifted exponential total. -/
theorem pexp_real {n : ℕ} (hn : 0 < n) : ∃ r : ℝ, 0 < r ∧ pexp a n = (r : EReal) := by
  obtain ⟨m, hm⟩ := pmax_real a hn
  refine ⟨∑ j ∈ Finset.range n, Real.exp (a j - m), ?_, ?_⟩
  · exact Finset.sum_pos (fun j _ => Real.exp_pos _) ⟨0, Finset.mem_range.mpr hn⟩
  · unfold pexp
    rw [hm, coe_sum]
    refine Finset.sum_congr rfl fun j _ => ?_
    rw [← EReal.coe_sub, Ideal.exp_coe]

/-- The plain total of a prefix is real. -/
theorem psum_real (n : ℕ) : ∃ r : ℝ, psum a n = (r : EReal) :=
  ⟨∑ j ∈ Finset.range n, a j, (coe_sum _ _).symm⟩

/-- The shifted exponential total of a prefix, rescaled from the prefix's maximum to the maximum of a longer prefix,
    plus the shifted exponentials of the block after it.  For the empty prefix the left factor is `0 * exp ⊥ = 0 * 0`. -/
theorem step_exp (n w : ℕ) (hw : 0 < w) :
    pexp a n * Ideal.exp (pmax a n - pmax a (n + w))
      + ∑ j ∈ Finset.range w, Ideal.exp (((a (n + j) : ℝ) : EReal) - pmax a (n + w)) = pexp a (n + w) := by
  have hsplit : pexp a (n + w) = ∑ j ∈ Finset.range n, Ideal.exp (((a j : ℝ) : EReal) - pmax a (n + w))
      + ∑ j ∈ Finset.range w, Ideal.exp (((a (n + j) : ℝ) : EReal) - pmax a (n + w)) := by
    unfold pexp
    rw [Finset.sum_range_add]
  rw [hsplit]
  congr 1
  rcases Nat.eq_zero_or_pos n with rfl | hn
  · simp [pexp]
  · obtain ⟨m, hm⟩ := pmax_real a hn
    obtain ⟨m', hm'⟩ := pmax_real a (n := n + w) (by omega)
    unfold pexp
    rw [hm, hm']
    have h1 : ∀ j, Ideal.exp (((a j : ℝ) : EReal) - (m : EReal)) = ((Real.exp (a j - m) : ℝ) : EReal) := fun j => by
      rw [← EReal.coe_sub, Ideal.exp_coe]
    have h2 : ∀ j, Ideal.exp (((a j : ℝ) : EReal) - (m' : EReal)) = ((Real.exp (a j - m') : ℝ) : EReal) := fun j => by
      rw [← EReal.coe_sub, Ideal.exp_coe]
    simp only [h1, h2]
    rw [← EReal.coe_sub, Ideal.exp_coe, ← coe_sum, ← coe_sum, ← EReal.coe_mul, Finset.sum_mul]
    congr 1
    refine Finset.sum_congr rfl fun j _ => ?_
    rw [← Real.exp_add]
    congr 1
    ring

/-- Lanes masked out of a block count as `0` in a sum -/
theorem sum_mask (f : ℕ → EReal) {v w : ℕ} (hvw : v ≤ w) :
    ∑ j ∈ Finset.range w, (if j < v then f j else 0) = ∑ j ∈ Finset.range v, f j := by
  rw [← Finset.sum_filter]
  congr 1
  ext j
  simp only [Finset.mem_filter, Finset.mem_range]
  omega

/-- and as the bottom element in a maximum. -/
theorem sup_mask (f : ℕ → EReal) {v w : ℕ} (hvw : v ≤ w) :
    (Finset.range w).sup (fun j => if j < v then f j else ⊥) = (Finset.range v).sup f := by
  apply le_antisymm
  · refine Finset.sup_le fun j _ => ?_
    by_cases hj : j < v
    · rw [if_pos hj]
      exact Finset.le_sup (f := f) (Finset.mem_range.mpr hj)
    · rw [if_neg hj]
      exact bot_le
  · refine Finset.sup_le fun j hj => ?_
    have hj' : j < v := Finset.mem_range.mp hj
    have := Finset.le_sup (f := fun j => if j < v then f j else ⊥) (Finset.mem_range.mpr (lt_of_lt_of_le hj' hvw))
    simpa [if_pos hj'] using this

/-- A maximum over all positions below `n`, as a maximum over `Fin n`. -/
theorem sup_univ_eq_sup_range {n : ℕ} (f : ℕ → EReal) :
    (Finset.univ : Finset (Fin n)).sup (fun j => f j.val) = (Finset.range n).sup f := by
  apply le_antisymm
  · refine Finset.sup_le fun j _ => ?_
    exact Finset.le_sup (f := f) (Finset.mem_range.mpr j.isLt)
  · refine Finset.sup_le fun j hj => ?_
    exact Finset.le_sup (f := fun j : Fin n => f j.val) (Finset.mem_univ ⟨j, Finset.mem_range.mp hj⟩)

/-- The zero word is the real number zero. -/
theorem zero_eq : zero = 0 := by simp [zero, Ideal.ofBits, Ideal.ieee]

section row

variable {A : Fin C → EReal} (hA : ∀ j, A j = ((a j.val : ℝ) : EReal))
include hA

/-- The whole row's maximum, -/
theorem rowMax_eq : rowMax A = pmax a C := by
  unfold rowMax pmax
  rw [show A = fun j : Fin C => (fun i : ℕ => ((a i : ℝ) : EReal)) j.val from funext hA]
  exact sup_univ_eq_sup_range (n := C) (fun i : ℕ => ((a i : ℝ) : EReal))

/-- shifted exponential total -/
theorem rowSumExp_eq : rowSumExp A = pexp a C := by
  unfold rowSumExp pexp
  rw [rowMax_eq a hA, zero_eq, zero_add]
  simp only [hA]
  exact Fin.sum_univ_eq_sum_range (fun i => Ideal.exp (((a i : ℝ) : EReal) - pmax a C)) C

/-- and plain total. -/
theorem rowSum_eq : ∑ j, A j = psum a C := by
  unfold psum
  simp only [hA]
  exact Fin.sum_univ_eq_sum_range (fun i => ((a i : ℝ) : EReal)) C

end row

end Cert.LabelSmooth

end
-- ==== Proof.Blocks.lean ====
/-
  The row's three running numbers, carried over its 25 column blocks of 2048 entries.

  A state is a triple (running maximum, running shifted exponential total, running plain total), starting from
  `(⊥, 0, 0)`.  Taking in one whole block (`pstep`) replaces the maximum by its maximum with the block's, rescales the
  exponential total to the new maximum and adds the block's shifted exponentials, and adds the block's entries to
  the plain total.  The last block has only its first `1105` entries inside the row (`24 * 2048 + 1105 = 50257`); the
  others are masked (`mstep`): they count as the bottom element in the maximum and as `0` in both sums.  After `k + 1`
  whole blocks the state is the prefix triple `(pmax, pexp, psum)` at `2048 * (k + 1)` (`prun_eq`), and after the
  masked last block it is the whole row's (`final_eq`).
-/
import proofs.«150753_j16406775071064_2_alg».proof.Proof.Online

noncomputable section

namespace Cert.LabelSmooth

open Idealize.ShloMosaic

/-- Entry `j` of block `k` of the row, -/
def blk (a : ℕ → ℝ) (k j : ℕ) : EReal := ((a (2048 * k + j) : ℝ) : EReal)

/-- the state before any block, -/
def pinit : EReal × EReal × EReal := (⊥, 0, 0)

/-- the state after one more whole block `b`, -/
def pstep (b : ℕ → EReal) (s : EReal × EReal × EReal) : EReal × EReal × EReal :=
  (max s.1 ((Finset.range 2048).sup b),
   s.2.1 * Ideal.exp (s.1 - max s.1 ((Finset.range 2048).sup b))
     + ∑ j ∈ Finset.range 2048, Ideal.exp (b j - max s.1 ((Finset.range 2048).sup b)),
   s.2.2 + ∑ j ∈ Finset.range 2048, b j)

/-- the state after one more block of which only the first `v` entries count, -/
def mstep (v : ℕ) (b : ℕ → EReal) (s : EReal × EReal × EReal) : EReal × EReal × EReal :=
  (max s.1 ((Finset.range 2048).sup fun j => if j < v then b j else ⊥),
   s.2.1 * Ideal.exp (s.1 - max s.1 ((Finset.range 2048).sup fun j => if j < v then b j else ⊥))
     + ∑ j ∈ Finset.range 2048,
         (if j < v then Ideal.exp (b j - max s.1 ((Finset.range 2048).sup fun j => if j < v then b j else ⊥)) else 0),
   s.2.2 + ∑ j ∈ Finset.range 2048, (if j < v then b j else 0))

/-- and the state after the whole blocks `0, …, k`. -/
def prun (a : ℕ → ℝ) : ℕ → EReal × EReal × EReal
  | 0 => pstep (blk a 0) pinit
  | k + 1 => pstep (blk a (k + 1)) (prun a k)

variable (a : ℕ → ℝ)

/-- A whole block after a prefix of length `n` takes the prefix triple at `n` to the one at `n + 2048`. -/
theorem pstep_prefix (n : ℕ) :
    pstep (fun j => ((a (n + j) : ℝ) : EReal)) (pmax a n, pexp a n, psum a n)
      = (pmax a (n + 2048), pexp a (n + 2048), psum a (n + 2048)) := by
  unfold pstep
  dsimp only
  rw [step_max a n 2048, step_exp a n 2048 (by norm_num), step_sum a n 2048]

/-- A block of which the first `v` entries count takes the prefix triple at `n` to the one at `n + v`. -/
theorem mstep_prefix (n v : ℕ) (hv : 0 < v) (hv' : v ≤ 2048) :
    mstep v (fun j => ((a (n + j) : ℝ) : EReal)) (pmax a n, pexp a n, psum a n)
      = (pmax a (n + v), pexp a (n + v), psum a (n + v)) := by
  unfold mstep
  dsimp only
  rw [sup_mask (fun j => ((a (n + j) : ℝ) : EReal)) hv', step_max a n v,
    sum_mask (fun j => Ideal.exp (((a (n + j) : ℝ) : EReal) - pmax a (n + v))) hv', step_exp a n v hv,
    sum_mask (fun j => ((a (n + j) : ℝ) : EReal)) hv', step_sum a n v]

/-- Block `k` takes the prefix triple at `2048 * k` to the one at `2048 * (k + 1)`. -/
theorem pstep_blk (k : ℕ) :
    pstep (blk a k) (pmax a (2048 * k), pexp a (2048 * k), psum a (2048 * k))
      = (pmax a (2048 * (k + 1)), pexp a (2048 * (k + 1)), psum a (2048 * (k + 1))) := by
  have h : 2048 * (k + 1) = 2048 * k + 2048 := by ring
  rw [h]
  exact pstep_prefix a (2048 * k)

/-- After the whole blocks `0, …, k` the state is the prefix triple at `2048 * (k + 1)`. -/
theorem prun_eq (k : ℕ) :
    prun a k = (pmax a (2048 * (k + 1)), pexp a (2048 * (k + 1)), psum a (2048 * (k + 1))) := by
  induction k with
  | zero =>
    have h0 : pinit = (pmax a (2048 * 0), pexp a (2048 * 0), psum a (2048 * 0)) := by
      rw [Nat.mul_zero, pmax_zero, pexp_zero, psum_zero, pinit]
    show pstep (blk a 0) pinit = _
    rw [h0]
    exact pstep_blk a 0
  | succ k ih =>
    show pstep (blk a (k + 1)) (prun a k) = _
    rw [ih]
    exact pstep_blk a (k + 1)

/-- After the 24 whole blocks and the last block's first `1105` entries the state is the whole row's triple. -/
theorem final_eq : mstep 1105 (blk a 24) (prun a 23) = (pmax a C, pexp a C, psum a C) := by
  have h24 : 2048 * (23 + 1) = 49152 := by norm_num
  have hb : blk a 24 = fun j => ((a (49152 + j) : ℝ) : EReal) := by
    funext j
    unfold blk
    norm_num
  have hC : C = 49152 + 1105 := by norm_num
  rw [prun_eq a 23, h24, hb, hC]
  exact mstep_prefix a 49152 1105 (by norm_num) (by norm_num)

/-- The whole row's log-sum-exp is a real number. -/
theorem lse_real : ∃ r : ℝ, pmax a C + Ideal.log (pexp a C) = (r : EReal) := by
  obtain ⟨M, hM⟩ := pmax_real a (n := C) (by norm_num)
  obtain ⟨S, hSpos, hS⟩ := pexp_real a (n := C) (by norm_num)
  exact ⟨M + Real.log S, by rw [hM, hS, Ideal.log_coe, if_neg (not_le.mpr hSpos), EReal.coe_add]⟩

end Cert.LabelSmooth

end
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KStepIdx.lean ====
/-
  The body's carried columns read row by row.

  At the extended reals each of the body's stored vectors, read at the row `p` (its one column `0`), is a number
  computed from row `p` of the input block and the three carried numbers of that row: a row maximum is the
  supremum of the row's entries, a row sum their total, the cast of a row vector to a column and the broadcast of a
  column along the rows only move entries.  So the plain step on a block is `pstep` on each row, the masked step
  (the lanes of the last block outside the array replaced by the bottom word, respectively by zero) is `mstep` at the
  `1105` lanes inside, and the two results are the new maximum plus the logarithm of the new normaliser, and the new
  total.
-/
import proofs.«150753_j16406775071064_2_alg».proof.Proof.KPieces
import proofs.«150753_j16406775071064_2_alg».proof.Proof.KFill
import proofs.«150753_j16406775071064_2_alg».proof.Proof.Blocks
import proofs.«150753_j16406775071064_2_alg».proof.Proof.LibRowMax
import proofs.«150753_j16406775071064_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.ValueIdx

/-- Row `p` of a block as a sequence (zero past the block's width), -/
def rowOf (X : S512x2048.Idx → EReal) (p : Fin 512) : ℕ → EReal :=
  fun q => if h : q < 2048 then X (ValueIdx.ix2 p ⟨q, h⟩) else 0

/-- and the three carried numbers of row `p`. -/
def tri (s : S3 Ideal) (p : Fin 512) : EReal × EReal × EReal :=
  (s.1 (ValueIdx.ix2 p 0), s.2.1 (ValueIdx.ix2 p 0), s.2.2 (ValueIdx.ix2 p 0))

theorem rowOf_fin (X : S512x2048.Idx → EReal) (p : Fin 512) (q : Fin 2048) :
    rowOf X p q.val = X (ValueIdx.ix2 p q) := by
  unfold rowOf
  rw [dif_pos q.isLt]

/-- The word of negative infinity is the bottom element. -/
theorem bot_word : Ideal.ofBits .f32 0xFF800000#32 = (⊥ : EReal) := by simp [Ideal.ofBits, Ideal.ieee]

/-- A sum over the 2048 lanes as a sum over a range, -/
theorem sum_fin_range (G : Fin 2048 → EReal) (g : ℕ → EReal) (h : ∀ q : Fin 2048, G q = g q.val) :
    ∑ q, G q = ∑ q ∈ Finset.range 2048, g q := by
  rw [← Fin.sum_univ_eq_sum_range g 2048]
  exact Finset.sum_congr rfl fun q _ => h q

/-- and a fold of `max` from the bottom element over the lanes as a supremum over a range. -/
theorem max_fin_range (G : Fin 2048 → EReal) (g : ℕ → EReal) (h : ∀ q : Fin 2048, G q = g q.val) :
    (Finset.univ : Finset (Fin 2048)).fold max ⊥ G = (Finset.range 2048).sup g := by
  rw [← Cert.LabelSmooth.sup_univ_eq_sup_range (n := 2048) g, show G = fun q : Fin 2048 => g q.val from funext h]
  rfl

/-! ### The plain step -/

/-- The new maximum of row `p`. -/
theorem pay4_idx (X : S512x2048.Idx → EReal) (v : S512x1.Idx → EReal) (p : Fin 512) :
    k0_pay4 (F := Ideal) X v (ValueIdx.ix2 p 0) = max (v (ValueIdx.ix2 p 0)) ((Finset.range 2048).sup (rowOf X p)) := by
  unfold k0_pay4
  refine congrArg (max (v (ValueIdx.ix2 p 0))) ?_
  refine (Keepdims.shapeCast_a_a1_apply _ shapeCasts_S512_S512x1 p 0).trans ?_
  refine (RowMax.rowMax_apply (φ := .f32) X 0xFF800000#32 reduces_S512x2048_S512 (.inl rfl) rfl p).trans ?_
  rw [bot_word]
  exact max_fin_range _ _ fun q => (rowOf_fin X p q).symm

/-- The stored new maximum is the same column. -/
theorem pay7_idx (X : S512x2048.Idx → EReal) (v : S512x1.Idx → EReal) (p : Fin 512) :
    k0_pay7 (F := Ideal) X v (ValueIdx.ix2 p 0) = max (v (ValueIdx.ix2 p 0)) ((Finset.range 2048).sup (rowOf X p)) := by
  unfold k0_pay7
  refine (congrFun (shapeCast_self (k0_pay4 (F := Ideal) X v) shapeCasts_S512x1_S512x1) (ValueIdx.ix2 p 0)).trans ?_
  exact pay4_idx X v p

/-- The new normaliser of row `p`: the old one rescaled to the new maximum plus the row's shifted exponentials. -/
theorem pay5_idx (X : S512x2048.Idx → EReal) (v12 v14 v20 : S512x1.Idx → EReal) (p : Fin 512) :
    k0_pay5 (F := Ideal) X v12 v14 v20 (ValueIdx.ix2 p 0)
      = v20 (ValueIdx.ix2 p 0) * Ideal.exp (v14 (ValueIdx.ix2 p 0) - k0_pay4 (F := Ideal) X v12 (ValueIdx.ix2 p 0))
        + ∑ j ∈ Finset.range 2048, Ideal.exp (rowOf X p j - k0_pay4 (F := Ideal) X v12 (ValueIdx.ix2 p 0)) := by
  unfold k0_pay5
  refine (congrFun (shapeCast_self _ shapeCasts_S512x1_S512x1) (ValueIdx.ix2 p 0)).trans ?_
  refine congrArg (v20 (ValueIdx.ix2 p 0) * Ideal.exp (v14 (ValueIdx.ix2 p 0) - k0_pay4 (F := Ideal) X v12 (ValueIdx.ix2 p 0)) + ·) ?_
  refine (Keepdims.rowSumKeep_apply (φ := .f32) _ 0x00000000#32 reduces_S512x2048_S512 (.inl rfl) rfl
    shapeCasts_S512_S512x1 p 0).trans ?_
  refine sum_fin_range _ _ fun q => ?_
  rw [rowOf_fin]
  refine congrArg (fun t => Ideal.exp (X (ValueIdx.ix2 p q) - t)) ?_
  exact Keepdims.broadcastTo_a1_ab_apply _ broadcasts_S512x1_S512x2048 p q

/-- The new total of row `p`. -/
theorem pay6_idx (X : S512x2048.Idx → EReal) (v : S512x1.Idx → EReal) (p : Fin 512) :
    k0_pay6 (F := Ideal) X v (ValueIdx.ix2 p 0) = v (ValueIdx.ix2 p 0) + ∑ j ∈ Finset.range 2048, rowOf X p j := by
  unfold k0_pay6
  refine (congrFun (shapeCast_self _ shapeCasts_S512x1_S512x1) (ValueIdx.ix2 p 0)).trans ?_
  refine congrArg (v (ValueIdx.ix2 p 0) + ·) ?_
  refine (Keepdims.rowSumKeep_apply (φ := .f32) _ 0x00000000#32 reduces_S512x2048_S512 (.inl rfl) rfl
    shapeCasts_S512_S512x1 p 0).trans ?_
  exact sum_fin_range _ _ fun q => (rowOf_fin X p q).symm

/-- The plain step on a block is the one-row step on each row. -/
theorem tri_stepP (X : Vec Ideal S512x2048 .f32) (s : S3 Ideal) (p : Fin 512) :
    tri (stepP X s) p = Cert.LabelSmooth.pstep (rowOf X p) (tri s p) := by
  unfold tri stepP Cert.LabelSmooth.pstep
  dsimp only
  rw [pay7_idx, pay5_idx, pay6_idx, pay4_idx]

/-- Before any block the three numbers of a row are the bottom element, zero and zero. -/
theorem tri_init (p : Fin 512) : tri (initS (F := Ideal)) p = Cert.LabelSmooth.pinit := by
  have h1 : k0_pay1 (F := Ideal) (ValueIdx.ix2 p 0) = (⊥ : EReal) := by
    unfold k0_pay1
    exact (congrFun (shapeCast_self _ shapeCasts_S512x1_S512x1) (ValueIdx.ix2 p 0)).trans bot_word
  have h2 : k0_pay2 (F := Ideal) (ValueIdx.ix2 p 0) = (0 : EReal) := by
    unfold k0_pay2
    exact (congrFun (shapeCast_self _ shapeCasts_S512x1_S512x1) (ValueIdx.ix2 p 0)).trans Ideal.ofBits_zero_f32
  have h3 : k0_pay3 (F := Ideal) (ValueIdx.ix2 p 0) = (0 : EReal) := by
    unfold k0_pay3
    exact (congrFun (shapeCast_self _ shapeCasts_S512x1_S512x1) (ValueIdx.ix2 p 0)).trans Ideal.ofBits_zero_f32
  unfold tri initS Cert.LabelSmooth.pinit
  dsimp only
  rw [h1, h2, h3]

/-! ### The masked step at the last block -/

/-- Lane `q` of block `24` lies inside the array exactly when `q < 1105` (`24 * 2048 + q < 50257`). -/
theorem mask_idx (p : Fin 512) (q : Fin 2048) : k0_pay10 24#32 (ValueIdx.ix2 p q) = 1#1 ↔ q.val < 1105 := mask_fin q

/-- A selection on the lane condition of block `24`, read at `(p, q)`. -/
theorem sel_idx (A B : S512x2048.Idx → EReal) (p : Fin 512) (q : Fin 2048) :
    select (k0_pay10 24#32) A B (ValueIdx.ix2 p q) = if q.val < 1105 then A (ValueIdx.ix2 p q) else B (ValueIdx.ix2 p q) := by
  show (if k0_pay10 24#32 (ValueIdx.ix2 p q) = 1#1 then A (ValueIdx.ix2 p q) else B (ValueIdx.ix2 p q)) = _
  exact if_congr (mask_idx p q) rfl rfl

/-- The new maximum of row `p` over the lanes inside the array. -/
theorem pay11_idx (X : S512x2048.Idx → EReal) (v : S512x1.Idx → EReal) (p : Fin 512) :
    k0_pay11 (F := Ideal) 24#32 X v (ValueIdx.ix2 p 0)
      = max (v (ValueIdx.ix2 p 0)) ((Finset.range 2048).sup fun j => if j < 1105 then rowOf X p j else ⊥) := by
  unfold k0_pay11
  refine congrArg (max (v (ValueIdx.ix2 p 0))) ?_
  refine (Keepdims.shapeCast_a_a1_apply _ shapeCasts_S512_S512x1 p 0).trans ?_
  refine (RowMax.rowMax_apply (φ := .f32) _ 0xFF800000#32 reduces_S512x2048_S512 (.inl rfl) rfl p).trans ?_
  rw [bot_word]
  refine max_fin_range _ _ fun q => ?_
  refine (sel_idx _ _ p q).trans ?_
  rw [rowOf_fin]
  exact if_congr Iff.rfl rfl bot_word

/-- The stored new maximum is the same column. -/
theorem pay8_idx (v : S512x1.Idx → EReal) (p : Fin 512) : k0_pay8 (F := Ideal) v (ValueIdx.ix2 p 0) = v (ValueIdx.ix2 p 0) := by
  unfold k0_pay8
  exact congrFun (shapeCast_self v shapeCasts_S512x1_S512x1) (ValueIdx.ix2 p 0)

/-- The new normaliser of row `p`, the lanes outside the array counting zero. -/
theorem pay12_idx (X : S512x2048.Idx → EReal) (v20 v22 v30 : S512x1.Idx → EReal) (p : Fin 512) :
    k0_pay12 (F := Ideal) 24#32 X v20 v22 v30 (ValueIdx.ix2 p 0)
      = v30 (ValueIdx.ix2 p 0) * Ideal.exp (v22 (ValueIdx.ix2 p 0) - k0_pay11 (F := Ideal) 24#32 X v20 (ValueIdx.ix2 p 0))
        + ∑ j ∈ Finset.range 2048,
            (if j < 1105 then Ideal.exp (rowOf X p j - k0_pay11 (F := Ideal) 24#32 X v20 (ValueIdx.ix2 p 0)) else 0) := by
  unfold k0_pay12
  refine (congrFun (shapeCast_self _ shapeCasts_S512x1_S512x1) (ValueIdx.ix2 p 0)).trans ?_
  refine congrArg (v30 (ValueIdx.ix2 p 0) * Ideal.exp (v22 (ValueIdx.ix2 p 0) - k0_pay11 (F := Ideal) 24#32 X v20 (ValueIdx.ix2 p 0)) + ·) ?_
  refine (Keepdims.rowSumKeep_apply (φ := .f32) _ 0x00000000#32 reduces_S512x2048_S512 (.inl rfl) rfl
    shapeCasts_S512_S512x1 p 0).trans ?_
  refine sum_fin_range _ _ fun q => ?_
  refine (sel_idx _ _ p q).trans ?_
  rw [rowOf_fin]
  refine if_congr Iff.rfl ?_ Ideal.ofBits_zero_f32
  refine congrArg (fun t => Ideal.exp (X (ValueIdx.ix2 p q) - t)) ?_
  exact Keepdims.broadcastTo_a1_ab_apply _ broadcasts_S512x1_S512x2048 p q

/-- The new total of row `p`, the lanes outside the array counting zero. -/
theorem pay13_idx (X : S512x2048.Idx → EReal) (v : S512x1.Idx → EReal) (p : Fin 512) :
    k0_pay13 (F := Ideal) 24#32 X v (ValueIdx.ix2 p 0)
      = v (ValueIdx.ix2 p 0) + ∑ j ∈ Finset.range 2048, (if j < 1105 then rowOf X p j else 0) := by
  unfold k0_pay13
  refine (congrFun (shapeCast_self _ shapeCasts_S512x1_S512x1) (ValueIdx.ix2 p 0)).trans ?_
  refine congrArg (v (ValueIdx.ix2 p 0) + ·) ?_
  refine (Keepdims.rowSumKeep_apply (φ := .f32) _ 0x00000000#32 reduces_S512x2048_S512 (.inl rfl) rfl
    shapeCasts_S512_S512x1 p 0).trans ?_
  refine sum_fin_range _ _ fun q => ?_
  refine (sel_idx _ _ p q).trans ?_
  rw [rowOf_fin]
  exact if_congr Iff.rfl rfl Ideal.ofBits_zero_f32

/-- The masked step on the last block is the one-row masked step on each row, -/
theorem tri_stepM (X : Vec Ideal S512x2048 .f32) (s : S3 Ideal) (p : Fin 512) :
    tri (stepM 24#32 X s) p = Cert.LabelSmooth.mstep 1105 (rowOf X p) (tri s p) := by
  unfold tri stepM Cert.LabelSmooth.mstep
  dsimp only
  rw [pay8_idx, pay12_idx, pay13_idx, pay11_idx]

/-- the first result is the new maximum plus the logarithm of the new normaliser, -/
theorem outL_idx (X : Vec Ideal S512x2048 .f32) (s : S3 Ideal) (p : Fin 512) :
    outL 24#32 X s (ValueIdx.ix2 p 0)
      = (Cert.LabelSmooth.mstep 1105 (rowOf X p) (tri s p)).1
        + Ideal.log (Cert.LabelSmooth.mstep 1105 (rowOf X p) (tri s p)).2.1 := by
  rw [← tri_stepM X s p]
  rfl

/-- and the second the new total. -/
theorem outS_idx (X : Vec Ideal S512x2048 .f32) (s : S3 Ideal) (p : Fin 512) :
    outS 24#32 X s (ValueIdx.ix2 p 0) = (Cert.LabelSmooth.mstep 1105 (rowOf X p) (tri s p)).2.2 := by
  rw [← tri_stepM X s p]
  rfl

end Cert.KernelIdeal.Body

end
-- ==== Proof.BlocksCongr.lean ====
/-
  A block step reads only the lanes it names: the plain step its 2048 lanes, the masked step its first `v` lanes.
-/
import proofs.«150753_j16406775071064_2_alg».proof.Proof.Blocks

noncomputable section

namespace Cert.LabelSmooth

open Idealize.ShloMosaic

theorem pstep_congr (b b' : ℕ → EReal) (s : EReal × EReal × EReal) (h : ∀ q, q < 2048 → b q = b' q) :
    pstep b s = pstep b' s := by
  have hs : (Finset.range 2048).sup b = (Finset.range 2048).sup b' :=
    Finset.sup_congr rfl fun q hq => h q (Finset.mem_range.mp hq)
  have h1 : ∀ M : EReal, ∑ j ∈ Finset.range 2048, Ideal.exp (b j - M) = ∑ j ∈ Finset.range 2048, Ideal.exp (b' j - M) :=
    fun M => Finset.sum_congr rfl fun q hq => by rw [h q (Finset.mem_range.mp hq)]
  have h2 : ∑ j ∈ Finset.range 2048, b j = ∑ j ∈ Finset.range 2048, b' j :=
    Finset.sum_congr rfl fun q hq => h q (Finset.mem_range.mp hq)
  unfold pstep
  rw [hs, h1, h2]

theorem mstep_congr (v : ℕ) (b b' : ℕ → EReal) (s : EReal × EReal × EReal) (h : ∀ q, q < v → b q = b' q) :
    mstep v b s = mstep v b' s := by
  have e0 : (fun j => if j < v then b j else (⊥ : EReal)) = fun j => if j < v then b' j else ⊥ :=
    funext fun j => by by_cases hj : j < v
                       · rw [if_pos hj, if_pos hj, h j hj]
                       · rw [if_neg hj, if_neg hj]
  have h1 : ∀ M : EReal, ∑ j ∈ Finset.range 2048, (if j < v then Ideal.exp (b j - M) else 0)
      = ∑ j ∈ Finset.range 2048, (if j < v then Ideal.exp (b' j - M) else 0) :=
    fun M => Finset.sum_congr rfl fun j _ => by
      by_cases hj : j < v
      · rw [if_pos hj, if_pos hj, h j hj]
      · rw [if_neg hj, if_neg hj]
  have h2 : ∑ j ∈ Finset.range 2048, (if j < v then b j else 0) = ∑ j ∈ Finset.range 2048, (if j < v then b' j else 0) :=
    Finset.sum_congr rfl fun j _ => by
      by_cases hj : j < v
      · rw [if_pos hj, if_pos hj, h j hj]
      · rw [if_neg hj, if_neg hj]
  unfold mstep
  rw [e0, h1, h2]

end Cert.LabelSmooth

end
-- ==== Proof.KValue.lean ====
/-
  What the two result columns hold: the row's log-sum-exp and the row's total.

  Point `t = 25 i + k` works on rows `512 i + p` and columns `2048 k + q`.  Row `p` of the input block at point `t` is
  block `k` of row `512 i + p` of the table (at the lanes inside the table).  The three carried numbers of row `p`
  after point `25 i + k`, `k ≤ 23`, are therefore the state after the whole blocks `0, …, k` of that row, by induction
  on the point; and at `k = 24` the masked step leaves the whole row's maximum, shifted exponential total and plain
  total, from which the two results are the maximum plus the logarithm of the exponential total, and the plain total.
-/
import proofs.«150753_j16406775071064_2_alg».proof.Proof.KData
import proofs.«150753_j16406775071064_2_alg».proof.Proof.KFill
import proofs.«150753_j16406775071064_2_alg».proof.Proof.KArr
import proofs.«150753_j16406775071064_2_alg».proof.Proof.KStepIdx
import proofs.«150753_j16406775071064_2_alg».proof.Proof.BlocksCongr

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Facts₀

/-- The row of the table that row `p` of the block at point `n` belongs to. -/
abbrev rowAt (n : ℕ) (hn : n < cfg0.N) (p : Fin 512) : Fin 4096 :=
  ⟨512 * (n / 25) + p.val, by have : cfg0.N = 200 := N_0; have := p.isLt; omega⟩

variable (m : (ℓ : Loc nD τ sig) → Buf (Elt Ideal) ℓ) (c : Dev nD) (a : Fin 4096 → ℕ → ℝ)
  (ha : ∀ (r : Fin 4096) (j : Fin 50257),
    m ((c.tc : Thread nD τ).loc main_arg0) (ValueIdx.ix2 r j) = ((a r j.val : ℝ) : EReal))

include ha

/-- Row `p` of the input block at point `n`, at a lane inside the table, is block `n % 25` of the table's row. -/
theorem rowOf_xin (n : ℕ) (hn : n < cfg0.N) (k : ℕ) (hk : n % 25 = k) (p : Fin 512) (q : ℕ) (hq : q < 2048)
    (hin : 2048 * k + q < 50257) :
    rowOf (xin m c ⟨n, hn⟩) p q = Cert.LabelSmooth.blk (a (rowAt n hn p)) k q := by
  subst hk
  unfold rowOf Cert.LabelSmooth.blk
  rw [dif_pos hq, xin_apply m c ⟨n, hn⟩ p ⟨q, hq⟩ hin]
  exact ha _ _

/-- After point `n` with `n % 25 ≤ 23` the three carried numbers of row `p` are the state after the whole blocks
    `0, …, n % 25` of the table's row. -/
theorem tri_scAt (n : ℕ) (hn : n < cfg0.N) (hk : n % 25 ≤ 23) (p : Fin 512) :
    tri (scAt m c n hn) p = Cert.LabelSmooth.prun (a (rowAt n hn p)) (n % 25) := by
  induction n with
  | zero =>
    show tri (stepP (xin m c ⟨0, hn⟩) initS) p = _
    rw [tri_stepP, tri_init]
    show _ = Cert.LabelSmooth.pstep (Cert.LabelSmooth.blk (a (rowAt 0 hn p)) 0) Cert.LabelSmooth.pinit
    exact Cert.LabelSmooth.pstep_congr _ _ _ fun q hq => rowOf_xin m c a ha 0 hn 0 rfl p q hq (by omega)
  | succ n ih =>
    by_cases h0 : (n + 1) % 25 = 0
    · rw [show scAt m c (n + 1) hn = stepP (xin m c ⟨n + 1, hn⟩) initS from scAt_A m c ⟨n + 1, hn⟩ h0,
        tri_stepP, tri_init, h0]
      show _ = Cert.LabelSmooth.pstep (Cert.LabelSmooth.blk (a (rowAt (n + 1) hn p)) 0) Cert.LabelSmooth.pinit
      exact Cert.LabelSmooth.pstep_congr _ _ _ fun q hq =>
        rowOf_xin m c a ha (n + 1) hn 0 h0 p q hq (by omega)
    · have h2 : ¬(n + 1) % 25 = 24 := by omega
      have e : (n + 1) % 25 = n % 25 + 1 := by omega
      have hn' : n < cfg0.N := Nat.lt_of_succ_lt hn
      have hr : rowAt n hn' p = rowAt (n + 1) hn p :=
        Fin.ext (by show 512 * (n / 25) + p.val = 512 * ((n + 1) / 25) + p.val; omega)
      rw [show scAt m c (n + 1) hn = stepP (xin m c ⟨n + 1, hn⟩) (scAt m c n hn') from
          scAt_B m c ⟨n + 1, hn⟩ h0 h2,
        tri_stepP, ih hn' (by omega), hr, e]
      show _ = Cert.LabelSmooth.pstep (Cert.LabelSmooth.blk (a (rowAt (n + 1) hn p)) (n % 25 + 1))
        (Cert.LabelSmooth.prun (a (rowAt (n + 1) hn p)) (n % 25))
      exact Cert.LabelSmooth.pstep_congr _ _ _ fun q hq =>
        rowOf_xin m c a ha (n + 1) hn (n % 25 + 1) e p q hq (by omega)

/-- At a last column block the masked step leaves the whole row's maximum, shifted exponential total and total. -/
theorem tri_last (t : Fin cfg0.N) (h24 : t.val % 25 = 24) (p : Fin 512) :
    Cert.LabelSmooth.mstep 1105 (rowOf (xin m c t) p)
        (tri (scAt m c (t.val - 1) (Nat.lt_of_le_of_lt (Nat.sub_le _ _) t.isLt)) p)
      = (Cert.LabelSmooth.pmax (a (rowAt t.val t.isLt p)) Cert.LabelSmooth.C,
         Cert.LabelSmooth.pexp (a (rowAt t.val t.isLt p)) Cert.LabelSmooth.C,
         Cert.LabelSmooth.psum (a (rowAt t.val t.isLt p)) Cert.LabelSmooth.C) := by
  have hN : cfg0.N = 200 := N_0
  have hlt := t.isLt
  have hn' : t.val - 1 < cfg0.N := Nat.lt_of_le_of_lt (Nat.sub_le _ _) t.isLt
  have h1 : (t.val - 1) % 25 = 23 := by omega
  have hr : rowAt (t.val - 1) hn' p = rowAt t.val t.isLt p :=
    Fin.ext (by show 512 * ((t.val - 1) / 25) + p.val = 512 * (t.val / 25) + p.val; omega)
  rw [tri_scAt m c a ha (t.val - 1) hn' (by omega) p, h1, hr,
    Cert.LabelSmooth.mstep_congr 1105 (rowOf (xin m c t) p) (Cert.LabelSmooth.blk (a (rowAt t.val t.isLt p)) 24) _
      fun q hq => rowOf_xin m c a ha t.val t.isLt 24 h24 p q (by omega) (by omega)]
  exact Cert.LabelSmooth.final_eq _

/-- The first result column at a last column block: the row's log-sum-exp, -/
theorem out1_eq (t : Fin cfg0.N) (h24 : t.val % 25 = 24) (p : Fin 512) :
    outAt1 m c t (ValueIdx.ix2 p 0)
      = Cert.LabelSmooth.pmax (a (rowAt t.val t.isLt p)) Cert.LabelSmooth.C
        + Ideal.log (Cert.LabelSmooth.pexp (a (rowAt t.val t.isLt p)) Cert.LabelSmooth.C) := by
  unfold outAt1
  rw [(last_facts t h24).2.2, outL_idx, tri_last m c a ha t h24 p]

/-- and the second: the row's total. -/
theorem out2_eq (t : Fin cfg0.N) (h24 : t.val % 25 = 24) (p : Fin 512) :
    outAt2 m c t (ValueIdx.ix2 p 0) = Cert.LabelSmooth.psum (a (rowAt t.val t.isLt p)) Cert.LabelSmooth.C := by
  unfold outAt2
  rw [(last_facts t h24).2.2, outS_idx, tri_last m c a ha t h24 p]

end Cert.KernelIdeal.Body

end
-- ==== Proof.KerTail.lean ====
/-
  The operations of the program after its one region, composed into one function of four arrays: the table of
  scores, the target words, and the two columns the region leaves (each row's log-sum-exp and each row's total).
-/
import proofs.«150753_j16406775071064_2_alg».proof.Proof.Gen.KernelIdeal.Frame
import proofs.«150753_j16406775071064_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal
import Idealize.ShloMosaic.PureOps.Ideal.Laws

noncomputable section

namespace Cert.KerTail

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-- The picking of one entry per row: the target words, as a column, with a negative word moved up by the number of
    columns; the test that the moved word names a column; the gather of the named entries; and the not-a-number word
    wherever the test fails. -/
def takeAlong (X : FVec F S4096x50257 .f32) (idx : IVec S4096x1 32) : FVec F S4096x1 .f32 :=
  let c : IVec S_ 32 := constantI S_ 32 0#32
  let v0 : IVec S4096x1 32 := broadcastInDim S4096x1 ![] bcast_S_S4096x1 c
  let v1 : IVec S4096x1 1 := cmpi .slt idx v0
  let c_0 : IVec S_ 32 := constantI S_ 32 50257#32
  let v2 : IVec S4096x1 32 := broadcastInDim S4096x1 ![] bcast_S_S4096x1 c_0
  let v3 : IVec S4096x1 32 := addi idx v2
  let v4 : IVec S4096x1 32 := select v1 v3 idx
  let v5 : IVec S4096x1x1 32 := fun i => shapeCast S4096x1x1 v4 shapeCasts_S4096x1_S4096x1x1 i
  let c_1 : IVec S1 32 := constantI S1 32 50256#32
  let c_2 : IVec S_ 32 := constantI S_ 32 0#32
  let v6 : IVec S4096x1x1 32 := broadcastInDim S4096x1x1 ![] bcast_S_S4096x1x1 c_2
  let v7 : IVec S4096x1x1 1 := cmpi .sge v5 v6
  let v8 : IVec S1x1x1 32 := broadcastInDim S1x1x1 ![2] bcast_S1_S1x1x1_2 c_1
  let v9 : IVec S4096x1x1 32 := broadcastInDim S4096x1x1 ![0, 1, 2] bcast_S1x1x1_S4096x1x1_0_1_2 v8
  let v10 : IVec S4096x1x1 1 := cmpi .sle v5 v9
  let v11 : IVec S4096x1x1 1 := andi v7 v10
  let c_3 : IVec S_ 1 := constantI S_ 1 1#1
  let v12 : IVec S4096x1 1 := Host.reduce IntOp.andi v11 c_3 reducesTo_S4096x1x1_S4096x1_d2 h_S_
  let v13 : FVec F S4096x1 .f32 := Host.gather gather_S4096x50257_S4096x1x1_S4096x1_n_1_0_0_1_2_11 X v5
  let cst : FVec F S_ .f32 := constant S_ .f32 0x7FC00000#32
  let v14 : FVec F S4096x1 .f32 := broadcastInDim S4096x1 ![] bcast_S_S4096x1 cst
  select v12 v13 v14

/-- The operations after the region, composed: the two columns as vectors, the picked scores, each row's loss from the
    three, and the mean of the losses. -/
def tailFn (X : FVec F S4096x50257 .f32) (tg : IVec S4096 32) (L S : FVec F S4096x1 .f32) : FVec F S_ .f32 :=
  let v1 : FVec F S4096 .f32 := fun i => shapeCast S4096 L shapeCasts_S4096x1_S4096 i
  let v2 : FVec F S4096 .f32 := fun i => shapeCast S4096 S shapeCasts_S4096x1_S4096 i
  let v3 : IVec S4096x1 32 := broadcastInDim S4096x1 ![0] bcast_S4096_S4096x1_0 tg
  let v4 : FVec F S4096x1 .f32 := takeAlong X v3
  let v5 : FVec F S4096 .f32 := fun i => shapeCast S4096 v4 shapeCasts_S4096x1_S4096 i
  let v6 : FVec F S4096 .f32 := subf v5 v1
  let cst : FVec F S_ .f32 := constant S_ .f32 0x3F666645#32
  let v7 : FVec F S4096 .f32 := broadcastInDim S4096 ![] bcast_S_S4096 cst
  let v8 : FVec F S4096 .f32 := mulf v7 v6
  let cst_0 : FVec F S_ .f32 := constant S_ .f32 0x47445100#32
  let v9 : FVec F S4096 .f32 := broadcastInDim S4096 ![] bcast_S_S4096 cst_0
  let v10 : FVec F S4096 .f32 := mulf v9 v1
  let v11 : FVec F S4096 .f32 := subf v2 v10
  let cst_1 : FVec F S_ .f32 := constant S_ .f32 0x360588B6#32
  let v12 : FVec F S4096 .f32 := broadcastInDim S4096 ![] bcast_S_S4096 cst_1
  let v13 : FVec F S4096 .f32 := mulf v12 v11
  let v14 : FVec F S4096 .f32 := addf v8 v13
  let v15 : FVec F S4096 .f32 := Host.negf v14
  let cst_2 : FVec F S_ .f32 := constant S_ .f32 0x00000000#32
  let v16 : FVec F S_ .f32 := Host.reduceAdd v15 cst_2 reducesTo_S4096_S_d0 h_S_
  let cst_3 : FVec F S_ .f32 := constant S_ .f32 0x45800000#32
  Host.divf v16 cst_3

theorem tail_eq (m : (ℓ : Loc nD τ sig) → Buf (Elt F) ℓ)
    (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_v17
      = tailFn (F := F) (m ((c.tc : Thread nD τ).loc main_arg0)) (m ((c.tc : Thread nD τ).loc main_arg1))
          ((dats 0 c).arrAt 1 cfg0.N) ((dats 0 c).arrAt 2 cfg0.N) := by
  unfold Pipeline.afterTail₀
  simp only [hostOps1, hostOps1_1, hostOps1_2, List.flatten_cons, List.flatten_nil, List.append_nil, List.cons_append,
    List.nil_append]
  after_results_simp
  rw [Pipeline.withArrays_of_ne _ c (V0 m c) _ main_arg1 (by exact (by decide : ∀ w, Pipeline.arrRef spec0 w ≠ main_arg1))]
  rw [show Pipeline.withArrays (cfgs 0).spec c (V0 m c) (fun w => (dats 0 c).arrAt w (cfgs 0).N) (Proc.devRef .tc main_v0_0)
        = (dats 0 c).arrAt 1 cfg0.N from Pipeline.withArrays_arr spec0 launch0.win.arr_inj c _ _ 1]
  rw [show Pipeline.withArrays (cfgs 0).spec c (V0 m c) (fun w => (dats 0 c).arrAt w (cfgs 0).N) (Proc.devRef .tc main_v0_1)
        = (dats 0 c).arrAt 2 cfg0.N from Pipeline.withArrays_arr spec0 launch0.win.arr_inj c _ _ 2]
  rw [show Pipeline.withArrays (cfgs 0).spec c (V0 m c) (fun w => (dats 0 c).arrAt w (cfgs 0).N) (Proc.devRef .tc main_arg0)
        = m ((c.tc : Thread nD τ).loc main_arg0) from
      (Pipeline.withArrays_arr spec0 launch0.win.arr_inj c _ _ 0).trans
        (((dats 0 c).arrAt_in 0 rfl _).trans ((hA c 0).trans (V_main_arg0 m c)))]
  simp only [StableHlo.TRef.toBuf, StableHlo.TRef.ofBuf, cast_eq]
  unfold tailFn takeAlong
  rfl

end Cert.KerTail

end
-- ==== Proof.LibTakeAlong.lean ====
/-
  A gather along the last axis of a table, read at an index.

  `stablehlo.gather` with the row axis a batching axis of operand and start indices, the column axis collapsed and
  named by the start index map, and slices of one element, reads at row `i` the table's entry of that row in the
  column the start index names, the index word read signed and clamped into the row.
-/
import Idealize.ShloMosaic.Lib.ValueIdx
import Idealize.ShloMosaic.PureOps.Ideal
import Idealize.ShloMosaic.Lib.Pipeline.Value
import Idealize.ShloMosaic.PureOps.Reduce
import proofs.«150753_j16406775071064_2_alg».proof.Proof.Spec

noncomputable section

namespace Cert.TakeAlong

open Idealize.ShloMosaic Idealize.ShloMosaic.ValueIdx

/-- The dimension numbers of a gather along the last axis of a `[4096, 50257]` table at `[4096, 1, 1]` start indices. -/
abbrev alongDims (wf : GatherDims.WF ⟨2, ![4096, 50257]⟩ ⟨3, ![4096, 1, 1]⟩ ⟨2, ![4096, 1]⟩ [] [1] [0] [1] [0] 2 ![1, 1]) :
    GatherDims ⟨2, ![4096, 50257]⟩ ⟨3, ![4096, 1, 1]⟩ ⟨2, ![4096, 1]⟩ where
  offsetDims := []
  collapsedSliceDims := [1]
  operandBatchingDims := [0]
  startIndicesBatchingDims := [0]
  startIndexMap := [1]
  indexVectorDim := 2
  sliceSizes := ![1, 1]
  wf := wf

/-- The column a start index word names: read signed, clamped into `[0, 50256]`. -/
def clampCol {w : Nat} (v : BitVec w) : Fin 50257 := ⟨min v.toInt.toNat 50256, by omega⟩

theorem gather_along_apply {α : Type} {w : Nat}
    (wf : GatherDims.WF ⟨2, ![4096, 50257]⟩ ⟨3, ![4096, 1, 1]⟩ ⟨2, ![4096, 1]⟩ [] [1] [0] [1] [0] 2 ![1, 1])
    (x : (⟨2, ![4096, 50257]⟩ : Shape).Idx → α) (idx : IVec ⟨3, ![4096, 1, 1]⟩ w) (i : Fin 4096) :
    Host.gather (alongDims wf) x idx (ix2 i 0) = x (ix2 i (clampCol (idx (ix3 i 0 0)))) := by
  unfold Host.gather
  congr 1
  funext a
  match a with
  | ⟨0, _⟩ =>
    refine Fin.ext ?_
    show (alongDims wf).start (ix2 i 0) idx 0 + (alongDims wf).batchCoord (ix2 i 0) 0 + (alongDims wf).offCoord (ix2 i 0) 0 = _
    have hs : (alongDims wf).start (ix2 i 0) idx 0 = 0 := by
      unfold GatherDims.start; rw [dif_neg (show (0 : Fin 2) ∉ ([1] : List (Fin 2)) by decide)]
    have ho : (alongDims wf).offCoord (ix2 i 0) 0 = 0 :=
      GatherDims.offCoord_eq_zero _ _ _ (fun h => ((GatherDims.mem_sKept _ _).mp h).2 (List.mem_singleton.mpr rfl))
    have hb : (alongDims wf).batchCoord (ix2 i 0) 0 = i.val := by
      unfold GatherDims.batchCoord
      rw [dif_pos (List.mem_singleton.mpr rfl)]
      rfl
    rw [hs, ho, hb, Nat.zero_add, Nat.add_zero]
  | ⟨1, _⟩ =>
    refine Fin.ext ?_
    show (alongDims wf).start (ix2 i 0) idx 1 + (alongDims wf).batchCoord (ix2 i 0) 1 + (alongDims wf).offCoord (ix2 i 0) 1 = _
    have ho : (alongDims wf).offCoord (ix2 i 0) 1 = 0 :=
      GatherDims.offCoord_eq_zero _ _ _ (fun h => ((GatherDims.mem_sKept _ _).mp h).1 (List.mem_singleton.mpr rfl))
    have hb : (alongDims wf).batchCoord (ix2 i 0) 1 = 0 :=
      GatherDims.batchCoord_eq_zero _ _ _ (show (1 : Fin 2) ∉ ([0] : List (Fin 2)) by decide)
    rw [ho, hb]
    simp only [Nat.add_zero]
    unfold GatherDims.start
    rw [dif_pos (show (1 : Fin 2) ∈ (alongDims wf).startIndexMap from List.mem_singleton.mpr rfl)]
    have hsi : (alongDims wf).siIdx (ix2 i 0) ⟨List.idxOf (1 : Fin 2) (alongDims wf).startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi]
    rfl

/-! ## The words: wrapping a negative index, and the in-bounds bit -/

/-- A select on the bit of a Boolean is the `if` on it. -/
theorem select_ofBool {α : Type} (c : Bool) (a b : α) : Scalar.select (BitVec.ofBool c) a b = if c then a else b := by
  cases c <;> rfl

/-- The wrapped word, as the program computes it. -/
theorem wrap_eq (w : BitVec 32) :
    Scalar.select (IntOp.cmpi .slt w 0#32) (IntOp.addi w 50257#32) w = Cert.LabelSmooth.wrap w := by
  unfold Cert.LabelSmooth.wrap IntOp.cmpi IntOp.addi
  exact select_ofBool _ _ _

/-- The in-bounds bit, as the program computes it (the two comparisons, and their conjunction folded with the bit `1`),
    is set exactly when the wrapped word names a column. -/
theorem inb_bit (W : BitVec 32) :
    IntOp.andi (IntOp.andi (IntOp.cmpi .sge W 0#32) (IntOp.cmpi .sle W 50256#32)) 1#1 = 1#1
      ↔ (0 ≤ W.toInt ∧ W.toInt ≤ 50256) := by
  have h0 : (0#32 : BitVec 32).toInt = 0 := by decide
  have h1 : (50256#32 : BitVec 32).toInt = 50256 := by decide
  unfold IntOp.andi IntOp.cmpi
  simp only [BitVec.sle, h0, h1]
  by_cases ha : 0 ≤ W.toInt <;> by_cases hb : W.toInt ≤ 50256 <;> simp [ha, hb]

/-! ## The composed function -/

abbrev T : Shape := ⟨2, ![4096, 50257]⟩
abbrev T1 : Shape := ⟨2, ![4096, 1]⟩
abbrev T11 : Shape := ⟨3, ![4096, 1, 1]⟩
abbrev S0 : Shape := ⟨0, ![]⟩
abbrev S1 : Shape := ⟨1, ![1]⟩
abbrev S111 : Shape := ⟨3, ![1, 1, 1]⟩

variable {F : FTy → Type} [FloatOps F]

/-- The index array the gather reads: the words with a negative one moved up by the row length, as `[4096, 1, 1]`. -/
def wrapped (hb0 : S0.BroadcastsInDim T1 (![] : Fin 0 → Fin T1.rank)) (hsc : T1.ShapeCasts T11) (idx : IVec T1 32) : IVec T11 32 :=
  shapeCast T11 (select (cmpi .slt idx (broadcastInDim T1 ![] hb0 (constantI S0 32 0#32)))
    (addi idx (broadcastInDim T1 ![] hb0 (constantI S0 32 50257#32))) idx) hsc

/-- `take_along_axis` along the last axis, as the operations compose: the gather at the wrapped index where that index
    is inside the row, the not-a-number word elsewhere. -/
def takeAlong (D : GatherDims T T11 T1)
    (hb0 : S0.BroadcastsInDim T1 (![] : Fin 0 → Fin T1.rank)) (hsc : T1.ShapeCasts T11)
    (hb1 : S0.BroadcastsInDim T11 (![] : Fin 0 → Fin T11.rank))
    (hb2 : S1.BroadcastsInDim S111 (![2] : Fin 1 → Fin S111.rank))
    (hb3 : S111.BroadcastsInDim T11 (![0, 1, 2] : Fin 3 → Fin T11.rank))
    (hr : T11.ReducesTo [2] T1) (hS : 0 < S0.numel)
    (op : FVec F T .f32) (idx : IVec T1 32) : FVec F T1 .f32 :=
  select
    (Host.reduce IntOp.andi
      (andi (cmpi .sge (wrapped hb0 hsc idx) (broadcastInDim T11 ![] hb1 (constantI S0 32 0#32)))
        (cmpi .sle (wrapped hb0 hsc idx)
          (broadcastInDim T11 ![0, 1, 2] hb3 (broadcastInDim S111 ![2] hb2 (constantI S1 32 50256#32)))))
      (constantI S0 1 1#1) hr hS)
    (Host.gather D op (wrapped hb0 hsc idx))
    (broadcastInDim T1 ![] hb0 (constant S0 .f32 0x7FC00000#32))

theorem wrapped_apply (hb0 : S0.BroadcastsInDim T1 (![] : Fin 0 → Fin T1.rank)) (hsc : T1.ShapeCasts T11) (idx : IVec T1 32)
    (i : Fin 4096) : wrapped hb0 hsc idx (ix3 i 0 0) = Cert.LabelSmooth.wrap (idx (ix2 i 0)) := by
  unfold wrapped
  rw [shapeCast_apply _ hsc (ix3 i 0 0) (ix2 i 0) (by rw [Shape.rowMajor_val_two, Shape.rowMajor_val_three]; show i.val * 1 + 0 = (i.val * 1 + 0) * 1 + 0; omega)]
  exact wrap_eq _

/-- The not-a-number word denotes the bottom element. -/
theorem nan_bot : Ideal.ofBits .f32 0x7FC00000#32 = (⊥ : EReal) := by simp [Ideal.ofBits, Ideal.ieee]

/-- The row index over result index `(i, 0)` with the dropped unit axis's coordinate inserted is `(i, 0, 0)`. -/
theorem lift_unit (h : T11.Reduces [2] T1) (i : Fin 4096) (k : Fin (T11.size 2)) : Shape.Reduces.lift h (ix2 i 0) k = ix3 i 0 0 := by
  funext c
  refine Fin.ext ?_
  rw [Shape.Reduces.lift_val h]
  unfold Shape.Reduces.liftVal
  match c with
  | ⟨0, _⟩ => rfl
  | ⟨1, _⟩ => rfl
  | ⟨2, _⟩ => have := k.isLt; show k.val = 0; change k.val < 1 at this; omega

/-- THE WHOLE FUNCTION READ AT ROW `i`, at the ideal instance: the entry of the row the target word picks. -/
theorem takeAlong_apply
    (wf : GatherDims.WF ⟨2, ![4096, 50257]⟩ ⟨3, ![4096, 1, 1]⟩ ⟨2, ![4096, 1]⟩ [] [1] [0] [1] [0] 2 ![1, 1])
    (hb0 : S0.BroadcastsInDim T1 (![] : Fin 0 → Fin T1.rank)) (hsc : T1.ShapeCasts T11)
    (hb1 : S0.BroadcastsInDim T11 (![] : Fin 0 → Fin T11.rank))
    (hb2 : S1.BroadcastsInDim S111 (![2] : Fin 1 → Fin S111.rank))
    (hb3 : S111.BroadcastsInDim T11 (![0, 1, 2] : Fin 3 → Fin T11.rank))
    (hr : T11.ReducesTo [2] T1) (hS : 0 < S0.numel)
    (op : FVec Ideal T .f32) (idx : IVec T1 32) (i : Fin 4096) :
    takeAlong (F := Ideal) (alongDims wf) hb0 hsc hb1 hb2 hb3 hr hS op idx (ix2 i 0)
      = Cert.LabelSmooth.pick (idx (ix2 i 0)) (fun j => op (ix2 i j)) := by
  have hred : T11.Reduces [2] T1 := by decide
  unfold takeAlong
  rw [select_apply, Host.reduce_eq_fold_single IntOp.andi _ _ hr hred hS (ix2 i 0), gather_along_apply]
  have hu : (Finset.univ : Finset (Fin (T11.size 2))) = {(⟨0, Nat.one_pos⟩ : Fin (T11.size 2))} := by
    show (Finset.univ : Finset (Fin 1)) = {0}; rfl
  rw [hu, Finset.fold_singleton, Function.comp_apply, lift_unit, wrapped_apply]
  show Scalar.select (IntOp.andi (IntOp.andi (IntOp.cmpi .sge (wrapped hb0 hsc idx (ix3 i 0 0)) 0#32)
      (IntOp.cmpi .sle (wrapped hb0 hsc idx (ix3 i 0 0)) 50256#32)) 1#1) _ (Ideal.ofBits .f32 0x7FC00000#32) = _
  rw [wrapped_apply, nan_bot]
  unfold Cert.LabelSmooth.pick Scalar.select
  have hbit := inb_bit (Cert.LabelSmooth.wrap (idx (ix2 i 0)))
  by_cases hin : Cert.LabelSmooth.takeInb (idx (ix2 i 0))
  · rw [if_pos hin]; exact (if_pos (hbit.2 hin)).trans rfl
  · rw [if_neg hin]; exact if_neg (fun h => hin (hbit.1 h))

/-- The same with the words given per row and broadcast along the unit axis, as both programs pass them. -/
theorem takeAlong_bcast_apply
    (wf : GatherDims.WF ⟨2, ![4096, 50257]⟩ ⟨3, ![4096, 1, 1]⟩ ⟨2, ![4096, 1]⟩ [] [1] [0] [1] [0] 2 ![1, 1])
    (hb0 : S0.BroadcastsInDim T1 (![] : Fin 0 → Fin T1.rank)) (hsc : T1.ShapeCasts T11)
    (hb1 : S0.BroadcastsInDim T11 (![] : Fin 0 → Fin T11.rank))
    (hb2 : S1.BroadcastsInDim S111 (![2] : Fin 1 → Fin S111.rank))
    (hb3 : S111.BroadcastsInDim T11 (![0, 1, 2] : Fin 3 → Fin T11.rank))
    (hr : T11.ReducesTo [2] T1) (hS : 0 < S0.numel)
    (hbt : (⟨1, ![4096]⟩ : Shape).BroadcastsInDim T1 (![0] : Fin 1 → Fin T1.rank))
    (op : FVec Ideal T .f32) (tg : IVec ⟨1, ![4096]⟩ 32) (i : Fin 4096) :
    takeAlong (F := Ideal) (alongDims wf) hb0 hsc hb1 hb2 hb3 hr hS op (broadcastInDim T1 ![0] hbt tg) (ix2 i 0)
      = Cert.LabelSmooth.pick (tg (ix1 i)) (fun j => op (ix2 i j)) := by
  rw [takeAlong_apply]
  congr 1
  exact broadcastInDim_apply _ hbt tg (ix2 i 0) (ix1 i) (fun a => match a with
    | ⟨0, _⟩ => by show i.val = if (4096 : Nat) = 1 then 0 else i.val; rw [if_neg (by decide)])

end Cert.TakeAlong

end
-- ==== Proof.KerTailSpec.lean ====
/-
  The composed tail read at the extended reals, index by index: the mean, over the rows, of each row's loss stated
  from the row's log-sum-exp, its total and its picked score.
-/
import proofs.«150753_j16406775071064_2_alg».proof.Proof.KerTail
import proofs.«150753_j16406775071064_2_alg».proof.Proof.LibTakeAlong
import Idealize.ShloMosaic.Lib.IdealHost

noncomputable section

namespace Cert.KerTail

open Idealize.ShloMosaic Idealize.ShloMosaic.ValueIdx
open Cert.KernelIdeal Cert.KernelIdeal.Gen

/-- The picking stage is the general one at this program's shape facts. -/
theorem takeAlong_eq {F : FTy → Type} [FloatOps F] (X : FVec F S4096x50257 .f32) (idx : IVec S4096x1 32) :
    takeAlong X idx
      = Cert.TakeAlong.takeAlong (Cert.TakeAlong.alongDims gather_S4096x50257_S4096x1x1_S4096x1_n_1_0_0_1_2_11_wf)
          bcast_S_S4096x1 shapeCasts_S4096x1_S4096x1x1 bcast_S_S4096x1x1 bcast_S1_S1x1x1_2 bcast_S1x1x1_S4096x1x1_0_1_2
          reducesTo_S4096x1x1_S4096x1_d2 h_S_ X idx := rfl

/-- The picked score of row i. -/
theorem takeAlong_pick (X : FVec Ideal S4096x50257 .f32) (tg : IVec S4096 32) (i : Fin 4096) :
    takeAlong (F := Ideal) X (broadcastInDim S4096x1 ![0] bcast_S4096_S4096x1_0 tg) (ix2 i 0)
      = Cert.LabelSmooth.pick (tg (ix1 i)) (fun j => X (ix2 i j)) := by
  rw [takeAlong_eq]
  exact Cert.TakeAlong.takeAlong_bcast_apply _ _ _ _ _ _ _ _ _ X tg i

/-- A column cast to a vector reads, at i, the column's entry of row i. -/
theorem shapeCast_col_apply {α : Type} (x : S4096x1.Idx → α) (i : Fin 4096) :
    shapeCast S4096 x shapeCasts_S4096x1_S4096 (ix1 i) = x (ix2 i 0) :=
  shapeCast_apply x _ _ _ (by
    rw [Shape.rowMajor_val_two, Shape.rowMajor_val_one]
    show i.val * 1 + 0 = i.val
    omega)

/-- The indices of a vector are its coordinates. -/
def idxEquiv1 {n : Nat} : (⟨1, ![n]⟩ : Shape).Idx ≃ Fin n where
  toFun j := j 0
  invFun i := ix1 i
  left_inv j := (eq_ix1 j).symm
  right_inv i := rfl

/-- A sum over the indices of a vector is the sum over its coordinates. -/
theorem sum_idx1 {M : Type} [AddCommMonoid M] {n : Nat} (f : (⟨1, ![n]⟩ : Shape).Idx → M) :
    ∑ j, f j = ∑ i : Fin n, f (ix1 i) := by
  rw [← Equiv.sum_comp (idxEquiv1 (n := n)).symm f]
  rfl

theorem tail_spec (X : FVec Ideal S4096x50257 .f32) (tg : IVec S4096 32) (L S : FVec Ideal S4096x1 .f32) :
    tailFn (F := Ideal) X tg L S
      = fun _ => Cert.LabelSmooth.mean (fun i => Cert.LabelSmooth.kerRow (fun j => X (ix2 i j)) (tg (ix1 i))
          (L (ix2 i 0)) (S (ix2 i 0))) := by
  funext j
  unfold tailFn
  dsimp only
  rw [hostDivf_apply, hostReduceAdd_apply,
    Ideal.hostReduceAdd_total reducesTo_S4096_S_d0 (fun b => b.elim0), sum_idx1]
  unfold Cert.LabelSmooth.mean
  refine congrArg₂ Ideal.div (congrArg₂ (· + ·) rfl (Finset.sum_congr rfl fun i _ => ?_)) rfl
  rw [show ∀ (v : FVec Ideal S4096 .f32) (k : S4096.Idx), Host.negf v k = -(v k) from fun _ _ => rfl]
  simp only [addf_apply, mulf_apply, subf_apply, shapeCast_col_apply]
  rw [takeAlong_pick]
  rw [broadcastInDim_scalar_apply, broadcastInDim_scalar_apply, broadcastInDim_scalar_apply]
  rfl

end Cert.KerTail

end
-- ==== Proof.RowLoss.lean ====
/-
  The loss of one row, computed from the row's log-sum-exp, its plain total and the picked raw score, is the loss
  computed from the row's logarithmic shares.

  Write `M` for the row's maximum and `L` for the logarithm of its shifted exponential total (both real numbers, the
  row being real and nonempty).  Each share is `logProb A j = (a j - M) - L`, so the shares total
  `(∑ a j) - C * (M + L)`, which is the second arrangement's `sumx - cnt * lse` at `lse = M + L`; and the picked
  share is the picked raw score minus `M + L` (both are the bottom element when the target word names no column).
  The two losses are then the same expression in the same two numbers.
-/
import proofs.«150753_j16406775071064_2_alg».proof.Proof.Online

noncomputable section

namespace Cert.LabelSmooth

open Idealize.ShloMosaic

/-- The word of the column count is the real number `50257`: sign `0`, exponent field `142`, fraction `0x445100`,
    so `(2^23 + 0x445100) * 2^(142 - 127 - 23) = 12865792 / 256`. -/
theorem cnt_eq : cnt = ((50257 : ℝ) : EReal) := by
  simp [cnt, Ideal.ofBits, Ideal.ieee]
  rw [← EReal.coe_mul, EReal.coe_eq_coe_iff]
  norm_num

/-- The loss of a real row from its log-sum-exp `pmax + log pexp`, its total `psum` and the picked raw score is its
    loss from the logarithmic shares. -/
theorem row_loss {A : Fin C → EReal} (a : ℕ → ℝ) (hA : ∀ j, A j = ((a j.val : ℝ) : EReal)) (w : BitVec 32) :
    kerRow A w (pmax a C + Ideal.log (pexp a C)) (psum a C) = refRow A w := by
  obtain ⟨M, hM⟩ := pmax_real a (n := C) (by norm_num)
  obtain ⟨S, hSpos, hS⟩ := pexp_real a (n := C) (by norm_num)
  have hL : Ideal.log (pexp a C) = ((Real.log S : ℝ) : EReal) := by
    rw [hS, Ideal.log_coe, if_neg (not_le.mpr hSpos)]
  -- each share is a real number
  have hlp : ∀ j : Fin C, logProb A j = ((a j.val - M - Real.log S : ℝ) : EReal) := fun j => by
    unfold logProb
    rw [rowMax_eq a hA, rowSumExp_eq a hA, hA j, hM, hL, EReal.coe_sub, EReal.coe_sub]
  -- the shares total `(∑ a j) - C * (M + L)`
  have hsum : zero + ∑ j, logProb A j
      = (((∑ j ∈ Finset.range C, a j) - 50257 * (M + Real.log S) : ℝ) : EReal) := by
    rw [zero_eq, zero_add]
    simp only [hlp]
    rw [← coe_sum, EReal.coe_eq_coe_iff]
    rw [Fin.sum_univ_eq_sum_range (fun i => a i - M - Real.log S) C, Finset.sum_sub_distrib, Finset.sum_sub_distrib,
      Finset.sum_const, Finset.sum_const, Finset.card_range]
    simp only [nsmul_eq_mul]
    push_cast
    ring
  -- and so does the second arrangement's `sumx - cnt * lse`
  have hker : psum a C - cnt * (pmax a C + Ideal.log (pexp a C))
      = (((∑ j ∈ Finset.range C, a j) - 50257 * (M + Real.log S) : ℝ) : EReal) := by
    rw [hM, hL, cnt_eq]
    unfold psum
    rw [← coe_sum, ← EReal.coe_add, ← EReal.coe_mul, ← EReal.coe_sub]
  -- the picked share is the picked raw score minus the log-sum-exp
  have hpick : pick w A - (pmax a C + Ideal.log (pexp a C)) = pick w (logProb A) := by
    rw [hM, hL]
    unfold pick
    split_ifs with h
    · rw [hlp, hA, ← EReal.coe_add, ← EReal.coe_sub, EReal.coe_eq_coe_iff]
      ring
    · exact EReal.bot_sub _
  unfold kerRow refRow
  rw [hpick, hker, hsum]

/-- The first weight is a positive real number: its word has sign `0` and an exponent field strictly between the
    extremes, so it denotes `(2^23 + fraction) * 2^(exponent - 150)`. -/
theorem coef_real : ∃ r : ℝ, 0 < r ∧ coef = (r : EReal) := by
  simp [coef, Ideal.ofBits, Ideal.ieee]
  exact ⟨15099461 * (2 ^ 24)⁻¹, by positivity, (EReal.coe_mul _ _).symm⟩

/-- The second weight is a real number. -/
theorem off_real : ∃ r : ℝ, off = (r : EReal) := by
  simp [off, Ideal.ofBits, Ideal.ieee]
  exact ⟨8751286 * (2 ^ 42)⁻¹, (EReal.coe_mul _ _).symm⟩

end Cert.LabelSmooth

end
-- ==== Proof.Finite.lean ====
/-
  From the precondition to finiteness.  The precondition's predicate is the conjunction, over every entry of the
  input table, of "the absolute value of the entry lies strictly below plus infinity".  On the extended reals
  the absolute value of x is max x (-x), so that the comparison holds exactly when x is neither the bottom nor
  the top element: every entry of the table is a real number.
-/
import proofs.«150753_j16406775071064_2_alg».proof.Defs
import proofs.«150753_j16406775071064_2_alg».proof.Proof.Gen.Pre_finite_inputs
import proofs.«150753_j16406775071064_2_alg».proof.Proof.Gen.KernelIdeal
import Idealize.ShloMosaic.Lib.ReduceAll
import Idealize.ShloMosaic.Lib.ValueIdx

noncomputable section

namespace Cert.Finite

open Idealize.ShloMosaic Idealize.SL.Sem

/-- The shape without axes has one index only. -/
instance : Subsingleton Cert.Pre_finite_inputs.S_.Idx := ⟨fun a b => funext fun d => d.elim0⟩

/-- The plus-infinity word denotes the top element. -/
theorem inf_word : Ideal.ofBits .f32 0x7F800000#32 = (⊤ : EReal) := by
  simp [Ideal.ofBits, Ideal.ieee]

/-- An extended real whose absolute value compares strictly below the top element is a real number. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

theorem finite_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg0) i = (r : EReal) := by
  intro i
  have h0 := congrFun (h c) ValueIdx.ix0
  dsimp only [Cert.Pre_finite_inputs.fn] at h0
  have h1 := Host.reduce_andi_all _ _ _ _ _ h0 i
  refine real_of_abs_lt _ ?_
  rw [← inf_word]
  exact h1

end Cert.Finite

end
-- ==== Proof.KAlg.lean ====
/-
  The idealized kernel's result is the loss of the specification.

  After the region the two result arrays hold, row by row, the row's log-sum-exp (running maximum plus the logarithm of
  the running normaliser after the 25 column blocks) and the row's total; the host lines after the region turn them, the
  gathered target scores and the constants into the mean of the rows' losses in the second arrangement (kerRow).  Under
  the precondition every score is a real number, and for real rows the second arrangement equals the first (refRow):
  the logarithmic shares sum to the total minus the number of columns times the log-sum-exp, and a target word that
  names no column picks the bottom element on both sides.
-/
import proofs.«150753_j16406775071064_2_alg».proof.Proof.KBody
import proofs.«150753_j16406775071064_2_alg».proof.Proof.KArr
import proofs.«150753_j16406775071064_2_alg».proof.Proof.KValue
import proofs.«150753_j16406775071064_2_alg».proof.Proof.KerTailSpec
import proofs.«150753_j16406775071064_2_alg».proof.Proof.RowLoss
import proofs.«150753_j16406775071064_2_alg».proof.Proof.Finite

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Facts₀

variable {F : FTy → Type} [FloatOps F]

local notation "𝕄" => MT nD τ sig Unit (Elt F) ℕ (UR sig nD τ) ℕ

open Cert.LabelSmooth

variable (m : (ℓ : Loc nD τ sig) → Buf (Elt Ideal) ℓ) (ρ : Dev nD → PrngReg)

/-- What the host lines after the region leave in the result buffer: the specification's loss of the argument arrays. -/
theorem kernel_value (hpre : Cert.Pre_KernelIdeal (hPre_finite_inputs := Cert.Pre_finite_inputs.Gen.facts) m) (c : Dev nD) :
    Pipeline.afterTail₀ cfgs (dats m) 0 (V0 m) [hostOps1, hostOps1_1, hostOps1_2] c main_v17
      = fun _ => refLoss (fun i j => m ((c.tc : Thread nD τ).loc main_arg0) (ValueIdx.ix2 i j))
          (fun i => m ((c.tc : Thread nD τ).loc main_arg1) (ValueIdx.ix1 i)) := by
  obtain ⟨a0, ha0⟩ : ∃ a0 : S4096x50257.Idx → ℝ, ∀ i, m ((c.tc : Thread nD τ).loc main_arg0) i = ((a0 i : ℝ) : EReal) :=
    ⟨fun i => Classical.choose (Cert.Finite.finite_of_pre m hpre c i), fun i => Classical.choose_spec (Cert.Finite.finite_of_pre m hpre c i)⟩
  let a : Fin 4096 → ℕ → ℝ := fun r j => if h : j < 50257 then a0 (ValueIdx.ix2 r ⟨j, h⟩) else 0
  have ha : ∀ (r : Fin 4096) (j : Fin 50257), m ((c.tc : Thread nD τ).loc main_arg0) (ValueIdx.ix2 r j) = ((a r j.val : ℝ) : EReal) := fun r j => by
    show _ = (((if h : j.val < 50257 then a0 (ValueIdx.ix2 r ⟨j.val, h⟩) else 0) : ℝ) : EReal)
    rw [dif_pos j.isLt]; exact ha0 _
  rw [Cert.KerTail.tail_eq m (dats m) (A_eq m) c, Cert.KerTail.tail_spec,
    final1 m c (fun r => pmax (a r) C + Ideal.log (pexp (a r) C)) (fun t h24 p => out1_eq m c a ha t h24 p),
    final2 m c (fun r => psum (a r) C) (fun t h24 p => out2_eq m c a ha t h24 p)]
  funext _
  unfold refLoss
  refine congrArg mean (funext fun i => ?_)
  rw [colOf_apply, colOf_apply]
  exact row_loss (a i) (fun j => ha i j) _

/-- The run of the idealized kernel, read: the result is the specification's loss of the arguments, which end unchanged. -/
theorem kernel_run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v17) = (fun _ => refLoss (fun i j => m ((c.tc : Thread nD τ).loc main_arg0) (ValueIdx.ix2 i j))
          (fun i => m ((c.tc : Thread nD τ).loc main_arg1) (ValueIdx.ix1 i)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v17 (Pipeline.mem_restRefs_of main_v17 (by decide) (by decide))).trans (kernel_value m hpre c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Body

end
-- ==== Proof.RefDefs.lean ====
/-
  The reference computation's stages, as functions of a table of scores and of the target words: the row maxima, the
  shifted scores, the log-softmax table, the target words along a unit axis, the picked entries, the mean of the row
  losses, and their composition. They are the compositions of host operations the reference program performs, for any
  float values; nothing here runs a program or reads a memory.
-/
import proofs.«150753_j16406775071064_2_alg».proof.Proof.Gen.ReferenceIdeal
import proofs.«150753_j16406775071064_2_alg».proof.Proof.LibTakeAlong

noncomputable section

namespace Cert.RefSide

open Cert.ReferenceIdeal Cert.ReferenceIdeal.Gen Idealize.ShloMosaic

variable {F : FTy → Type} [FloatOps F]

/-! ## The named intermediates -/

/-- The row maxima: the fold of the maximum from the word of minus infinity, once more against that word. -/
def rowMaxV (X : FVec F S4096x50257 .f32) : FVec F S4096 .f32 :=
  maximumf (broadcastInDim S4096 ![] bcast_S_S4096 (constant S_ .f32 0xFF800000#32))
    (Host.reduce FloatOps.maximumf X (constant S_ .f32 0xFF800000#32) reducesTo_S4096x50257_S4096_d1 h_S_)

/-- The scores with their row's maximum taken off. -/
def shifted (X : FVec F S4096x50257 .f32) : FVec F S4096x50257 .f32 :=
  subf X (broadcastInDim S4096x50257 ![0, 1] bcast_S4096x1_S4096x50257_0_1 (broadcastInDim S4096x1 ![0] bcast_S4096_S4096x1_0 (rowMaxV X)))

/-- The log-softmax table. -/
def logSoftmax (X : FVec F S4096x50257 .f32) : FVec F S4096x50257 .f32 :=
  subf (shifted X) (broadcastInDim S4096x50257 ![0, 1] bcast_S4096x1_S4096x50257_0_1 (Host.log (broadcastInDim S4096x1 ![0] bcast_S4096_S4096x1_0
    (Host.reduceAdd (Host.exp (shifted X)) (constant S_ .f32 0x00000000#32) reducesTo_S4096x50257_S4096_d1 h_S_))))

/-- The target words along a unit axis. -/
def targetCol (tg : IVec S4096 32) : IVec S4096x1 32 := broadcastInDim S4096x1 ![0] bcast_S4096_S4096x1_0 tg

/-- The entry of every row of a table its target word names. -/
def picked (lp : FVec F S4096x50257 .f32) (tc : IVec S4096x1 32) : FVec F S4096x1 .f32 :=
  Cert.TakeAlong.takeAlong gather_S4096x50257_S4096x1x1_S4096x1_n_1_0_0_1_2_11 bcast_S_S4096x1 shapeCasts_S4096x1_S4096x1x1
    bcast_S_S4096x1x1 bcast_S1_S1x1x1_2 bcast_S1x1x1_S4096x1x1_0_1_2 reducesTo_S4096x1x1_S4096x1_d2 h_S_ lp tc

/-- The mean of the row losses, from a table of logarithmic shares and the picked entries. -/
def lossOf (lp : FVec F S4096x50257 .f32) (pk : FVec F S4096x1 .f32) : FVec F S_ .f32 :=
  Host.divf (Host.reduceAdd (Host.negf (addf
      (mulf (broadcastInDim S4096 ![] bcast_S_S4096 (constant S_ .f32 0x3F666645#32)) (shapeCast _ pk shapeCasts_S4096x1_S4096))
      (mulf (broadcastInDim S4096 ![] bcast_S_S4096 (constant S_ .f32 0x360588B6#32))
        (Host.reduceAdd lp (constant S_ .f32 0x00000000#32) reducesTo_S4096x50257_S4096_d1 h_S_))))
    (constant S_ .f32 0x00000000#32) reducesTo_S4096_S_d0 h_S_) (constant S_ .f32 0x45800000#32)

/-- The whole line's result, from the table of scores and the target words. -/
def result (X : FVec F S4096x50257 .f32) (tg : IVec S4096 32) : FVec F S_ .f32 :=
  lossOf (logSoftmax X) (picked (logSoftmax X) (targetCol tg))

end Cert.RefSide

end
-- ==== Proof.RefRun.lean ====
/-
  The reference computation as a straight line of host operations, and what it leaves in memory.

  The line falls into three consecutive windows. The first turns the table of scores into its row-wise log-softmax
  (the row maxima, the shifted scores, the logarithm of the row totals of their exponentials) and spreads the target
  words along a unit axis. The second reads, in every row, the log-softmax entry the row's target word names. The third
  forms the row losses from the picked entries and the row totals of the log-softmax table, and averages them.
  Each window's result is stated over an arbitrary memory, as a named function of the buffers the window reads; the
  whole line's result is their composition.
-/
import proofs.«150753_j16406775071064_2_alg».proof.Proof.Gen.ReferenceIdeal
import Idealize.ShloMosaic.Lib.StableHlo.Run
import proofs.«150753_j16406775071064_2_alg».proof.Proof.LibTakeAlong
import proofs.«150753_j16406775071064_2_alg».proof.Proof.RefDefs

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The first window: the log-softmax of the table, and the target words along a unit axis. -/
abbrev opsA : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf,
    TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf,
    unary main_arg1 main_v1 (broadcastInDim S4096x1 ![0] bcast_S4096_S4096x1_0 : (⟨S4096, .i32⟩ : BufTy).Contents (Elt F) → (⟨S4096x1, .i32⟩ : BufTy).Contents (Elt F)) ]

/-- The second window: the entry of every row its target word names. -/
abbrev opsB : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v0) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select ]

/-- The third window: the row losses and their mean. -/
abbrev opsC : List (HloOp τ sig (Elt F)) :=
  [ reshape main_v2 main_v3 rfl shapeCasts_S4096x1_S4096,
    nullary main_cst (constant S_ .f32 0x3F666645#32),
    unary main_cst main_v4 (broadcastInDim S4096 ![] bcast_S_S4096 : (⟨S_, .f32⟩ : BufTy).Contents (Elt F) → (⟨S4096, .f32⟩ : BufTy).Contents (Elt F)),
    binary main_v4 main_v3 main_v5 (mulf : (⟨S4096, .f32⟩ : BufTy).Contents (Elt F) → (⟨S4096, .f32⟩ : BufTy).Contents (Elt F) → (⟨S4096, .f32⟩ : BufTy).Contents (Elt F)),
    nullary main_cst_0 (constant S_ .f32 0x00000000#32),
    binary main_v0 main_cst_0 main_v6 ((fun x v => Host.reduceAdd x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    nullary main_cst_1 (constant S_ .f32 0x360588B6#32),
    unary main_cst_1 main_v7 (broadcastInDim S4096 ![] bcast_S_S4096 : (⟨S_, .f32⟩ : BufTy).Contents (Elt F) → (⟨S4096, .f32⟩ : BufTy).Contents (Elt F)),
    binary main_v7 main_v6 main_v8 (mulf : (⟨S4096, .f32⟩ : BufTy).Contents (Elt F) → (⟨S4096, .f32⟩ : BufTy).Contents (Elt F) → (⟨S4096, .f32⟩ : BufTy).Contents (Elt F)),
    binary main_v5 main_v8 main_v9 (addf : (⟨S4096, .f32⟩ : BufTy).Contents (Elt F) → (⟨S4096, .f32⟩ : BufTy).Contents (Elt F) → (⟨S4096, .f32⟩ : BufTy).Contents (Elt F)),
    unary main_v9 main_v10 (Host.negf : (⟨S4096, .f32⟩ : BufTy).Contents (Elt F) → (⟨S4096, .f32⟩ : BufTy).Contents (Elt F)),
    nullary main_cst_2 (constant S_ .f32 0x00000000#32),
    binary main_v10 main_cst_2 main_v11 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_3 (constant S_ .f32 0x45800000#32),
    binary main_v11 main_cst_3 main_v12 (Host.divf : (⟨S_, .f32⟩ : BufTy).Contents (Elt F) → (⟨S_, .f32⟩ : BufTy).Contents (Elt F) → (⟨S_, .f32⟩ : BufTy).Contents (Elt F)) ]

/-- The whole line, in order. -/
abbrev ops : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf,
    TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf,
    unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v0) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select,
    reshape main_v2 main_v3 rfl shapeCasts_S4096x1_S4096,
    nullary main_cst (constant S_ .f32 0x3F666645#32),
    unary main_cst main_v4 (broadcastInDim S4096 ![] bcast_S_S4096 : (⟨S_, .f32⟩ : BufTy).Contents (Elt F) → (⟨S4096, .f32⟩ : BufTy).Contents (Elt F)),
    binary main_v4 main_v3 main_v5 (mulf : (⟨S4096, .f32⟩ : BufTy).Contents (Elt F) → (⟨S4096, .f32⟩ : BufTy).Contents (Elt F) → (⟨S4096, .f32⟩ : BufTy).Contents (Elt F)),
    nullary main_cst_0 (constant S_ .f32 0x00000000#32),
    binary main_v0 main_cst_0 main_v6 ((fun x v => Host.reduceAdd x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    nullary main_cst_1 (constant S_ .f32 0x360588B6#32),
    unary main_cst_1 main_v7 (broadcastInDim S4096 ![] bcast_S_S4096 : (⟨S_, .f32⟩ : BufTy).Contents (Elt F) → (⟨S4096, .f32⟩ : BufTy).Contents (Elt F)),
    binary main_v7 main_v6 main_v8 (mulf : (⟨S4096, .f32⟩ : BufTy).Contents (Elt F) → (⟨S4096, .f32⟩ : BufTy).Contents (Elt F) → (⟨S4096, .f32⟩ : BufTy).Contents (Elt F)),
    binary main_v5 main_v8 main_v9 (addf : (⟨S4096, .f32⟩ : BufTy).Contents (Elt F) → (⟨S4096, .f32⟩ : BufTy).Contents (Elt F) → (⟨S4096, .f32⟩ : BufTy).Contents (Elt F)),
    unary main_v9 main_v10 (Host.negf : (⟨S4096, .f32⟩ : BufTy).Contents (Elt F) → (⟨S4096, .f32⟩ : BufTy).Contents (Elt F)),
    nullary main_cst_2 (constant S_ .f32 0x00000000#32),
    binary main_v10 main_cst_2 main_v11 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_3 (constant S_ .f32 0x45800000#32),
    binary main_v11 main_cst_3 main_v12 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ (opsB ++ opsC) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., binary_bufs_sub .., nullary_bufs_sub .., unary_bufs_sub .., binary_bufs_sub .., binary_bufs_sub .., unary_bufs_sub .., nullary_bufs_sub .., binary_bufs_sub .., nullary_bufs_sub .., binary_bufs_sub ..⟩

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Each window over an arbitrary memory -/

/-- Moving contents to a buffer's own type and back is the identity. -/
theorem ofBuf_toBuf {T : BufTy} (x : TRef sig T) (v : T.Contents (Elt F)) : x.ofBuf (x.toBuf v) = v := by
  obtain ⟨r, h, h2, h3⟩ := x
  subst h
  rfl

/-- At the log-softmax table's buffer, and at the table of scores', that move is the identity. -/
theorem toBuf_v0 (t : (⟨S4096x50257, .f32⟩ : BufTy).Contents (Elt F)) :
    (TRef.of (sig := sig) (T := ⟨S4096x50257, .f32⟩) main_v0).toBuf t = t := rfl
theorem ofBuf_arg0 (w : (main_arg0 : Ref sig .tc).ty.Contents (Elt F)) :
    (TRef.of (sig := sig) (T := ⟨S4096x50257, .f32⟩) main_arg0).ofBuf w = w := rfl

theorem afterA_v0 (V : Valuation τ sig (Elt F)) :
    after opsA V (Proc.devRef .tc main_v0) = logSoftmax (V (Proc.devRef .tc main_arg0)) := by
  after_results_simp
  simp only [ofBuf_toBuf, toBuf_v0, ofBuf_arg0]
  unfold logSoftmax shifted rowMaxV
  rfl

theorem afterA_v1 (V : Valuation τ sig (Elt F)) :
    after opsA V (Proc.devRef .tc main_v1) = targetCol (V (Proc.devRef .tc main_arg1)) := by
  after_results_simp
  rfl

theorem afterB_v2 (V : Valuation τ sig (Elt F)) :
    after opsB V (Proc.devRef .tc main_v2) = picked (V (Proc.devRef .tc main_v0)) (V (Proc.devRef .tc main_v1)) := by
  after_results_simp
  rfl

theorem afterB_v0 (V : Valuation τ sig (Elt F)) :
    after opsB V (Proc.devRef .tc main_v0) = V (Proc.devRef .tc main_v0) := by
  after_results_simp

theorem afterC_v12 (V : Valuation τ sig (Elt F)) :
    after opsC V (Proc.devRef .tc main_v12) = lossOf (V (Proc.devRef .tc main_v0)) (V (Proc.devRef .tc main_v2)) := by
  after_results_simp
  rfl

/-- The whole line's result buffer, over an arbitrary memory. -/
theorem after_ops_v12 (V : Valuation τ sig (Elt F)) :
    after ops V (Proc.devRef .tc main_v12) = result (V (Proc.devRef .tc main_arg0)) (V (Proc.devRef .tc main_arg1)) := by
  rw [ops_split, after_append, after_append, afterC_v12, afterB_v2, afterB_v0, afterA_v0, afterA_v1]
  rfl

/-! ## The run -/

set_option maxRecDepth 8192 in
set_option maxHeartbeats 2000000 in
/-- On every device, for any float values, from any memory with zero counters: every weakly fair execution of the
    reference terminates with its result buffer at `result` of the launch's table of scores and target words, and the
    two arguments unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (after_ops_v12 (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.RefSide

end
-- ==== Proof.RefLoss.lean ====
/-
  The reference computation read on the extended reals, index by index: the row maxima are the suprema of the rows,
  the log-softmax table is the table of logarithmic shares, and the result is the mean of the rows' losses.
-/
import proofs.«150753_j16406775071064_2_alg».proof.Proof.RefDefs
import proofs.«150753_j16406775071064_2_alg».proof.Proof.LibTakeAlong
import proofs.«150753_j16406775071064_2_alg».proof.Proof.Spec
import Idealize.ShloMosaic.Lib.IdealHost
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.RefSide

open Cert.ReferenceIdeal Cert.ReferenceIdeal.Gen Idealize.ShloMosaic Idealize.ShloMosaic.ValueIdx

/-! ## Words, indices and layout -/

/-- The word of minus infinity denotes the bottom element. -/
theorem ninf_word : Ideal.ofBits .f32 0xFF800000#32 = (⊥ : EReal) := by simp [Ideal.ofBits, Ideal.ieee]

/-- A fold of the maximum from the bottom element is the supremum. -/
theorem fold_max_bot_eq_sup {ι : Type} (s : Finset ι) (f : ι → EReal) : s.fold max ⊥ f = s.sup f :=
  eq_of_forall_ge_iff fun c => by
    rw [Finset.fold_max_le, Finset.sup_le_iff]
    exact ⟨fun h => h.2, fun h => ⟨bot_le, h⟩⟩

/-- The indices of a vector are its coordinates. -/
def idxEquiv1 {n : Nat} : (⟨1, ![n]⟩ : Shape).Idx ≃ Fin n where
  toFun j := j 0
  invFun i := ix1 i
  left_inv j := (eq_ix1 j).symm
  right_inv i := rfl

/-- A sum over the indices of a vector is the sum over its coordinates. -/
theorem sum_idx1 {M : Type} [AddCommMonoid M] {n : Nat} (f : (⟨1, ![n]⟩ : Shape).Idx → M) :
    ∑ j, f j = ∑ i : Fin n, f (ix1 i) := by
  rw [← Equiv.sum_comp (idxEquiv1 (n := n)).symm f]
  rfl

/-- The witness that names the inserted column. -/
theorem reduces_d1 : S4096x50257.Reduces [1] S4096 := by decide

/-- Row i with column k put back is the entry (i, k). -/
theorem lift_row (i : Fin 4096) (k : Fin 50257) : reduces_d1.lift (ix1 i) k = ix2 i k := by
  funext c; apply Fin.ext
  match c with
  | ⟨0, _⟩ => rfl
  | ⟨1, _⟩ => rfl

/-- A column cast to a vector reads, at i, the column's entry of row i. -/
theorem shapeCast_col_apply {α : Type} (x : S4096x1.Idx → α) (i : Fin 4096) :
    shapeCast S4096 x shapeCasts_S4096x1_S4096 (ix1 i) = x (ix2 i 0) :=
  shapeCast_apply x _ _ _ (by
    rw [Shape.rowMajor_val_two, Shape.rowMajor_val_one]
    show i.val * 1 + 0 = i.val
    omega)

/-- A vector laid along a unit axis reads, at (i, u), the vector's entry i. -/
theorem bcast_col_apply {α : Type} (x : S4096.Idx → α) (i : Fin 4096) (u : Fin 1) :
    broadcastInDim S4096x1 ![0] bcast_S4096_S4096x1_0 x (ix2 i u) = x (ix1 i) :=
  broadcastInDim_apply ![0] bcast_S4096_S4096x1_0 x (ix2 i u) (ix1 i) fun a => by
    match a with
    | ⟨0, _⟩ => show i.val = if (4096 : ℕ) = 1 then 0 else i.val; rw [if_neg (by decide)]

/-- A column repeated along the rows reads, at (i, j), the column's entry of row i. -/
theorem bcast_rows_apply {α : Type} (x : S4096x1.Idx → α) (i : Fin 4096) (j : Fin 50257) :
    broadcastInDim S4096x50257 ![0, 1] bcast_S4096x1_S4096x50257_0_1 x (ix2 i j) = x (ix2 i 0) :=
  broadcastInDim_apply ![0, 1] bcast_S4096x1_S4096x50257_0_1 x (ix2 i j) (ix2 i 0) fun a => by
    match a with
    | ⟨0, _⟩ => show i.val = if (4096 : ℕ) = 1 then 0 else i.val; rw [if_neg (by decide)]
    | ⟨1, _⟩ => show (0 : ℕ) = if (1 : ℕ) = 1 then 0 else j.val; rw [if_pos rfl]

/-- The sum over the columns, read at row i: the initial word plus the sum of the row's entries. -/
theorem rowSum_apply (v : FVec Ideal S4096x50257 .f32) (init : FVec Ideal S_ .f32) (i : Fin 4096) :
    Host.reduceAdd v init reducesTo_S4096x50257_S4096_d1 h_S_ (ix1 i)
      = init (Shape.Idx.first h_S_) + ∑ k : Fin 50257, v (ix2 i k) := by
  rw [hostReduceAdd_apply, Ideal.hostReduceAdd_single reducesTo_S4096x50257_S4096_d1 reduces_d1]
  refine congrArg₂ (· + ·) rfl (Finset.sum_congr rfl fun k _ => ?_)
  exact congrArg v (lift_row i k)

/-! ## The stages -/

/-- The row maxima are the suprema of the rows. -/
theorem rowMaxV_apply (X : FVec Ideal S4096x50257 .f32) (i : Fin 4096) :
    rowMaxV (F := Ideal) X (ix1 i) = Cert.LabelSmooth.rowMax (fun j => X (ix2 i j)) := by
  unfold rowMaxV
  rw [maximumf_apply, broadcastInDim_scalar_apply, constant_apply,
    Host.reduce_eq_fold_single FloatOps.maximumf X _ reducesTo_S4096x50257_S4096_d1 reduces_d1 h_S_, constant_apply, ninf_word]
  unfold Cert.LabelSmooth.rowMax
  rw [max_eq_right bot_le, ← fold_max_bot_eq_sup]
  show Finset.fold max ⊥ (X ∘ reduces_d1.lift (ix1 i)) (Finset.univ : Finset (Fin 50257)) = _
  refine congrArg (fun f => Finset.fold max ⊥ f (Finset.univ : Finset (Fin 50257))) (funext fun k => ?_)
  exact congrArg X (lift_row i k)

/-- The shifted scores. -/
theorem shifted_apply (X : FVec Ideal S4096x50257 .f32) (i : Fin 4096) (j : Fin 50257) :
    shifted (F := Ideal) X (ix2 i j) = X (ix2 i j) - Cert.LabelSmooth.rowMax (fun j => X (ix2 i j)) := by
  unfold shifted
  rw [subf_apply, bcast_rows_apply, bcast_col_apply, rowMaxV_apply]

/-- The log-softmax table is the table of logarithmic shares. -/
theorem logSoftmax_apply (X : FVec Ideal S4096x50257 .f32) (i : Fin 4096) (j : Fin 50257) :
    logSoftmax (F := Ideal) X (ix2 i j) = Cert.LabelSmooth.logProb (fun j => X (ix2 i j)) j := by
  unfold logSoftmax
  rw [subf_apply, bcast_rows_apply]
  rw [show ∀ (v : FVec Ideal S4096x1 .f32) (k : S4096x1.Idx), Host.log v k = Ideal.log (v k) from fun _ _ => rfl]
  rw [bcast_col_apply, rowSum_apply, shifted_apply]
  unfold Cert.LabelSmooth.logProb Cert.LabelSmooth.rowSumExp
  refine congrArg₂ (· - ·) rfl (congrArg Ideal.log (congrArg₂ (· + ·) rfl (Finset.sum_congr rfl fun k _ => ?_)))
  rw [show ∀ (v : FVec Ideal S4096x50257 .f32) (k : S4096x50257.Idx), Host.exp v k = Ideal.exp (v k) from fun _ _ => rfl]
  rw [shifted_apply]

/-- The picked logarithmic share of row i. -/
theorem picked_apply (lp : FVec Ideal S4096x50257 .f32) (tg : IVec S4096 32) (i : Fin 4096) :
    picked (F := Ideal) lp (targetCol tg) (ix2 i 0) = Cert.LabelSmooth.pick (tg (ix1 i)) (fun j => lp (ix2 i j)) := by
  unfold picked targetCol
  exact Cert.TakeAlong.takeAlong_bcast_apply gather_S4096x50257_S4096x1x1_S4096x1_n_1_0_0_1_2_11_wf _ _ _ _ _ _ _ _ lp tg i

/-- THE REFERENCE'S RESULT: the mean of the rows' losses. -/
theorem result_spec (X : FVec Ideal S4096x50257 .f32) (tg : IVec S4096 32) :
    result (F := Ideal) X tg
      = fun _ => Cert.LabelSmooth.refLoss (fun i j => X (ix2 i j)) (fun i => tg (ix1 i)) := by
  funext j0
  unfold result lossOf
  rw [hostDivf_apply, hostReduceAdd_apply,
    Ideal.hostReduceAdd_total reducesTo_S4096_S_d0 (fun b => b.elim0), sum_idx1]
  unfold Cert.LabelSmooth.refLoss Cert.LabelSmooth.mean
  refine congrArg₂ Ideal.div (congrArg₂ (· + ·) rfl (Finset.sum_congr rfl fun i _ => ?_)) rfl
  rw [show ∀ (v : FVec Ideal S4096 .f32) (k : S4096.Idx), Host.negf v k = -(v k) from fun _ _ => rfl]
  simp only [addf_apply, mulf_apply]
  rw [shapeCast_col_apply, picked_apply, rowSum_apply]
  rw [broadcastInDim_scalar_apply, broadcastInDim_scalar_apply]
  have hlp : (fun j => logSoftmax (F := Ideal) X (ix2 i j)) = Cert.LabelSmooth.logProb (fun j => X (ix2 i j)) :=
    funext fun j => logSoftmax_apply X i j
  rw [hlp]
  unfold Cert.LabelSmooth.refRow
  rfl

end Cert.RefSide

end
-- ==== Proof.RefSpec.lean ====
/-
  The reference's run, read against the specification: its result buffer ends at the label-smoothing loss of its two
  argument arrays (the table of scores row by row, one target word per row), and the arguments end as they were.
-/
import proofs.«150753_j16406775071064_2_alg».proof.Proof.RefRun
import proofs.«150753_j16406775071064_2_alg».proof.Proof.RefLoss

noncomputable section

namespace Cert.RefSide

open Cert.ReferenceIdeal Cert.ReferenceIdeal.Gen
open Idealize.ShloMosaic Idealize.ShloMosaic.TcCoe Idealize.SL.Sem

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
          = (fun _ => Cert.LabelSmooth.refLoss (fun i j => m ((c.tc : Thread nD τ).loc main_arg0) (ValueIdx.ix2 i j))
              (fun i => m ((c.tc : Thread nD τ).loc main_arg1) (ValueIdx.ix1 i)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_spec _ _), (h c).2⟩) (run_result (F := Ideal) m ρ)

end Cert.RefSide

end
-- ==== Proof.lean ====
/-
  The label-smoothing loss kernel against its reference: the claim's five parts.

  The kernel streams the [4096, 50257] table of scores once, in blocks of 512 rows by 2048 columns, keeping per row a
  running maximum, a running normaliser (the sum of the exponentials of the entries shifted by the running maximum, rescaled
  whenever the maximum moves) and a running total; the last column block has only 1105 columns inside the table and is
  masked.  From the row's log-sum-exp `lse` and total `sumx`, and the target's raw score picked on the host, the loss of a
  row is `-(coef * (picked - lse) + off * (sumx - C * lse))`.  The reference takes the log-softmax of each row, picks the
  target's share and sums the shares: `-(coef * picked share + off * sum of shares)`.  On the extended reals, with every
  score a real number (the precondition), the two agree row by row: a share is `score - lse`, the shares of a row sum to
  `sumx - C * lse` (C = 50257 columns, the word the kernel multiplies by), the blockwise running triple ends at the row's
  maximum, normaliser and total whatever the blocking, and a target word that names no column picks the bottom element on
  both sides, which both arrangements send to the same value.

  The frames: each program runs to its end, faults nowhere and leaves its two arguments unchanged.  For the kernel this is
  proved once for any float family (the body at each of the 200 grid points in its three cases, the three carried columns
  tracked from point to point) and read at the word-level family and at the extended reals; for the reference it is its
  run with the result dropped.  No operation of the kernel was rewritten for the idealized reading, so that part is trivial.
-/
import proofs.«150753_j16406775071064_2_alg».proof.Defs
import proofs.«150753_j16406775071064_2_alg».proof.Proof.Gen.Kernel
import proofs.«150753_j16406775071064_2_alg».proof.Proof.Gen.KernelIdeal
import proofs.«150753_j16406775071064_2_alg».proof.Proof.Gen.ReferenceIdeal
import proofs.«150753_j16406775071064_2_alg».proof.Proof.Gen.Pre_finite_inputs
import proofs.«150753_j16406775071064_2_alg».proof.Proof.BBody
import proofs.«150753_j16406775071064_2_alg».proof.Proof.KAlg
import proofs.«150753_j16406775071064_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs, faults nowhere and keeps its arguments. -/
theorem frame_k : Cert.frame_Kernel (hKernel := Cert.Kernel.Gen.facts) (hPre_finite_inputs := Cert.Pre_finite_inputs.Gen.facts) :=
  fun m ρ _ => Cert.Kernel.Body.frame (F := Bits) m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run_spec m ρ)

/-- The idealized kernel is the kernel's own text: nothing was rewritten. -/
theorem preserves : Cert.preserves_Kernel_KernelIdeal := trivial

/-- Both idealized programs end with the specification's loss of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Body.kernel_run m ρ hpre, ?_⟩
  refine (θ_run Cert.ReferenceIdeal.defs _ _).mono (fun _ h c => ⟨(h c).1.trans ?_, (h c).2⟩)
    (Cert.RefSide.run_spec m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
